-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1x1024 : Shape := ⟨2, ![1, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x4096x1024 .f32) (main_arg1 : FVec F S1x1024 .f32) (main_arg2 : FVec F S1024x1024 .f32) (main_arg3 : FVec F S1024x1024 .f32) (main_arg4 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x4096x1024 : Shape := ⟨3, ![8, 4096, 1024]⟩
abbrev S1x1024 : Shape := ⟨2, ![1, 1024]⟩
abbrev S1024x1024 : Shape := ⟨2, ![1024, 1024]⟩
abbrev S8x1x1024 : Shape := ⟨3, ![8, 1, 1024]⟩
abbrev S1x2048x1024 : Shape := ⟨3, ![1, 2048, 1024]⟩
abbrev S1x1x1024 : Shape := ⟨3, ![1, 1, 1024]⟩
abbrev S1x1 : Shape := ⟨2, ![1, 1]⟩
abbrev S2048x1024 : Shape := ⟨2, ![2048, 1024]⟩
abbrev S1x2048 : Shape := ⟨2, ![1, 2048]⟩
abbrev S1 : Shape := ⟨1, ![1]⟩
abbrev S1x1024x1024 : Shape := ⟨3, ![1, 1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S8x1x1024, .f32⟩
  | .hbm, ⟨10, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1, .f32⟩
  | .local _ .vmem, ⟨7, _⟩ => ⟨S1x1, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v38 : BitVec 1 := Scalar.cmpi .eq arg1 c1_i32
  let v39 : BitVec 32 := Scalar.extui v38
  let c0_i32_20 : BitVec 32 := 0#32
  let v40 : BitVec 1 := Scalar.cmpi .ne v39 c0_i32_20
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S1x2048_S1 : S1x2048.Reduces [1] S1
  shapeCasts_S1_S1x1 : S1.ShapeCasts S1x1
  broadcasts_S1x1_S1x2048 : S1x1.Broadcasts S1x2048
  broadcasts_S1x1_S1x1024 : S1x1.Broadcasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1024_S1024x1024 : S1x1024.Broadcasts S1024x1024
  shapeCasts_S1024x1024_S1x1024x1024 : S1024x1024.ShapeCasts S1x1024x1024
  dot_S1x1024_S2048x1024_S1x2048_1_1_0_0_n_n_wf : DotDims.WF S1x1024 S2048x1024 S1x2048 [1] [1] [0] [0] [] []
  dot_S1x2048_S2048x1024_S1x1024_1_0_0_1_n_n_wf : DotDims.WF S1x2048 S2048x1024 S1x1024 [1] [0] [0] [1] [] []
  dot_S1x1024_S1024x1024_S1x1024_1_1_0_0_n_n_wf : DotDims.WF S1x1024 S1024x1024 S1x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .bf16 = 32 ∨ (Rect.block (s := S1x1024) S1x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x4096x1024.size a
  hwx1_0 : ∀ i : grid1.Coords, EltTy.bits .f32 = 32 ∨ (Rect.block (s := S8x4096x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S8x1x1024.size a
  hwx1_1 : ∀ i : grid1.Coords, EltTy.bits .f32 = 32 ∨ (Rect.block (s := S8x1x1024) S1x1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x4096x1024.size a
  hwx1_4 : ∀ i : grid1.Coords, EltTy.bits .f32 = 32 ∨ (Rect.block (s := S8x4096x1024) S1x1024x1024.size (cc1_transform_4 i) (hinb1_4 i)).WholeWords (EltTy.packing .f32)

variable [Facts₀]

def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1x1024 : Shape := ⟨2, ![1, 1024]⟩
abbrev S1024x1024 : Shape := ⟨2, ![1024, 1024]⟩
abbrev S8x4096x1 : Shape := ⟨3, ![8, 4096, 1]⟩
abbrev S_ : Shape := ⟨0, ![]⟩
abbrev S8x1 : Shape := ⟨2, ![8, 1]⟩
abbrev S8x1x1 : Shape := ⟨3, ![8, 1, 1]⟩
abbrev S8x1024 : Shape := ⟨2, ![8, 1024]⟩
abbrev S8x1x1024 : Shape := ⟨3, ![8, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x4096x1, .f32⟩
  | .hbm, ⟨6, _⟩ => ⟨S_, .f32⟩
  | .hbm, ⟨7, _⟩ => ⟨S8x1, .f32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S8x1x1, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S8x4096x1_S8x1_d1 : S8x4096x1.ReducesTo [1] S8x1
  h_S_ : 0 < S_.numel
  bcast_S_S8x1 : S_.BroadcastsInDim S8x1 (![] : Fin 0 → Fin S8x1.rank)
  bcast_S8x1_S8x1x1_0_2 : S8x1.BroadcastsInDim S8x1x1 (![0, 2] : Fin 2 → Fin S8x1x1.rank)
  bcast_S8x1x1_S8x4096x1_0_1_2 : S8x1x1.BroadcastsInDim S8x4096x1 (![0, 1, 2] : Fin 3 → Fin S8x4096x1.rank)
  bcast_S8x4096x1_S8x4096x1024_0_1_2 : S8x4096x1.BroadcastsInDim S8x4096x1024 (![0, 1, 2] : Fin 3 → Fin S8x4096x1024.rank)
  reducesTo_S8x4096x1024_S8x1024_d1 : S8x4096x1024.ReducesTo [1] S8x1024
  bcast_S_S8x4096x1024 : S_.BroadcastsInDim S8x4096x1024 (![] : Fin 0 → Fin S8x4096x1024.rank)
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  dot_S8x4096x1024_S1x1024_S8x4096x1_2_1_01_0_n_n_wf : DotDims.WF S8x4096x1024 S1x1024 S8x4096x1 [2] [1] [0, 1] [0] [] []
  dot_S8x4096x1024_S1024x1024_S8x4096x1024_2_1_01_0_n_n_wf : DotDims.WF S8x4096x1024 S1024x1024 S8x4096x1024 [2] [1] [0, 1] [0] [] []

variable [Facts₀]

def dot_S8x4096x1024_S1x1024_S8x4096x1_2_1_01_0_n_n : DotDims S8x4096x1024 S1x1024 S8x4096x1 where
  lhsContracting := [2]
  rhsContracting := [1]
  lhsNonContracting := [0, 1]
  rhsNonContracting := [0]
  lhsBatch := []
  rhsBatch := []
  wf := dot_S8x4096x1024_S1x1024_S8x4096x1_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.RegionY.lean ====
import proofs.«133993_j20667382628681_2_alg».proof.Proof.Gen.KernelIdeal.Launch
import proofs.«133993_j20667382628681_2_alg».proof.Proof.Gen.KernelIdeal.Skeleton
import proofs.«133993_j20667382628681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call's kernel: its proof data and its body obligation

On one 1024-row block of x the kernel computes (s ⊙ relu (x · W₁ᵀ)) · W₂ᵀ, the left factor of each product rounded
to bf16 and the products accumulated in f32: four whole-block loads (the x block, the two weight matrices, the scale
row s), then one whole-block store of the result into the output window's staging buffer. Everything here is stated at a parameter V, the TensorCore's buffer contents when the
region is entered, and at any float instance. -/

set_option maxRecDepth 16384

noncomputable section

namespace Cert.KernelIdeal.RegionY

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's current staging buffer holds its block at every point, for any proof data whose array is V's and
    whose body leaves the block in place: fetched there, it is the block; not fetched, its block index has not moved. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The scale row's window is fetched only where the batch coordinate moves; elsewhere its block index has not
    moved and the buffer still holds the block. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first weight matrix is fetched once, at the first point: its block index is constant over the grid. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The second weight matrix likewise. -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole rectangle of the x block and of the output block; -/
abbrev rX : Rect S1x1024x1024 := Rect.unit (s := S1x1024x1024) ![0, 0, 0] S1x1024x1024.size inb_S1x1024x1024_S1x1024x1024_0_0_0
/-- of a weight matrix; -/
abbrev rW : Rect S1024x1024 := Rect.unit (s := S1024x1024) ![0, 0] S1024x1024.size inb_S1024x1024_S1024x1024_0_0
/-- of the scale row. -/
abbrev rS : Rect S1x1x1024 := Rect.unit (s := S1x1x1024) ![0, 0, 0] S1x1x1024.size inb_S1x1x1024_S1x1x1024_0_0_0

/-! ## What the body leaves in the output window's buffer -/

/-- The output window's staging buffer after the body, from the input windows' blocks (x0 the x block, x1 the scale
    row, x2 and x3 the weight matrices): its one store, the whole rectangle carrying the kernel's payload of the four
    loaded blocks. -/
def outY (x0 : Vec F S1x1024x1024 .f32) (x1 : Vec F S1x1x1024 .f32) (x2 x3 : Vec F S1024x1024 .bf16) : Vec F S1x1024x1024 .f32 :=
  View.canon [⟨rX, k1_pay1 (View.ld x0 rX) (View.ld x2 rW) (View.ld x3 rW) (View.ld x1 rS)⟩]

/-- The one store is of the whole rectangle, so it covers the buffer (one block of the buffer's own size). -/
theorem coverY (p0 : Vec F S1x1024x1024 .f32) (y : S1x1024x1024.Idx) :
    ∃ pc ∈ ([⟨rX, p0⟩] : List (View.Piece (Elt F) S1x1024x1024 .f32)), y ∈ pc.1.set :=
  View.cover_of_tiled [⟨rX, p0⟩] S1x1024x1024.size (by rfl) y

/-! ## The body's triple -/

set_option maxHeartbeats 1000000 in
/-- The kernel body on whole staging memrefs, the inputs' at read contents x0..x3 and the output's at anything, runs
    to the continuation holding the inputs' as they were and the output's at outY of the inputs'. -/
theorem sound_kernel (c : Dev nD) (E : Set ℕ) (i : grid1.Coords)
    (arg2 : Memref sig .tc .vmem S1x1024x1024 .f32) (harg2 : arg2.IsWhole) (arg3 : Memref sig .tc .vmem S1x1x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .f32) (harg6 : arg6.IsWhole)
    (x0 : Vec F S1x1024x1024 .f32) (x1 : Vec F S1x1x1024 .f32) (x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outY x0 x1 x2 x3)) -∗ K ⟨⟩))
      ⊢ wp frame (wpE (defs₀ (F := F)) Variants.none c none) E (cc1__y_kernel i arg2 harg2 arg3 harg3 arg4 harg4 arg5 harg5 arg6 harg6) K := by
  simp only [cc1__y_kernel_eq_skeleton]; unfold cc1__y_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverY _)

/-! ## The pipeline's proof data -/

/-- The proof data of the pipeline on core c: the arrays as the region finds them (V); after the body at point t
    each input's buffer at its block and the output's at outY of the input blocks; the invariant is the core's scoped
    buffers that are no staging buffer, each at some contents, and its generator register at some state, which the body
    never touches; nothing owed; full shares. -/
def dat (c : Dev nD) : Pipeline.Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outY (iblk V c 0 t) (iblk V c 1 t) (iblk V c 2 t) (iblk V c 3 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves in the input windows' buffers: their blocks, in place. -/
theorem after_in (c : Dev nD) (t : Fin cfg1.N) : (dat V c).after 0 t = iblk V c 0 t ∧ (dat V c).after 1 t = iblk V c 1 t ∧ (dat V c).after 2 t = iblk V c 2 t ∧ (dat V c).after 3 t = iblk V c 3 t := by
  refine ⟨?_, ?_, ?_, ?_⟩ <;> dsimp only [dat]

/-- What the body leaves in the output window's buffer: the payload of the four input blocks. -/
theorem after_out (c : Dev nD) (t : Fin cfg1.N) : (dat V c).after 4 t = outY (iblk V c 0 t) (iblk V c 1 t) (iblk V c 2 t) (iblk V c 3 t) := by
  dsimp only [dat]

/-- Each input's current staging buffer holds its block at every point, fetched there or not. -/
theorem before_0 (c : Dev nD) (t : Fin cfg1.N) (d) : (dat V c).before 0 t d = iblk V c 0 t :=
  before_of_0 V (dat V c) (A_eq V c 0) (fun t => (after_in V c t).1) t d
theorem before_1 (c : Dev nD) (t : Fin cfg1.N) (d) : (dat V c).before 1 t d = iblk V c 1 t :=
  before_of_1 V (dat V c) (A_eq V c 1) (fun t => (after_in V c t).2.1) t d
theorem before_2 (c : Dev nD) (t : Fin cfg1.N) (d) : (dat V c).before 2 t d = iblk V c 2 t :=
  before_of_2 V (dat V c) (A_eq V c 2) (fun t => (after_in V c t).2.2.1) t d
theorem before_3 (c : Dev nD) (t : Fin cfg1.N) (d) : (dat V c).before 3 t d = iblk V c 3 t :=
  before_of_3 V (dat V c) (A_eq V c 3) (fun t => (after_in V c t).2.2.2) t d

/-! ## The body obligation, at a generic point -/

/-- What the body is called with at point t: the invariant, what is owed, and the five windows' current staging
    buffers one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the kernel's triple applies; the invariant and
    what is owed pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    (after_in V c t).1, (after_in V c t).2.1, (after_in V c t).2.2.1, (after_in V c t).2.2.2, after_out]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : Pipeline.BodyObligation (dat (F := F) V c) (defs₀ (F := F)) Variants.none () Set.univ := fun t => by
  rw [bigSep_W1, bigSep_W1]
  exact sound_body V c t

end Cert.KernelIdeal.RegionY

end
-- ==== Proof.Assembly.lean ====
import proofs.«133993_j20667382628681_2_alg».proof.Proof.Gen.KernelIdeal.Launch
import proofs.«133993_j20667382628681_2_alg».proof.Proof.Gen.KernelIdeal.Skeleton
import proofs.«133993_j20667382628681_2_alg».proof.Proof.Gen.KernelIdeal.Points
import proofs.«133993_j20667382628681_2_alg».proof.Proof.Gen.KernelIdeal.Regions
import proofs.«133993_j20667382628681_2_alg».proof.Proof.RegionY
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program, from the two kernels' proof data

The program is a stretch of host conversions, then the first kernel's region, then the second's. Between two items
every core holds every unscoped buffer at a valuation: the launch contents, then what the conversions leave, then the
same with the first kernel's result array at what its write-backs leave, then that with the second kernel's result
array likewise. The first kernel's proof data is a parameter (only its arrays, shares, dues, body obligation and the
two ends of its invariant are assumed); the second kernel's is the one of the module RegionY. -/

set_option maxRecDepth 16384

noncomputable section

namespace Cert.KernelIdeal.Assembly

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What is assumed of the first kernel's proof data -/

/-- A TensorCore's buffer contents, per core: what a region's proof data is stated at. -/
abbrev TcVal (F : FTy → Type) [FloatOps F] : Type := (c : Dev nD) → (b : Ref sig .tc) → Buf (Elt F) ((c : Thread nD τ).loc b)

/-- The first kernel's proof data, at any entry contents. -/
abbrev DatX (F : FTy → Type) [FloatOps F] : Type := (V : TcVal F) → (c : Dev nD) → Pipeline.Dat τ (Elt F) Unit ℕ (UR sig nD τ) ℕ cfg0 c

/-- What the run needs of it: its arrays are the entry contents, held at full shares; it owes nothing, and at entry
    bounds the pairs its waits have recorded by nothing; its body obligation holds; and its invariant, which carries the kernel's scratch from point to point, is at its two ends
    the plain one (the scoped buffers no window stages at some contents, the generator register at some state). -/
structure DataX (datX : DatX F) : Prop where
  A_eq : ∀ (V : TcVal F) (c : Dev nD) (w : Fin cfg0.W), (datX V c).A w = V c (Pipeline.arrRef spec0 w)
  q_full : ∀ (V : TcVal F) (c : Dev nD) (w : Fin cfg0.W), (datX V c).q w = fullShare
  owed0 : ∀ (V : TcVal F) (c : Dev nD) (t : Fin (cfg0.N + 1)), (datX V c).owed t = 0
  recorded0 : ∀ (V : TcVal F) (c : Dev nD), (datX V c).recorded 0 = Set.univ
  body : ∀ (V : TcVal F) (c : Dev nD), Pipeline.BodyObligation (datX V c) (defs₀ (F := F)) Variants.none () Set.univ
  phi_in : ∀ (V : TcVal F) (c : Dev nD), (Pipeline.ΦA spec0 c : sProp 𝕄) ⊢ (datX V c).Φ 0
  phi_out : ∀ (V : TcVal F) (c : Dev nD), (datX V c).Φ (Fin.last cfg0.N) ⊢ (Pipeline.ΦA spec0 c : sProp 𝕄)

variable (m : (ℓ : Loc nD τ sig) → Buf (Elt F) ℓ) (ρ : Dev nD → PrngReg)
variable (datX : DatX F)

/-! ## The buffers' contents at the regions' ends -/

/-- The first region's entry contents: what the host conversions leave, read at the TensorCore's references. -/
abbrev VinX : TcVal F := fun c b => Gen.V1 m c (Proc.devRef .tc b)

/-- What the first region leaves: its arrays at what its write-backs fold to, every other buffer as entered. -/
def outsX (r : Ref sig .tc) (c : Dev nD) : Buf (Elt F) ((c : Thread nD τ).loc r) :=
  Pipeline.withArrays spec0 c (Gen.V1 m c) (fun w => (datX (VinX m) c).arrAt w cfg0.N) (Proc.devRef .tc r)

/-- The contents after the first region: only its result array has changed. -/
abbrev V2' (c : Dev nD) : Valuation τ sig (Elt F) := Function.update (Gen.V1 m c) main_v4 (outsX m datX main_v4 c)

/-- The second region's entry contents. -/
abbrev VinY : TcVal F := fun c b => V2' m datX c (Proc.devRef .tc b)

/-- What the second region leaves. -/
def outsY (r : Ref sig .tc) (c : Dev nD) : Buf (Elt F) ((c : Thread nD τ).loc r) :=
  Pipeline.withArrays spec1 c (V2' m datX c) (fun w => (RegionY.dat (VinY m datX) c).arrAt w cfg1.N) (Proc.devRef .tc r)

/-- The contents after the second region: only its result array has changed. -/
abbrev V3' (c : Dev nD) : Valuation τ sig (Elt F) := Function.update (V2' m datX c) main_v5 (outsY m datX main_v5 c)

/-- What the regions leave, in the form the valuations between items are written over. -/
def outs : Gen.Outs (F := F) := fun J r c => if J = 2 then outsX m datX r c else outsY m datX r c

theorem V2_eq (c : Dev nD) : Gen.V2 m (outs m datX) c = V2' m datX c := rfl
theorem V3_eq (c : Dev nD) : Gen.V3 m (outs m datX) c = V3' m datX c := rfl

theorem outsX_arr (c : Dev nD) (w : Fin cfg0.W) :
    outsX m datX (Pipeline.arrRef spec0 w) c = (datX (VinX m) c).arrAt w cfg0.N := by
  unfold outsX; exact Pipeline.withArrays_arr spec0 launch0.win.arr_inj c _ _ w
theorem outsY_arr (c : Dev nD) (w : Fin cfg1.W) :
    outsY m datX (Pipeline.arrRef spec1 w) c = (RegionY.dat (VinY m datX) c).arrAt w cfg1.N := by
  unfold outsY; exact Pipeline.withArrays_arr spec1 launch1.win.arr_inj c _ _ w

/-! ## The exits' contents against the write-backs -/

variable {datX}

/-- After the first region each of its arrays holds what the pipeline leaves there: the result array by the update,
    an input array because nothing writes it back. -/
theorem hFX (hX : DataX datX) (c : Dev nD) : ∀ w : Fin cfg0.W,
    (datX (VinX m) c).arrAt w cfg0.N = VinY m datX c (Pipeline.arrRef spec0 w)
  | 0 => ((datX (VinX m) c).arrAt_in 0 rfl _).trans <| (hX.A_eq (VinX m) c 0).trans
      (Function.update_of_ne (StableHlo.devRef_ne_of_ne (by decide) : (Proc.devRef .tc main_arg0 : DevRef τ sig) ≠ Proc.devRef .tc main_v4) _ _).symm
  | 1 => ((datX (VinX m) c).arrAt_in 1 rfl _).trans <| (hX.A_eq (VinX m) c 1).trans
      (Function.update_of_ne (StableHlo.devRef_ne_of_ne (by decide) : (Proc.devRef .tc main_v0 : DevRef τ sig) ≠ Proc.devRef .tc main_v4) _ _).symm
  | 2 => ((datX (VinX m) c).arrAt_in 2 rfl _).trans <| (hX.A_eq (VinX m) c 2).trans
      (Function.update_of_ne (StableHlo.devRef_ne_of_ne (by decide) : (Proc.devRef .tc main_v1 : DevRef τ sig) ≠ Proc.devRef .tc main_v4) _ _).symm
  | 3 => (outsX_arr m datX c 3).symm.trans (Function.update_self (β := fun b : DevRef τ sig => b.ty.Contents (Elt F)) (Proc.devRef .tc main_v4) _ (Gen.V1 m c)).symm
  | ⟨_ + 4, h⟩ => absurd h (Nat.not_lt.2 (Nat.le_add_left _ _))

/-- Every buffer that is no array of the first region is as entered. -/
theorem hrestX (c : Dev nD) : ∀ b, b ∉ Finset.univ.image (Pipeline.arrRef spec0) → VinY m datX c b = VinX m c b :=
  fun b hb => Function.update_of_ne (StableHlo.devRef_ne_of_ne fun e : b = main_v4 =>
    hb (by rw [e]; exact Finset.mem_image.mpr ⟨3, Finset.mem_univ _, rfl⟩)) _ _

/-- After the second region each of its arrays holds what the pipeline leaves there. -/
theorem hFY (hX : DataX datX) (c : Dev nD) : ∀ w : Fin cfg1.W,
    (RegionY.dat (VinY m datX) c).arrAt w cfg1.N = V3' m datX c (Proc.devRef .tc (Pipeline.arrRef spec1 w))
  | 0 => ((RegionY.dat (VinY m datX) c).arrAt_in 0 rfl _).trans <| (RegionY.A_eq (VinY m datX) c 0).trans
      (Function.update_of_ne (StableHlo.devRef_ne_of_ne (by decide) : (Proc.devRef .tc main_arg0 : DevRef τ sig) ≠ Proc.devRef .tc main_v5) _ _).symm
  | 1 => ((RegionY.dat (VinY m datX) c).arrAt_in 1 rfl _).trans <| (RegionY.A_eq (VinY m datX) c 1).trans
      (Function.update_of_ne (StableHlo.devRef_ne_of_ne (by decide) : (Proc.devRef .tc main_v4 : DevRef τ sig) ≠ Proc.devRef .tc main_v5) _ _).symm
  | 2 => ((RegionY.dat (VinY m datX) c).arrAt_in 2 rfl _).trans <| (RegionY.A_eq (VinY m datX) c 2).trans
      (Function.update_of_ne (StableHlo.devRef_ne_of_ne (by decide) : (Proc.devRef .tc main_v2 : DevRef τ sig) ≠ Proc.devRef .tc main_v5) _ _).symm
  | 3 => ((RegionY.dat (VinY m datX) c).arrAt_in 3 rfl _).trans <| (RegionY.A_eq (VinY m datX) c 3).trans
      (Function.update_of_ne (StableHlo.devRef_ne_of_ne (by decide) : (Proc.devRef .tc main_v3 : DevRef τ sig) ≠ Proc.devRef .tc main_v5) _ _).symm
  | 4 => (outsY_arr m datX c 4).symm.trans (Function.update_self (β := fun b : DevRef τ sig => b.ty.Contents (Elt F)) (Proc.devRef .tc main_v5) _ (V2' m datX c)).symm
  | ⟨_ + 5, h⟩ => absurd h (Nat.not_lt.2 (Nat.le_add_left _ _))

/-- Every buffer that is no array of the second region is as entered. -/
theorem hrestY (c : Dev nD) : ∀ b : Ref sig .tc, b ∉ Finset.univ.image (Pipeline.arrRef spec1) →
    V3' m datX c (Proc.devRef .tc b) = VinY m datX c b :=
  fun b hb => Function.update_of_ne (StableHlo.devRef_ne_of_ne fun e : b = main_v5 =>
    hb (by rw [e]; exact Finset.mem_image.mpr ⟨4, Finset.mem_univ _, rfl⟩)) _ _

/-! ## The proof data family and the thread state -/

variable (datX)

/-- Both pipelines' proof data, each at its region's entry contents. -/
def pdats : (p : Fin 2) → (c : Dev nD) → Dat τ (Elt F) Unit ℕ (UR sig nD τ) ℕ (cfgs p) c
  | ⟨0, _⟩ => fun c => datX (VinX m) c
  | ⟨1, _⟩ => fun c => RegionY.dat (VinY m datX) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it
    owes, which is nothing. -/
abbrev Rest (c : Dev nD) : sProp 𝕄 := iprop((∃ r, prngReg c r) ∗ ∃ W, owes (c : Thread nD τ) (0 : CellTallies nD τ sig Unit) W)

variable {datX}

/-! ## The regions as segments -/

set_option backward.isDefEq.respectTransparency.types false in
/-- The first region over the thread state: entered from every unscoped buffer at what the conversions leave, left with
    the result array updated. Its arrays are split out of the unscoped buffers and put back at the exit contents; the
    generator register goes into the invariant through its first end and comes back through its last; nothing owed;
    no semaphore of the kernel's own. -/
def segX (hX : DataX datX) : Pipeline.RegionSeg (pcfgs (F := F)) adm (pdats m datX) () defs₀ 𝒱₀ L lv 0 where
  win := launch0.win.to₀
  block_pos := launch0.block_pos
  stage_whole := launch0.stage_whole
  K := PEmpty
  osem k := k.elim
  ho := Pipeline.OwnSemFacts.none _
  hbody c := (hX.body (VinX m) c).loose
  hwaits := Pipeline.hwaits_of_owed_zero _ _ _ _ L lv 0 fun c t => hX.owed0 (VinX m) c t
  pre c := iprop(StableHlo.held (c : Thread nD τ) (Pipeline.ucRefs τ sig) (Gen.V1 m c) ∗ Rest c)
  post c := iprop(StableHlo.held (c : Thread nD τ) (Pipeline.ucRefs τ sig) (V2' m datX c) ∗ Rest c)
  X c := iprop(∃ r, prngReg c r)
  Y c := iprop(∃ r, prngReg c r)
  Z c := Pipeline.unscopedRest (Ix := Unit) (Name := ℕ) (U := UR sig nD τ) (Lvl := ℕ) spec0 c (VinX m c)
  hentry c := by
    rw [Pipeline.ownSems0_none]
    have hsplit := Pipeline.arrays_of_unscopedBufs (p := 0) (pcfgs (F := F)) adm (pdats m datX) launch0.win launch0.arr_whole c
      ((pdats m datX 0 c).share_full fun w => hX.q_full (VinX m) c w) (VinX m c) fun w => hX.A_eq (VinX m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (show x ∈ (datX (VinX m) c).recorded 0 from by rw [hX.recorded0]; exact Set.mem_univ x)
      iapply (BIBase.Entails.of_eq (congrArg (fun o => owes (c : Thread nD τ) o W) (hX.owed0 (VinX m) c 0).symm))
      iexact HO
    isplitl [Hp]; · iexact Hp
    iexact Hrest
  hin c := by
    refine BIBase.Entails.trans (Q := (Pipeline.ΦA spec0 c : sProp 𝕄)) ?_ (hX.phi_in (VinX m) c)
    unfold Pipeline.ΦA
    iintro ⟨Hp, -, Hr⟩
    isplitl [Hr]; · iexact Hr
    iexact Hp
  hout c := by
    refine BIBase.Entails.trans (Q := (Pipeline.ΦA spec0 c : sProp 𝕄)) (hX.phi_out (VinX m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m datX) ((pdats m datX 0 c).share_full fun w => hX.q_full (VinX m) c w)
      (VinX m c) (fun b => V2' m datX c (Proc.devRef .tc b)) ((pdats m datX 0 c).arrAt · cfg0.N) (hFX m hX c) (hrestX m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iapply (BIBase.Entails.of_eq (congrArg (fun o => owes (c : Thread nD τ) o W) (hX.owed0 (VinX m) c (Fin.last cfg0.N))))
    iexact HO

set_option backward.isDefEq.respectTransparency.types false in
/-- The second region likewise, entered from where the first was left; its invariant is the plain one at every point. -/
def segY (hX : DataX datX) : Pipeline.RegionSeg (pcfgs (F := F)) adm (pdats m datX) () defs₀ 𝒱₀ L lv 1 where
  win := launch1.win.to₀
  block_pos := launch1.block_pos
  stage_whole := launch1.stage_whole
  K := PEmpty
  osem k := k.elim
  ho := Pipeline.OwnSemFacts.none _
  hbody c := (RegionY.body_obligation (VinY m datX) c).loose
  hwaits := Pipeline.hwaits_of_owed_zero _ _ _ _ L lv 1 fun _ _ => rfl
  pre c := iprop(StableHlo.held (c : Thread nD τ) (Pipeline.ucRefs τ sig) (V2' m datX c) ∗ Rest c)
  post c := iprop(StableHlo.held (c : Thread nD τ) (Pipeline.ucRefs τ sig) (V3' m datX c) ∗ Rest c)
  X c := iprop(∃ r, prngReg c r)
  Y c := iprop(∃ r, prngReg c r)
  Z c := Pipeline.unscopedRest (Ix := Unit) (Name := ℕ) (U := UR sig nD τ) (Lvl := ℕ) spec1 c (VinY m datX c)
  hentry c := by
    rw [Pipeline.ownSems0_none]
    have hsplit := Pipeline.arrays_of_unscopedBufs (p := 1) (pcfgs (F := F)) adm (pdats m datX) launch1.win launch1.arr_whole c
      ((pdats m datX 1 c).share_full fun _ => rfl) (VinY m datX c) fun w => RegionY.A_eq (VinY m datX) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl trivial
      iexact HO
    isplitl [Hp]; · iexact Hp
    iexact Hrest
  hin c := by
    rw [show (pdats m datX 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m datX 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m datX) ((pdats m datX 1 c).share_full fun _ => rfl)
      (VinY m datX c) (fun b => V3' m datX c (Proc.devRef .tc b)) ((pdats m datX 1 c).arrAt · cfg1.N) (hFY m hX c) (hrestY m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## The frame: every argument array ends as launched -/

set_option backward.isDefEq.respectTransparency.types false in
/-- From any memory with zero counters every weakly fair execution of the program terminates and every final memory
    holds each argument as launched: the host stretch and the two regions chained over the valuations above, the
    launch dealing each core its generator register and nothing owed. -/
theorem frame_of_data (hX : DataX datX) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outs m datX) (pdats m datX)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := segX m hX) (hpre0 := fun c => .rfl) (hpost0 := fun c => .rfl)
    (R1 := segY m hX) (hpre1 := fun c => .rfl) (hpost1 := fun c => .rfl)

/-! ## The run: the result array named at the end -/

/-- The last valuation at the second kernel's result array: what its write-backs fold to. -/
theorem V3'_main_v5 (hX : DataX datX) (c : Dev nD) :
    V3' m datX c (Proc.devRef .tc main_v5) = (RegionY.dat (VinY m datX) c).arrAt 4 cfg1.N :=
  (hFY m hX c 4).symm

set_option backward.isDefEq.respectTransparency.types false in
/-- The same executions, with the final memory's result array named: it holds what the second pipeline's write-backs
    fold to, over the entry contents the first pipeline's write-backs left. The same chain of items; the last thread
    state, every unscoped buffer at the last valuation, is read against the final memory at the result array too. -/
theorem run_of_data (hX : DataX datX) :
    θ_run defs (onTc (τ := τ) (main (F := F))) ⟨m, fun _ => 0, ρ⟩ (fun r => ∀ c : Dev nD,
      r.2.mem ((c.tc : Thread nD τ).loc main_v5) = (RegionY.dat (VinY m datX) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m datX) () cellOf_inj emb₁ defs₀ 𝒱₀ L lv m ρ main
    (Gen.segs m 𝒱₀ L lv (fun _ c => Rest c) () (pdats m datX) (segX m hX) (segY m hX))
    (fun c Q => by
      rewrite [main_chain c, Pipeline.Seg.run_eq_chain,
        show (Gen.segs m 𝒱₀ L lv (fun _ c => Rest c) () (pdats m datX) (segX m hX) (segY m hX) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (V3' m datX c))
    (hch := fun c => ⟨.rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v5) = (RegionY.dat (VinY m datX) c).arrAt 4 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  unfold StableHlo.held
  iintro ⟨Hh, HSI⟩
  ihave Hr := (pointsTo_read_all (Pipeline.ucRefs τ sig) (fun b => ((c : Thread nD τ).1, b)) (V3' m datX c) s') $$ [Hh HSI]
  · isplitl [Hh] <;> iassumption
  icases Hr with ⟨%h, HSI⟩
  imodintro
  isplitr
  · ipureintro
    exact ⟨(h (Proc.devRef .tc main_v5) (Finset.mem_filter.mpr ⟨StableHlo.devRef_mem_tcRefs main_v5, by decide⟩)).trans (V3'_main_v5 m hX c),
      (h (Proc.devRef .tc main_arg0) (Finset.mem_filter.mpr ⟨StableHlo.devRef_mem_tcRefs main_arg0, by decide⟩)).trans (Gen.V3_main_arg0 m (outs m datX) c),
      (h (Proc.devRef .tc main_arg1) (Finset.mem_filter.mpr ⟨StableHlo.devRef_mem_tcRefs main_arg1, by decide⟩)).trans (Gen.V3_main_arg1 m (outs m datX) c),
      (h (Proc.devRef .tc main_arg2) (Finset.mem_filter.mpr ⟨StableHlo.devRef_mem_tcRefs main_arg2, by decide⟩)).trans (Gen.V3_main_arg2 m (outs m datX) c),
      (h (Proc.devRef .tc main_arg3) (Finset.mem_filter.mpr ⟨StableHlo.devRef_mem_tcRefs main_arg3, by decide⟩)).trans (Gen.V3_main_arg3 m (outs m datX) c),
      (h (Proc.devRef .tc main_arg4) (Finset.mem_filter.mpr ⟨StableHlo.devRef_mem_tcRefs main_arg4, by decide⟩)).trans (Gen.V3_main_arg4 m (outs m datX) c)⟩
  · iexact HSI

/-! ## The regions' entry contents at the references the kernels read

An argument is as launched; a converted weight is the launch contents of its argument rounded to bf16; the second
region finds in the first's result array what the first pipeline's write-backs folded to. -/

theorem VinX_main_arg0 (c : Dev nD) : VinX m c main_arg0 = m ((c : Thread nD τ).loc main_arg0) :=
  (Gen.V1_of m c main_arg0 (by decide)).trans rfl
theorem VinX_main_v0 (c : Dev nD) :
    (VinX m c main_v0 : Vec F S1x1024 .bf16) = truncf .bf16 (m ((c : Thread nD τ).loc main_arg1) : Vec F S1x1024 .f32) bitsLt_bf16_f32 := by
  dsimp only [VinX, Gen.V1, Gen.V0, hostOps0]; after_results
theorem VinX_main_v1 (c : Dev nD) :
    (VinX m c main_v1 : Vec F S1024x1024 .bf16) = truncf .bf16 (m ((c : Thread nD τ).loc main_arg2) : Vec F S1024x1024 .f32) bitsLt_bf16_f32 := by
  dsimp only [VinX, Gen.V1, Gen.V0, hostOps0]; after_results
theorem VinX_main_v2 (c : Dev nD) :
    (VinX m c main_v2 : Vec F S1024x1024 .bf16) = truncf .bf16 (m ((c : Thread nD τ).loc main_arg3) : Vec F S1024x1024 .f32) bitsLt_bf16_f32 := by
  dsimp only [VinX, Gen.V1, Gen.V0, hostOps0]; after_results
theorem VinX_main_v3 (c : Dev nD) :
    (VinX m c main_v3 : Vec F S1024x1024 .bf16) = truncf .bf16 (m ((c : Thread nD τ).loc main_arg4) : Vec F S1024x1024 .f32) bitsLt_bf16_f32 := by
  dsimp only [VinX, Gen.V1, Gen.V0, hostOps0]; after_results

theorem VinY_main_arg0 (c : Dev nD) : VinY m datX c main_arg0 = m ((c : Thread nD τ).loc main_arg0) :=
  (Gen.V2_of m (outs m datX) c main_arg0 (by decide)).trans (VinX_main_arg0 m c)
theorem VinY_main_v2 (c : Dev nD) :
    (VinY m datX c main_v2 : Vec F S1024x1024 .bf16) = truncf .bf16 (m ((c : Thread nD τ).loc main_arg3) : Vec F S1024x1024 .f32) bitsLt_bf16_f32 := by
  exact (Gen.V2_of m (outs m datX) c main_v2 (by decide)).trans (VinX_main_v2 m c)
theorem VinY_main_v3 (c : Dev nD) :
    (VinY m datX c main_v3 : Vec F S1024x1024 .bf16) = truncf .bf16 (m ((c : Thread nD τ).loc main_arg4) : Vec F S1024x1024 .f32) bitsLt_bf16_f32 := by
  exact (Gen.V2_of m (outs m datX) c main_v3 (by decide)).trans (VinX_main_v3 m c)

theorem VinY_main_v4 (hX : DataX datX) (c : Dev nD) : VinY m datX c main_v4 = (datX (VinX m) c).arrAt 3 cfg0.N :=
  (hFX m hX c 3).symm

end Cert.KernelIdeal.Assembly

end
-- ==== Proof.RegionYBits.lean ====
import proofs.«133993_j20667382628681_2_alg».proof.Proof.Gen.Kernel.Launch
import proofs.«133993_j20667382628681_2_alg».proof.Proof.Gen.Kernel.Skeleton
import proofs.«133993_j20667382628681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second pallas_call's kernel: its proof data and its body obligation

On one 1024-row block of x the kernel computes (s ⊙ relu (x · W₁ᵀ)) · W₂ᵀ, the left factor of each product rounded
to bf16 and the products accumulated in f32: four whole-block loads (the x block, the two weight matrices, the scale
row s), then one whole-block store of the result into the output window's staging buffer. Everything here is stated at a parameter V, the TensorCore's buffer contents when the
region is entered, and at any float instance. -/

set_option maxRecDepth 16384

noncomputable section

namespace Cert.Kernel.RegionY

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's current staging buffer holds its block at every point, for any proof data whose array is V's and
    whose body leaves the block in place: fetched there, it is the block; not fetched, its block index has not moved. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The scale row's window is fetched only where the batch coordinate moves; elsewhere its block index has not
    moved and the buffer still holds the block. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first weight matrix is fetched once, at the first point: its block index is constant over the grid. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The second weight matrix likewise. -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole rectangle of the x block and of the output block; -/
abbrev rX : Rect S1x1024x1024 := Rect.unit (s := S1x1024x1024) ![0, 0, 0] S1x1024x1024.size inb_S1x1024x1024_S1x1024x1024_0_0_0
/-- of a weight matrix; -/
abbrev rW : Rect S1024x1024 := Rect.unit (s := S1024x1024) ![0, 0] S1024x1024.size inb_S1024x1024_S1024x1024_0_0
/-- of the scale row. -/
abbrev rS : Rect S1x1x1024 := Rect.unit (s := S1x1x1024) ![0, 0, 0] S1x1x1024.size inb_S1x1x1024_S1x1x1024_0_0_0

/-! ## What the body leaves in the output window's buffer -/

/-- The output window's staging buffer after the body, from the input windows' blocks (x0 the x block, x1 the scale
    row, x2 and x3 the weight matrices): its one store, the whole rectangle carrying the kernel's payload of the four
    loaded blocks. -/
def outY (x0 : Vec F S1x1024x1024 .f32) (x1 : Vec F S1x1x1024 .f32) (x2 x3 : Vec F S1024x1024 .bf16) : Vec F S1x1024x1024 .f32 :=
  View.canon [⟨rX, k1_pay1 (View.ld x0 rX) (View.ld x2 rW) (View.ld x3 rW) (View.ld x1 rS)⟩]

/-- The one store is of the whole rectangle, so it covers the buffer (one block of the buffer's own size). -/
theorem coverY (p0 : Vec F S1x1024x1024 .f32) (y : S1x1024x1024.Idx) :
    ∃ pc ∈ ([⟨rX, p0⟩] : List (View.Piece (Elt F) S1x1024x1024 .f32)), y ∈ pc.1.set :=
  View.cover_of_tiled [⟨rX, p0⟩] S1x1024x1024.size (by rfl) y

/-! ## The body's triple -/

set_option maxHeartbeats 1000000 in
/-- The kernel body on whole staging memrefs, the inputs' at read contents x0..x3 and the output's at anything, runs
    to the continuation holding the inputs' as they were and the output's at outY of the inputs'. -/
theorem sound_kernel (c : Dev nD) (E : Set ℕ) (i : grid1.Coords)
    (arg2 : Memref sig .tc .vmem S1x1024x1024 .f32) (harg2 : arg2.IsWhole) (arg3 : Memref sig .tc .vmem S1x1x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x1024x1024 .f32) (harg6 : arg6.IsWhole)
    (x0 : Vec F S1x1024x1024 .f32) (x1 : Vec F S1x1x1024 .f32) (x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outY x0 x1 x2 x3)) -∗ K ⟨⟩))
      ⊢ wp frame (wpE (defs₀ (F := F)) Variants.none c none) E (cc1__y_kernel i arg2 harg2 arg3 harg3 arg4 harg4 arg5 harg5 arg6 harg6) K := by
  simp only [cc1__y_kernel_eq_skeleton]; unfold cc1__y_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverY _)

/-! ## The pipeline's proof data -/

/-- The proof data of the pipeline on core c: the arrays as the region finds them (V); after the body at point t
    each input's buffer at its block and the output's at outY of the input blocks; the invariant is the core's scoped
    buffers that are no staging buffer, each at some contents, and its generator register at some state, which the body
    never touches; nothing owed; full shares. -/
def dat (c : Dev nD) : Pipeline.Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outY (iblk V c 0 t) (iblk V c 1 t) (iblk V c 2 t) (iblk V c 3 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves in the input windows' buffers: their blocks, in place. -/
theorem after_in (c : Dev nD) (t : Fin cfg1.N) : (dat V c).after 0 t = iblk V c 0 t ∧ (dat V c).after 1 t = iblk V c 1 t ∧ (dat V c).after 2 t = iblk V c 2 t ∧ (dat V c).after 3 t = iblk V c 3 t := by
  refine ⟨?_, ?_, ?_, ?_⟩ <;> dsimp only [dat]

/-- What the body leaves in the output window's buffer: the payload of the four input blocks. -/
theorem after_out (c : Dev nD) (t : Fin cfg1.N) : (dat V c).after 4 t = outY (iblk V c 0 t) (iblk V c 1 t) (iblk V c 2 t) (iblk V c 3 t) := by
  dsimp only [dat]

/-- Each input's current staging buffer holds its block at every point, fetched there or not. -/
theorem before_0 (c : Dev nD) (t : Fin cfg1.N) (d) : (dat V c).before 0 t d = iblk V c 0 t :=
  before_of_0 V (dat V c) (A_eq V c 0) (fun t => (after_in V c t).1) t d
theorem before_1 (c : Dev nD) (t : Fin cfg1.N) (d) : (dat V c).before 1 t d = iblk V c 1 t :=
  before_of_1 V (dat V c) (A_eq V c 1) (fun t => (after_in V c t).2.1) t d
theorem before_2 (c : Dev nD) (t : Fin cfg1.N) (d) : (dat V c).before 2 t d = iblk V c 2 t :=
  before_of_2 V (dat V c) (A_eq V c 2) (fun t => (after_in V c t).2.2.1) t d
theorem before_3 (c : Dev nD) (t : Fin cfg1.N) (d) : (dat V c).before 3 t d = iblk V c 3 t :=
  before_of_3 V (dat V c) (A_eq V c 3) (fun t => (after_in V c t).2.2.2) t d

/-! ## The body obligation, at a generic point -/

/-- What the body is called with at point t: the invariant, what is owed, and the five windows' current staging
    buffers one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the kernel's triple applies; the invariant and
    what is owed pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    (after_in V c t).1, (after_in V c t).2.1, (after_in V c t).2.2.1, (after_in V c t).2.2.2, after_out]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : Pipeline.BodyObligation (dat (F := F) V c) (defs₀ (F := F)) Variants.none () Set.univ := fun t => by
  rw [bigSep_W1, bigSep_W1]
  exact sound_body V c t

end Cert.Kernel.RegionY

end
-- ==== Proof.AssemblyBits.lean ====
import proofs.«133993_j20667382628681_2_alg».proof.Proof.Gen.Kernel.Launch
import proofs.«133993_j20667382628681_2_alg».proof.Proof.Gen.Kernel.Skeleton
import proofs.«133993_j20667382628681_2_alg».proof.Proof.Gen.Kernel.Points
import proofs.«133993_j20667382628681_2_alg».proof.Proof.Gen.Kernel.Regions
import proofs.«133993_j20667382628681_2_alg».proof.Proof.RegionYBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program, from the two kernels' proof data

The program is a stretch of host conversions, then the first kernel's region, then the second's. Between two items
every core holds every unscoped buffer at a valuation: the launch contents, then what the conversions leave, then the
same with the first kernel's result array at what its write-backs leave, then that with the second kernel's result
array likewise. The first kernel's proof data is a parameter (only its arrays, shares, dues, body obligation and the
two ends of its invariant are assumed); the second kernel's is the one of the module RegionY. -/

set_option maxRecDepth 16384

noncomputable section

namespace Cert.Kernel.Assembly

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What is assumed of the first kernel's proof data -/

/-- A TensorCore's buffer contents, per core: what a region's proof data is stated at. -/
abbrev TcVal (F : FTy → Type) [FloatOps F] : Type := (c : Dev nD) → (b : Ref sig .tc) → Buf (Elt F) ((c : Thread nD τ).loc b)

/-- The first kernel's proof data, at any entry contents. -/
abbrev DatX (F : FTy → Type) [FloatOps F] : Type := (V : TcVal F) → (c : Dev nD) → Pipeline.Dat τ (Elt F) Unit ℕ (UR sig nD τ) ℕ cfg0 c

/-- What the run needs of it: its arrays are the entry contents, held at full shares; it owes nothing, and at entry
    bounds the pairs its waits have recorded by nothing; its body obligation holds; and its invariant, which carries the kernel's scratch from point to point, is at its two ends
    the plain one (the scoped buffers no window stages at some contents, the generator register at some state). -/
structure DataX (datX : DatX F) : Prop where
  A_eq : ∀ (V : TcVal F) (c : Dev nD) (w : Fin cfg0.W), (datX V c).A w = V c (Pipeline.arrRef spec0 w)
  q_full : ∀ (V : TcVal F) (c : Dev nD) (w : Fin cfg0.W), (datX V c).q w = fullShare
  owed0 : ∀ (V : TcVal F) (c : Dev nD) (t : Fin (cfg0.N + 1)), (datX V c).owed t = 0
  recorded0 : ∀ (V : TcVal F) (c : Dev nD), (datX V c).recorded 0 = Set.univ
  body : ∀ (V : TcVal F) (c : Dev nD), Pipeline.BodyObligation (datX V c) (defs₀ (F := F)) Variants.none () Set.univ
  phi_in : ∀ (V : TcVal F) (c : Dev nD), (Pipeline.ΦA spec0 c : sProp 𝕄) ⊢ (datX V c).Φ 0
  phi_out : ∀ (V : TcVal F) (c : Dev nD), (datX V c).Φ (Fin.last cfg0.N) ⊢ (Pipeline.ΦA spec0 c : sProp 𝕄)

variable (m : (ℓ : Loc nD τ sig) → Buf (Elt F) ℓ) (ρ : Dev nD → PrngReg)
variable (datX : DatX F)

/-! ## The buffers' contents at the regions' ends -/

/-- The first region's entry contents: what the host conversions leave, read at the TensorCore's references. -/
abbrev VinX : TcVal F := fun c b => Gen.V1 m c (Proc.devRef .tc b)

/-- What the first region leaves: its arrays at what its write-backs fold to, every other buffer as entered. -/
def outsX (r : Ref sig .tc) (c : Dev nD) : Buf (Elt F) ((c : Thread nD τ).loc r) :=
  Pipeline.withArrays spec0 c (Gen.V1 m c) (fun w => (datX (VinX m) c).arrAt w cfg0.N) (Proc.devRef .tc r)

/-- The contents after the first region: only its result array has changed. -/
abbrev V2' (c : Dev nD) : Valuation τ sig (Elt F) := Function.update (Gen.V1 m c) main_v4 (outsX m datX main_v4 c)

/-- The second region's entry contents. -/
abbrev VinY : TcVal F := fun c b => V2' m datX c (Proc.devRef .tc b)

/-- What the second region leaves. -/
def outsY (r : Ref sig .tc) (c : Dev nD) : Buf (Elt F) ((c : Thread nD τ).loc r) :=
  Pipeline.withArrays spec1 c (V2' m datX c) (fun w => (RegionY.dat (VinY m datX) c).arrAt w cfg1.N) (Proc.devRef .tc r)

/-- The contents after the second region: only its result array has changed. -/
abbrev V3' (c : Dev nD) : Valuation τ sig (Elt F) := Function.update (V2' m datX c) main_v5 (outsY m datX main_v5 c)

/-- What the regions leave, in the form the valuations between items are written over. -/
def outs : Gen.Outs (F := F) := fun J r c => if J = 2 then outsX m datX r c else outsY m datX r c

theorem V2_eq (c : Dev nD) : Gen.V2 m (outs m datX) c = V2' m datX c := rfl
theorem V3_eq (c : Dev nD) : Gen.V3 m (outs m datX) c = V3' m datX c := rfl

theorem outsX_arr (c : Dev nD) (w : Fin cfg0.W) :
    outsX m datX (Pipeline.arrRef spec0 w) c = (datX (VinX m) c).arrAt w cfg0.N := by
  unfold outsX; exact Pipeline.withArrays_arr spec0 launch0.win.arr_inj c _ _ w
theorem outsY_arr (c : Dev nD) (w : Fin cfg1.W) :
    outsY m datX (Pipeline.arrRef spec1 w) c = (RegionY.dat (VinY m datX) c).arrAt w cfg1.N := by
  unfold outsY; exact Pipeline.withArrays_arr spec1 launch1.win.arr_inj c _ _ w

/-! ## The exits' contents against the write-backs -/

variable {datX}

/-- After the first region each of its arrays holds what the pipeline leaves there: the result array by the update,
    an input array because nothing writes it back. -/
theorem hFX (hX : DataX datX) (c : Dev nD) : ∀ w : Fin cfg0.W,
    (datX (VinX m) c).arrAt w cfg0.N = VinY m datX c (Pipeline.arrRef spec0 w)
  | 0 => ((datX (VinX m) c).arrAt_in 0 rfl _).trans <| (hX.A_eq (VinX m) c 0).trans
      (Function.update_of_ne (StableHlo.devRef_ne_of_ne (by decide) : (Proc.devRef .tc main_arg0 : DevRef τ sig) ≠ Proc.devRef .tc main_v4) _ _).symm
  | 1 => ((datX (VinX m) c).arrAt_in 1 rfl _).trans <| (hX.A_eq (VinX m) c 1).trans
      (Function.update_of_ne (StableHlo.devRef_ne_of_ne (by decide) : (Proc.devRef .tc main_v0 : DevRef τ sig) ≠ Proc.devRef .tc main_v4) _ _).symm
  | 2 => ((datX (VinX m) c).arrAt_in 2 rfl _).trans <| (hX.A_eq (VinX m) c 2).trans
      (Function.update_of_ne (StableHlo.devRef_ne_of_ne (by decide) : (Proc.devRef .tc main_v1 : DevRef τ sig) ≠ Proc.devRef .tc main_v4) _ _).symm
  | 3 => (outsX_arr m datX c 3).symm.trans (Function.update_self (β := fun b : DevRef τ sig => b.ty.Contents (Elt F)) (Proc.devRef .tc main_v4) _ (Gen.V1 m c)).symm
  | ⟨_ + 4, h⟩ => absurd h (Nat.not_lt.2 (Nat.le_add_left _ _))

/-- Every buffer that is no array of the first region is as entered. -/
theorem hrestX (c : Dev nD) : ∀ b, b ∉ Finset.univ.image (Pipeline.arrRef spec0) → VinY m datX c b = VinX m c b :=
  fun b hb => Function.update_of_ne (StableHlo.devRef_ne_of_ne fun e : b = main_v4 =>
    hb (by rw [e]; exact Finset.mem_image.mpr ⟨3, Finset.mem_univ _, rfl⟩)) _ _

/-- After the second region each of its arrays holds what the pipeline leaves there. -/
theorem hFY (hX : DataX datX) (c : Dev nD) : ∀ w : Fin cfg1.W,
    (RegionY.dat (VinY m datX) c).arrAt w cfg1.N = V3' m datX c (Proc.devRef .tc (Pipeline.arrRef spec1 w))
  | 0 => ((RegionY.dat (VinY m datX) c).arrAt_in 0 rfl _).trans <| (RegionY.A_eq (VinY m datX) c 0).trans
      (Function.update_of_ne (StableHlo.devRef_ne_of_ne (by decide) : (Proc.devRef .tc main_arg0 : DevRef τ sig) ≠ Proc.devRef .tc main_v5) _ _).symm
  | 1 => ((RegionY.dat (VinY m datX) c).arrAt_in 1 rfl _).trans <| (RegionY.A_eq (VinY m datX) c 1).trans
      (Function.update_of_ne (StableHlo.devRef_ne_of_ne (by decide) : (Proc.devRef .tc main_v4 : DevRef τ sig) ≠ Proc.devRef .tc main_v5) _ _).symm
  | 2 => ((RegionY.dat (VinY m datX) c).arrAt_in 2 rfl _).trans <| (RegionY.A_eq (VinY m datX) c 2).trans
      (Function.update_of_ne (StableHlo.devRef_ne_of_ne (by decide) : (Proc.devRef .tc main_v2 : DevRef τ sig) ≠ Proc.devRef .tc main_v5) _ _).symm
  | 3 => ((RegionY.dat (VinY m datX) c).arrAt_in 3 rfl _).trans <| (RegionY.A_eq (VinY m datX) c 3).trans
      (Function.update_of_ne (StableHlo.devRef_ne_of_ne (by decide) : (Proc.devRef .tc main_v3 : DevRef τ sig) ≠ Proc.devRef .tc main_v5) _ _).symm
  | 4 => (outsY_arr m datX c 4).symm.trans (Function.update_self (β := fun b : DevRef τ sig => b.ty.Contents (Elt F)) (Proc.devRef .tc main_v5) _ (V2' m datX c)).symm
  | ⟨_ + 5, h⟩ => absurd h (Nat.not_lt.2 (Nat.le_add_left _ _))

/-- Every buffer that is no array of the second region is as entered. -/
theorem hrestY (c : Dev nD) : ∀ b : Ref sig .tc, b ∉ Finset.univ.image (Pipeline.arrRef spec1) →
    V3' m datX c (Proc.devRef .tc b) = VinY m datX c b :=
  fun b hb => Function.update_of_ne (StableHlo.devRef_ne_of_ne fun e : b = main_v5 =>
    hb (by rw [e]; exact Finset.mem_image.mpr ⟨4, Finset.mem_univ _, rfl⟩)) _ _

/-! ## The proof data family and the thread state -/

variable (datX)

/-- Both pipelines' proof data, each at its region's entry contents. -/
def pdats : (p : Fin 2) → (c : Dev nD) → Dat τ (Elt F) Unit ℕ (UR sig nD τ) ℕ (cfgs p) c
  | ⟨0, _⟩ => fun c => datX (VinX m) c
  | ⟨1, _⟩ => fun c => RegionY.dat (VinY m datX) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it
    owes, which is nothing. -/
abbrev Rest (c : Dev nD) : sProp 𝕄 := iprop((∃ r, prngReg c r) ∗ ∃ W, owes (c : Thread nD τ) (0 : CellTallies nD τ sig Unit) W)

variable {datX}

/-! ## The regions as segments -/

set_option backward.isDefEq.respectTransparency.types false in
/-- The first region over the thread state: entered from every unscoped buffer at what the conversions leave, left with
    the result array updated. Its arrays are split out of the unscoped buffers and put back at the exit contents; the
    generator register goes into the invariant through its first end and comes back through its last; nothing owed;
    no semaphore of the kernel's own. -/
def segX (hX : DataX datX) : Pipeline.RegionSeg (pcfgs (F := F)) adm (pdats m datX) () defs₀ 𝒱₀ L lv 0 where
  win := launch0.win.to₀
  block_pos := launch0.block_pos
  stage_whole := launch0.stage_whole
  K := PEmpty
  osem k := k.elim
  ho := Pipeline.OwnSemFacts.none _
  hbody c := (hX.body (VinX m) c).loose
  hwaits := Pipeline.hwaits_of_owed_zero _ _ _ _ L lv 0 fun c t => hX.owed0 (VinX m) c t
  pre c := iprop(StableHlo.held (c : Thread nD τ) (Pipeline.ucRefs τ sig) (Gen.V1 m c) ∗ Rest c)
  post c := iprop(StableHlo.held (c : Thread nD τ) (Pipeline.ucRefs τ sig) (V2' m datX c) ∗ Rest c)
  X c := iprop(∃ r, prngReg c r)
  Y c := iprop(∃ r, prngReg c r)
  Z c := Pipeline.unscopedRest (Ix := Unit) (Name := ℕ) (U := UR sig nD τ) (Lvl := ℕ) spec0 c (VinX m c)
  hentry c := by
    rw [Pipeline.ownSems0_none]
    have hsplit := Pipeline.arrays_of_unscopedBufs (p := 0) (pcfgs (F := F)) adm (pdats m datX) launch0.win launch0.arr_whole c
      ((pdats m datX 0 c).share_full fun w => hX.q_full (VinX m) c w) (VinX m c) fun w => hX.A_eq (VinX m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (show x ∈ (datX (VinX m) c).recorded 0 from by rw [hX.recorded0]; exact Set.mem_univ x)
      iapply (BIBase.Entails.of_eq (congrArg (fun o => owes (c : Thread nD τ) o W) (hX.owed0 (VinX m) c 0).symm))
      iexact HO
    isplitl [Hp]; · iexact Hp
    iexact Hrest
  hin c := by
    refine BIBase.Entails.trans (Q := (Pipeline.ΦA spec0 c : sProp 𝕄)) ?_ (hX.phi_in (VinX m) c)
    unfold Pipeline.ΦA
    iintro ⟨Hp, -, Hr⟩
    isplitl [Hr]; · iexact Hr
    iexact Hp
  hout c := by
    refine BIBase.Entails.trans (Q := (Pipeline.ΦA spec0 c : sProp 𝕄)) (hX.phi_out (VinX m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m datX) ((pdats m datX 0 c).share_full fun w => hX.q_full (VinX m) c w)
      (VinX m c) (fun b => V2' m datX c (Proc.devRef .tc b)) ((pdats m datX 0 c).arrAt · cfg0.N) (hFX m hX c) (hrestX m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iapply (BIBase.Entails.of_eq (congrArg (fun o => owes (c : Thread nD τ) o W) (hX.owed0 (VinX m) c (Fin.last cfg0.N))))
    iexact HO

set_option backward.isDefEq.respectTransparency.types false in
/-- The second region likewise, entered from where the first was left; its invariant is the plain one at every point. -/
def segY (hX : DataX datX) : Pipeline.RegionSeg (pcfgs (F := F)) adm (pdats m datX) () defs₀ 𝒱₀ L lv 1 where
  win := launch1.win.to₀
  block_pos := launch1.block_pos
  stage_whole := launch1.stage_whole
  K := PEmpty
  osem k := k.elim
  ho := Pipeline.OwnSemFacts.none _
  hbody c := (RegionY.body_obligation (VinY m datX) c).loose
  hwaits := Pipeline.hwaits_of_owed_zero _ _ _ _ L lv 1 fun _ _ => rfl
  pre c := iprop(StableHlo.held (c : Thread nD τ) (Pipeline.ucRefs τ sig) (V2' m datX c) ∗ Rest c)
  post c := iprop(StableHlo.held (c : Thread nD τ) (Pipeline.ucRefs τ sig) (V3' m datX c) ∗ Rest c)
  X c := iprop(∃ r, prngReg c r)
  Y c := iprop(∃ r, prngReg c r)
  Z c := Pipeline.unscopedRest (Ix := Unit) (Name := ℕ) (U := UR sig nD τ) (Lvl := ℕ) spec1 c (VinY m datX c)
  hentry c := by
    rw [Pipeline.ownSems0_none]
    have hsplit := Pipeline.arrays_of_unscopedBufs (p := 1) (pcfgs (F := F)) adm (pdats m datX) launch1.win launch1.arr_whole c
      ((pdats m datX 1 c).share_full fun _ => rfl) (VinY m datX c) fun w => RegionY.A_eq (VinY m datX) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl trivial
      iexact HO
    isplitl [Hp]; · iexact Hp
    iexact Hrest
  hin c := by
    rw [show (pdats m datX 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m datX 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m datX) ((pdats m datX 1 c).share_full fun _ => rfl)
      (VinY m datX c) (fun b => V3' m datX c (Proc.devRef .tc b)) ((pdats m datX 1 c).arrAt · cfg1.N) (hFY m hX c) (hrestY m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## The frame: every argument array ends as launched -/

set_option backward.isDefEq.respectTransparency.types false in
/-- From any memory with zero counters every weakly fair execution of the program terminates and every final memory
    holds each argument as launched: the host stretch and the two regions chained over the valuations above, the
    launch dealing each core its generator register and nothing owed. -/
theorem frame_of_data (hX : DataX datX) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outs m datX) (pdats m datX)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := segX m hX) (hpre0 := fun c => .rfl) (hpost0 := fun c => .rfl)
    (R1 := segY m hX) (hpre1 := fun c => .rfl) (hpost1 := fun c => .rfl)

/-! ## The run: the result array named at the end -/

/-- The last valuation at the second kernel's result array: what its write-backs fold to. -/
theorem V3'_main_v5 (hX : DataX datX) (c : Dev nD) :
    V3' m datX c (Proc.devRef .tc main_v5) = (RegionY.dat (VinY m datX) c).arrAt 4 cfg1.N :=
  (hFY m hX c 4).symm

set_option backward.isDefEq.respectTransparency.types false in
/-- The same executions, with the final memory's result array named: it holds what the second pipeline's write-backs
    fold to, over the entry contents the first pipeline's write-backs left. The same chain of items; the last thread
    state, every unscoped buffer at the last valuation, is read against the final memory at the result array too. -/
theorem run_of_data (hX : DataX datX) :
    θ_run defs (onTc (τ := τ) (main (F := F))) ⟨m, fun _ => 0, ρ⟩ (fun r => ∀ c : Dev nD,
      r.2.mem ((c.tc : Thread nD τ).loc main_v5) = (RegionY.dat (VinY m datX) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m datX) () cellOf_inj emb₁ defs₀ 𝒱₀ L lv m ρ main
    (Gen.segs m 𝒱₀ L lv (fun _ c => Rest c) () (pdats m datX) (segX m hX) (segY m hX))
    (fun c Q => by
      rewrite [main_chain c, Pipeline.Seg.run_eq_chain,
        show (Gen.segs m 𝒱₀ L lv (fun _ c => Rest c) () (pdats m datX) (segX m hX) (segY m hX) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (V3' m datX c))
    (hch := fun c => ⟨.rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v5) = (RegionY.dat (VinY m datX) c).arrAt 4 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  unfold StableHlo.held
  iintro ⟨Hh, HSI⟩
  ihave Hr := (pointsTo_read_all (Pipeline.ucRefs τ sig) (fun b => ((c : Thread nD τ).1, b)) (V3' m datX c) s') $$ [Hh HSI]
  · isplitl [Hh] <;> iassumption
  icases Hr with ⟨%h, HSI⟩
  imodintro
  isplitr
  · ipureintro
    exact ⟨(h (Proc.devRef .tc main_v5) (Finset.mem_filter.mpr ⟨StableHlo.devRef_mem_tcRefs main_v5, by decide⟩)).trans (V3'_main_v5 m hX c),
      (h (Proc.devRef .tc main_arg0) (Finset.mem_filter.mpr ⟨StableHlo.devRef_mem_tcRefs main_arg0, by decide⟩)).trans (Gen.V3_main_arg0 m (outs m datX) c),
      (h (Proc.devRef .tc main_arg1) (Finset.mem_filter.mpr ⟨StableHlo.devRef_mem_tcRefs main_arg1, by decide⟩)).trans (Gen.V3_main_arg1 m (outs m datX) c),
      (h (Proc.devRef .tc main_arg2) (Finset.mem_filter.mpr ⟨StableHlo.devRef_mem_tcRefs main_arg2, by decide⟩)).trans (Gen.V3_main_arg2 m (outs m datX) c),
      (h (Proc.devRef .tc main_arg3) (Finset.mem_filter.mpr ⟨StableHlo.devRef_mem_tcRefs main_arg3, by decide⟩)).trans (Gen.V3_main_arg3 m (outs m datX) c),
      (h (Proc.devRef .tc main_arg4) (Finset.mem_filter.mpr ⟨StableHlo.devRef_mem_tcRefs main_arg4, by decide⟩)).trans (Gen.V3_main_arg4 m (outs m datX) c)⟩
  · iexact HSI

/-! ## The regions' entry contents at the references the kernels read

An argument is as launched; a converted weight is the launch contents of its argument rounded to bf16; the second
region finds in the first's result array what the first pipeline's write-backs folded to. -/

theorem VinX_main_arg0 (c : Dev nD) : VinX m c main_arg0 = m ((c : Thread nD τ).loc main_arg0) :=
  (Gen.V1_of m c main_arg0 (by decide)).trans rfl
theorem VinX_main_v0 (c : Dev nD) :
    (VinX m c main_v0 : Vec F S1x1024 .bf16) = truncf .bf16 (m ((c : Thread nD τ).loc main_arg1) : Vec F S1x1024 .f32) bitsLt_bf16_f32 := by
  dsimp only [VinX, Gen.V1, Gen.V0, hostOps0]; after_results
theorem VinX_main_v1 (c : Dev nD) :
    (VinX m c main_v1 : Vec F S1024x1024 .bf16) = truncf .bf16 (m ((c : Thread nD τ).loc main_arg2) : Vec F S1024x1024 .f32) bitsLt_bf16_f32 := by
  dsimp only [VinX, Gen.V1, Gen.V0, hostOps0]; after_results
theorem VinX_main_v2 (c : Dev nD) :
    (VinX m c main_v2 : Vec F S1024x1024 .bf16) = truncf .bf16 (m ((c : Thread nD τ).loc main_arg3) : Vec F S1024x1024 .f32) bitsLt_bf16_f32 := by
  dsimp only [VinX, Gen.V1, Gen.V0, hostOps0]; after_results
theorem VinX_main_v3 (c : Dev nD) :
    (VinX m c main_v3 : Vec F S1024x1024 .bf16) = truncf .bf16 (m ((c : Thread nD τ).loc main_arg4) : Vec F S1024x1024 .f32) bitsLt_bf16_f32 := by
  dsimp only [VinX, Gen.V1, Gen.V0, hostOps0]; after_results

theorem VinY_main_arg0 (c : Dev nD) : VinY m datX c main_arg0 = m ((c : Thread nD τ).loc main_arg0) :=
  (Gen.V2_of m (outs m datX) c main_arg0 (by decide)).trans (VinX_main_arg0 m c)
theorem VinY_main_v2 (c : Dev nD) :
    (VinY m datX c main_v2 : Vec F S1024x1024 .bf16) = truncf .bf16 (m ((c : Thread nD τ).loc main_arg3) : Vec F S1024x1024 .f32) bitsLt_bf16_f32 := by
  exact (Gen.V2_of m (outs m datX) c main_v2 (by decide)).trans (VinX_main_v2 m c)
theorem VinY_main_v3 (c : Dev nD) :
    (VinY m datX c main_v3 : Vec F S1024x1024 .bf16) = truncf .bf16 (m ((c : Thread nD τ).loc main_arg4) : Vec F S1024x1024 .f32) bitsLt_bf16_f32 := by
  exact (Gen.V2_of m (outs m datX) c main_v3 (by decide)).trans (VinX_main_v3 m c)

theorem VinY_main_v4 (hX : DataX datX) (c : Dev nD) : VinY m datX c main_v4 = (datX (VinX m) c).arrAt 3 cfg0.N :=
  (hFX m hX c 3).symm

end Cert.Kernel.Assembly

end
-- ==== Proof.RegionXBase.lean ====
/-
  The pooling kernel (the first of the program's two kernels) on its grid of 8 batches by 2 tiles of rows, point
  `t = 2·b + j`: tile `j` of batch `b`.

  The body has two conditionals on the tile coordinate. At the first tile of a batch it RESETS its three scratch
  buffers (the running shift to −∞, the running normaliser and the running weighted row sum to 0); at the last tile it
  FINALISES: divides the weighted row sum by the normaliser, projects it and stores the result block. With two tiles a
  point is of exactly one kind: even points reset and do not finalise, odd points finalise and do not reset. The result
  window is idle at the even points (nothing is stored into it and it is not written back) and live at the odd ones.

  Here: the two conditions in closed form, decided over the 16 points; where the result window is idle and where it is
  written back; the staging and scratch memrefs the body is called with, by name; and the region's untouched invariant
  (every scoped buffer that is no staging buffer of this kernel at anything, the generator register at some state) with
  the three scratch buffers split off as owned memrefs.
-/
import proofs.«133993_j20667382628681_2_alg».proof.Proof.Gen.KernelIdeal.Launch
import proofs.«133993_j20667382628681_2_alg».proof.Proof.Gen.KernelIdeal.Skeleton
import proofs.«133993_j20667382628681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RegionX

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first tile of its batch": the body's first conditional, its scalar chain over the tile coordinate. -/
abbrev condReset (i : grid0.Coords) : Prop :=
  (Scalar.cmpi .ne (Scalar.extui (Scalar.cmpi .eq (BitVec.ofNat 32 (i 1).val) 0#32)) 0#32) = 1#1
/-- It holds at the even points. -/
theorem hcondReset : ∀ t : Fin cfg0.N, condReset (grid0.coords t) ↔ t.val % 2 = 0 :=
  (by decide +kernel : ∀ t : Fin grid0.N, condReset (grid0.coords t) ↔ t.val % 2 = 0)

/-- "This is the last tile of its batch": the body's second conditional. -/
abbrev condFinal (i : grid0.Coords) : Prop := k0_cond2 i = 1#1
/-- It holds at the odd points. -/
theorem hcondFinal : ∀ t : Fin cfg0.N, condFinal (grid0.coords t) ↔ t.val % 2 = 1 :=
  (by decide +kernel : ∀ t : Fin grid0.N, condFinal (grid0.coords t) ↔ t.val % 2 = 1)

/-! ## Where the result window is idle -/

/-- The three input windows are never idle. -/
theorem live_in : ∀ t : Fin cfg0.N, cfg0.idle 0 (grid0.coords t) = false ∧ cfg0.idle 1 (grid0.coords t) = false ∧ cfg0.idle 2 (grid0.coords t) = false := by
  decide +kernel
/-- At a point that does not finalise the result window is idle … -/
theorem idle_out : ∀ t : Fin cfg0.N, ¬condFinal (grid0.coords t) → cfg0.idle 3 (grid0.coords t) = true := by decide +kernel
/-- … and is not written back; -/
theorem noFlush_out : ∀ t : Fin cfg0.N, ¬condFinal (grid0.coords t) → (cfg0.win 3).flush t = false := by decide +kernel
/-- at a point that finalises it is live. -/
theorem live_out : ∀ t : Fin cfg0.N, condFinal (grid0.coords t) → cfg0.idle 3 (grid0.coords t) = false := by decide +kernel

/-! ## The memrefs the body is called with -/

abbrev msX (t : Fin cfg0.N) : Memref sig .tc .vmem S1x2048x1024 .f32 := win0_0.stage (cfg0.slots t 0)
abbrev hsX (t : Fin cfg0.N) : (msX t).IsWhole := hstage0_0 ((cfg0.slots t 0).cast nbuf0_0)
abbrev msWi (t : Fin cfg0.N) : Memref sig .tc .vmem S1x1024 .bf16 := win0_1.stage (cfg0.slots t 1)
abbrev hsWi (t : Fin cfg0.N) : (msWi t).IsWhole := hstage0_1 ((cfg0.slots t 1).cast nbuf0_1)
abbrev msWk (t : Fin cfg0.N) : Memref sig .tc .vmem S1024x1024 .bf16 := win0_2.stage (cfg0.slots t 2)
abbrev hsWk (t : Fin cfg0.N) : (msWk t).IsWhole := hstage0_2 ((cfg0.slots t 2).cast nbuf0_2)
abbrev msOut (t : Fin cfg0.N) : Memref sig .tc .vmem S1x1x1024 .f32 := win0_3.stage (cfg0.slots t 3)
abbrev hsOut (t : Fin cfg0.N) : (msOut t).IsWhole := hstage0_3 ((cfg0.slots t 3).cast nbuf0_3)
/-- The running shift, the running normaliser, the running weighted row sum: whole scoped buffers of the kernel's own. -/
abbrev scShift : Memref sig .tc .vmem S1x1 .f32 := Memref.whole cc0_scratch0
abbrev scNorm : Memref sig .tc .vmem S1x1 .f32 := Memref.whole cc0_scratch1
abbrev scAcc : Memref sig .tc .vmem S1x1024 .f32 := Memref.whole cc0_scratch2

/-- The kernel body at point `t` is the kernel function at these memrefs. -/
theorem bodyAt_eq (t : Fin cfg0.N) :
    bodyAt0 (F := F) t = cc0__cv_kernel (grid0.coords t) (msX t) (hsX t) (msWi t) (hsWi t) (msWk t) (hsWk t) (msOut t) (hsOut t)
      scShift (Memref.isWhole_whole _) scNorm (Memref.isWhole_whole _) scAcc (Memref.isWhole_whole _) := rfl

end Cert.KernelIdeal.RegionX

end
-- ==== Proof.RegionXRuns.lean ====
/-
  The pooling kernel's body run whole, once per kind of point, on any whole memrefs.

  FINALISING point (not the first tile, the last tile): the three scratch buffers come in holding what the point before
  left; the body streams the tile into them and then stores the result block. RESETTING point (the first tile, not the
  last): the scratch buffers come in holding anything, are reset and then streamed into; the result buffer is not
  touched and goes back as it came. In both the input buffers are only read.

  Each run is stated with the lists of pieces its stores leave in every buffer it writes (last store first) as a
  witness found while the body is executed; what those pieces amount to is read off afterwards.
-/
import proofs.«133993_j20667382628681_2_alg».proof.Proof.RegionXBase

set_option maxRecDepth 16384

noncomputable section

namespace Cert.KernelIdeal.RegionX

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a FINALISING point: the result buffer and the three scratch buffers end with the witness pieces written. -/
noncomputable def runFinal (c : Dev nD) (i : grid0.Coords) (arg2 : Memref sig .tc .vmem S1x2048x1024 .f32) (harg2 : arg2.IsWhole) (arg3 : Memref sig .tc .vmem S1x1024 .bf16) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1024 .f32) (harg8 : arg8.IsWhole) (hcR : ¬condReset i) (hcF : condFinal i)
    (x0 : Vec F S1x2048x1024 .f32) (x1 : Vec F S1x1024 .bf16) (x2 : Vec F S1024x1024 .bf16) (xs0 xs1 : Vec F S1x1 .f32) (xs2 : Vec F S1x1024 .f32) :
    Σ' (L3 : List (View.Piece (Elt F) S1x1x1024 .f32)) (LS0 : List (View.Piece (Elt F) S1x1 .f32)) (LS1 : List (View.Piece (Elt F) S1x1 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__cv_kernel i arg2 harg2 arg3 harg3 arg4 harg4 arg5 harg5 arg6 harg6 arg7 harg7 arg8 harg8) K } := by
  refine ⟨?_, ?_, ?_, ?_, fun E K => ?run⟩
  case run =>
    simp only [cc0__cv_kernel_eq_skeleton]; unfold cc0__cv_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hcR | exact hcF)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

set_option maxHeartbeats 1000000 in
/-- The body at a RESETTING point: the result buffer goes back untouched; the three scratch buffers, which came in at
    anything, end with the witness pieces written. -/
noncomputable def runReset (c : Dev nD) (i : grid0.Coords) (arg2 : Memref sig .tc .vmem S1x2048x1024 .f32) (harg2 : arg2.IsWhole) (arg3 : Memref sig .tc .vmem S1x1024 .bf16) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1024 .f32) (harg8 : arg8.IsWhole) (hcR : condReset i) (hcF : ¬condFinal i)
    (x0 : Vec F S1x2048x1024 .f32) (x1 : Vec F S1x1024 .bf16) (x2 : Vec F S1024x1024 .bf16) :
    Σ' (LS0 : List (View.Piece (Elt F) S1x1 .f32)) (LS1 : List (View.Piece (Elt F) S1x1 .f32)), { LS2 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__cv_kernel i arg2 harg2 arg3 harg3 arg4 harg4 arg5 harg5 arg6 harg6 arg7 harg7 arg8 harg8) K } := by
  refine ⟨?_, ?_, ?_, fun xi3 E K => ?run⟩
  case run =>
    simp only [cc0__cv_kernel_eq_skeleton]; unfold cc0__cv_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hcR | exact hcF)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.RegionX

end
-- ==== Proof.RegionXData.lean ====
/-
  The pooling kernel's proof data: what its result window's staging buffer and its three scratch buffers hold after
  every grid point, and the body obligation over them.

  After an even point (the first tile of a batch) the scratch holds the state of one tile streamed from the reset
  values; the result buffer was not touched. After an odd point (the last tile) the scratch holds that state
  streamed once more over the second tile, and the result buffer holds the pooled, projected row — a function of
  the second tile, the weights and what the point before left in the scratch. So the state is defined by recursion
  on the point, by its parity; the invariant between two points says the scratch buffers hold the earlier point's
  state (before the first point: anything), every other scoped buffer anything, the generator register some state.
-/
import proofs.«133993_j20667382628681_2_alg».proof.Proof.RegionXRuns

set_option maxRecDepth 16384

noncomputable section

namespace Cert.KernelIdeal.RegionX

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The views contents are stated through -/

abbrev VOut : View sig .tc .vmem S1x1x1024 .f32 := (Memref.whole cc0_stg3_0 : Memref sig .tc .vmem S1x1x1024 .f32).view
abbrev VShift : View sig .tc .vmem S1x1 .f32 := (scShift).view
abbrev VNorm : View sig .tc .vmem S1x1 .f32 := (scNorm).view
abbrev VAcc : View sig .tc .vmem S1x1024 .f32 := (scAcc).view

/-! ## The two runs at a point's memrefs -/

abbrev finalAt (c : Dev nD) (t : Fin cfg0.N) (hR : ¬condReset (grid0.coords t)) (hF : condFinal (grid0.coords t))
    (x0 : Vec F S1x2048x1024 .f32) (x1 : Vec F S1x1024 .bf16) (x2 : Vec F S1024x1024 .bf16) (xs0 xs1 : Vec F S1x1 .f32) (xs2 : Vec F S1x1024 .f32) :=
  runFinal (F := F) c (grid0.coords t) (msX t) (hsX t) (msWi t) (hsWi t) (msWk t) (hsWk t) (msOut t) (hsOut t) scShift (Memref.isWhole_whole _) scNorm (Memref.isWhole_whole _) scAcc (Memref.isWhole_whole _) hR hF x0 x1 x2 xs0 xs1 xs2
abbrev resetAt (c : Dev nD) (t : Fin cfg0.N) (hR : condReset (grid0.coords t)) (hF : ¬condFinal (grid0.coords t))
    (x0 : Vec F S1x2048x1024 .f32) (x1 : Vec F S1x1024 .bf16) (x2 : Vec F S1024x1024 .bf16) :=
  runReset (F := F) c (grid0.coords t) (msX t) (hsX t) (msWi t) (hsWi t) (msWk t) (hsWk t) (msOut t) (hsOut t) scShift (Memref.isWhole_whole _) scNorm (Memref.isWhole_whole _) scAcc (Memref.isWhole_whole _) hR hF x0 x1 x2

/-! ## The stores cover each buffer they write -/

theorem coverF_out (c : Dev nD) (t : Fin cfg0.N) (hR) (hF) (x0) (x1) (x2) (xs0 xs1) (xs2) (y : S1x1x1024.Idx) :
    ∃ pc ∈ (finalAt (F := F) c t hR hF x0 x1 x2 xs0 xs1 xs2).1, y ∈ pc.1.set :=
  View.cover_of_tiledL _ S1x1x1024.size (by sl_kernel_rfl) y
theorem coverF_s0 (c : Dev nD) (t : Fin cfg0.N) (hR) (hF) (x0) (x1) (x2) (xs0 xs1) (xs2) (y : S1x1.Idx) :
    ∃ pc ∈ (finalAt (F := F) c t hR hF x0 x1 x2 xs0 xs1 xs2).2.1, y ∈ pc.1.set :=
  View.cover_of_tiledL _ S1x1.size (by sl_kernel_rfl) y
theorem coverF_s1 (c : Dev nD) (t : Fin cfg0.N) (hR) (hF) (x0) (x1) (x2) (xs0 xs1) (xs2) (y : S1x1.Idx) :
    ∃ pc ∈ (finalAt (F := F) c t hR hF x0 x1 x2 xs0 xs1 xs2).2.2.1, y ∈ pc.1.set :=
  View.cover_of_tiledL _ S1x1.size (by sl_kernel_rfl) y
theorem coverF_s2 (c : Dev nD) (t : Fin cfg0.N) (hR) (hF) (x0) (x1) (x2) (xs0 xs1) (xs2) (y : S1x1024.Idx) :
    ∃ pc ∈ (finalAt (F := F) c t hR hF x0 x1 x2 xs0 xs1 xs2).2.2.2.1, y ∈ pc.1.set :=
  View.cover_of_tiledL _ S1x1024.size (by sl_kernel_rfl) y
theorem coverR_s0 (c : Dev nD) (t : Fin cfg0.N) (hR) (hF) (x0) (x1) (x2) (y : S1x1.Idx) :
    ∃ pc ∈ (resetAt (F := F) c t hR hF x0 x1 x2).1, y ∈ pc.1.set :=
  View.cover_of_tiledL _ S1x1.size (by sl_kernel_rfl) y
theorem coverR_s1 (c : Dev nD) (t : Fin cfg0.N) (hR) (hF) (x0) (x1) (x2) (y : S1x1.Idx) :
    ∃ pc ∈ (resetAt (F := F) c t hR hF x0 x1 x2).2.1, y ∈ pc.1.set :=
  View.cover_of_tiledL _ S1x1.size (by sl_kernel_rfl) y
theorem coverR_s2 (c : Dev nD) (t : Fin cfg0.N) (hR) (hF) (x0) (x1) (x2) (y : S1x1024.Idx) :
    ∃ pc ∈ (resetAt (F := F) c t hR hF x0 x1 x2).2.2.1, y ∈ pc.1.set :=
  View.cover_of_tiledL _ S1x1024.size (by sl_kernel_rfl) y

/-! ## The state after a point -/

/-- The result buffer's block, the running shift, the running normaliser, the running weighted row sum. -/
abbrev St (F : FTy → Type) [FloatOps F] : Type := Vec F S1x1x1024 .f32 × Vec F S1x1 .f32 × Vec F S1x1 .f32 × Vec F S1x1024 .f32

theorem reset_pf (t : Fin cfg0.N) (h : t.val % 2 = 0) : condReset (grid0.coords t) ∧ ¬condFinal (grid0.coords t) :=
  ⟨(hcondReset t).mpr h, fun hc => by have := (hcondFinal t).mp hc; omega⟩
theorem final_pf (t : Fin cfg0.N) (h : t.val % 2 = 1) : ¬condReset (grid0.coords t) ∧ condFinal (grid0.coords t) :=
  ⟨fun hc => by have := (hcondReset t).mp hc; omega, (hcondFinal t).mpr h⟩

/-- After a resetting point: the result buffer is not described (nothing consults it: the window is idle there and is
    not written back); the scratch holds what the run's stores leave. -/
def stReset (c : Dev nD) (t : Fin cfg0.N) (h : t.val % 2 = 0) : St F :=
  (VOut.read (Elt F) VOut.junk,
   VShift.read (Elt F) (VShift.writes (Elt F) VShift.junk (resetAt (F := F) c t (reset_pf t h).1 (reset_pf t h).2 (iblk V c 0 t) (iblk V c 1 t) (iblk V c 2 t)).1),
   VNorm.read (Elt F) (VNorm.writes (Elt F) VNorm.junk (resetAt (F := F) c t (reset_pf t h).1 (reset_pf t h).2 (iblk V c 0 t) (iblk V c 1 t) (iblk V c 2 t)).2.1),
   VAcc.read (Elt F) (VAcc.writes (Elt F) VAcc.junk (resetAt (F := F) c t (reset_pf t h).1 (reset_pf t h).2 (iblk V c 0 t) (iblk V c 1 t) (iblk V c 2 t)).2.2.1))

/-- After a finalising point, from what the point before left in the scratch. -/
def stFinal (c : Dev nD) (t : Fin cfg0.N) (h : t.val % 2 = 1) (prev : St F) : St F :=
  (VOut.read (Elt F) (VOut.writes (Elt F) VOut.junk (finalAt (F := F) c t (final_pf t h).1 (final_pf t h).2 (iblk V c 0 t) (iblk V c 1 t) (iblk V c 2 t) prev.2.1 prev.2.2.1 prev.2.2.2).1),
   VShift.read (Elt F) (VShift.writes (Elt F) VShift.junk (finalAt (F := F) c t (final_pf t h).1 (final_pf t h).2 (iblk V c 0 t) (iblk V c 1 t) (iblk V c 2 t) prev.2.1 prev.2.2.1 prev.2.2.2).2.1),
   VNorm.read (Elt F) (VNorm.writes (Elt F) VNorm.junk (finalAt (F := F) c t (final_pf t h).1 (final_pf t h).2 (iblk V c 0 t) (iblk V c 1 t) (iblk V c 2 t) prev.2.1 prev.2.2.1 prev.2.2.2).2.2.1),
   VAcc.read (Elt F) (VAcc.writes (Elt F) VAcc.junk (finalAt (F := F) c t (final_pf t h).1 (final_pf t h).2 (iblk V c 0 t) (iblk V c 1 t) (iblk V c 2 t) prev.2.1 prev.2.2.1 prev.2.2.2).2.2.2.1))

/-- THE STATE after the body at position `n`, by the point's parity. -/
def outsAt (c : Dev nD) : (n : ℕ) → n < cfg0.N → St F
  | 0, hn => stReset V c ⟨0, hn⟩ (Nat.zero_mod 2)
  | n + 1, hn =>
    if h : (n + 1) % 2 = 0 then stReset V c ⟨n + 1, hn⟩ h
    else stFinal V c ⟨n + 1, hn⟩ (by show (n + 1) % 2 = 1; omega) (outsAt c n (Nat.lt_of_succ_lt hn))

theorem outsAt_reset (c : Dev nD) (t : Fin cfg0.N) (h : t.val % 2 = 0) : outsAt V c t.val t.isLt = stReset V c t h := by
  obtain ⟨n, hn⟩ := t
  cases n with
  | zero => rfl
  | succ n => exact dif_pos h

theorem outsAt_final (c : Dev nD) (t : Fin cfg0.N) (h : t.val % 2 = 1) :
    outsAt V c t.val t.isLt = stFinal V c t h (outsAt V c (t.val - 1) (Nat.lt_of_le_of_lt (Nat.sub_le _ _) t.isLt)) := by
  obtain ⟨n, hn⟩ := t
  cases n with
  | zero => exact absurd h (by show ¬ ((0 : ℕ) % 2 = 1); decide)
  | succ n => exact dif_neg (by have h' : (n + 1) % 2 = 1 := h; omega)

/-! ## The invariant -/

/-- The scoped buffers that are neither this kernel's staging buffers nor its scratch (the other kernel's staging
    buffers), each whole at some contents. -/
def rest8 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's untouched invariant with the three scratch buffers as owned memrefs. -/
theorem PhiA_eq (c : Dev nD) :
    (Pipeline.ΦA spec0 c : sProp 𝕄)
      = iprop(((∃ d, owns (c : Thread nD τ) scShift fullShare d) ∗ (∃ d, owns (c : Thread nD τ) scNorm fullShare d)
          ∗ (∃ d, owns (c : Thread nD τ) scAcc fullShare d) ∗ rest8 (F := F) c) ∗ (∃ r, prngReg c r)) := by
  unfold Pipeline.ΦA rest8; rw [scopedRest0_eq]; simp only [scShift, scNorm, scAcc, owns_whole]; try rfl

/-- Before position `n`: before the first point the untouched invariant; afterwards the scratch at what the point
    before left. -/
def PhiS (c : Dev nD) : (n : ℕ) → n ≤ cfg0.N → sProp 𝕄
  | 0, _ => Pipeline.ΦA spec0 c
  | n + 1, hn => iprop((owns (c : Thread nD τ) scShift fullShare (outsAt V c n hn).2.1 ∗ owns (c : Thread nD τ) scNorm fullShare (outsAt V c n hn).2.2.1
      ∗ owns (c : Thread nD τ) scAcc fullShare (outsAt V c n hn).2.2.2 ∗ rest8 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scShift fullShare (outsAt V c n hn).2.1 ∗ owns (c : Thread nD τ) scNorm fullShare (outsAt V c n hn).2.2.1
      ∗ owns (c : Thread nD τ) scAcc fullShare (outsAt V c n hn).2.2.2 ∗ rest8 (F := F) c) ∗ (∃ r, prngReg c r)) := rfl
theorem PhiS_pos (c : Dev nD) (n : ℕ) (h : n ≤ cfg0.N) (hz : n ≠ 0) :
    PhiS V c n h = iprop((owns (c : Thread nD τ) scShift fullShare (outsAt V c (n - 1) (by omega)).2.1 ∗ owns (c : Thread nD τ) scNorm fullShare (outsAt V c (n - 1) (by omega)).2.2.1
      ∗ owns (c : Thread nD τ) scAcc fullShare (outsAt V c (n - 1) (by omega)).2.2.2 ∗ rest8 (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem before_0 (c : Dev nD) (t : Fin cfg0.N) (d) : (dat V c).before 0 t d = iblk V c 0 t := before_of_0 V (dat V c) (A_eq V c 0) (after_0 V c) t d
theorem before_1 (c : Dev nD) (t : Fin cfg0.N) (d) : (dat V c).before 1 t d = iblk V c 1 t := before_of_1 V (dat V c) (A_eq V c 1) (after_1 V c) t d
theorem before_2 (c : Dev nD) (t : Fin cfg0.N) (d) : (dat V c).before 2 t d = iblk V c 2 t := before_of_2 V (dat V c) (A_eq V c 2) (after_2 V c) t d

end Cert.KernelIdeal.RegionX

end
-- ==== Proof.RegionXBody.lean ====
/-
  The pooling kernel's body obligation: at every grid point, from the invariant and each window's current staging
  buffer at what it then holds, the body runs to the invariant at the next point and each buffer at what the proof
  data say it leaves.

  The three input windows' buffers hold their blocks and are only read. At an even point the run is the resetting
  one: the scratch may hold anything before it (so whatever the invariant says of it is forgotten), the result window
  is idle and its buffer goes back as it came. At an odd point the run is the finalising one: the invariant supplies
  the scratch at exactly the state the point before left. After either run each buffer that was stored into is read
  back through the fact that its stores cover it.
-/
import proofs.«133993_j20667382628681_2_alg».proof.Proof.RegionXData

set_option maxRecDepth 16384

noncomputable section

namespace Cert.KernelIdeal.RegionX

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost
  rw [bodyAt_eq]
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [(live_in t).1], after_0]
  rw [show (dat V c).leavesExact 1 t = owns (c : Thread nD τ) (msWi t) fullShare ((dat V c).after 1 t) from by
    unfold Dat.leavesExact; rw [(live_in t).2.1], after_1]
  rw [show (dat V c).leavesExact 2 t = owns (c : Thread nD τ) (msWk t) fullShare ((dat V c).after 2 t) from by
    unfold Dat.leavesExact; rw [(live_in t).2.2], after_2]
  by_cases h : t.val % 2 = 0
  · rw [Dat.leavesExact_idle (dat V c) 3 t (idle_out t (reset_pf t h).2) (noFlush_out t (reset_pf t h).2)]
    rw [outsAt_reset V c t h]
    unfold stReset; dsimp only
    by_cases hz : t.val = 0
    · rw [PhiS_castSucc V c t, PhiS_zero V c _ _ hz, PhiA_eq]
      iintro ⟨⟨⟨HS0, HS1, HS2, HR8⟩, Hg⟩, Ho, ⟨%d0, H0⟩, ⟨%d1, H1⟩, ⟨%d2, H2⟩, ⟨%d3, H3⟩⟩
      iapply ((resetAt (F := F) c t (reset_pf t h).1 (reset_pf t h).2 (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 HR8 Hg]
      · isplitr [Hg]
        · isplitl [HS0]
          · unfold owns; iexists _; isplitr
            swap; · iexact HS0
            ipureintro; exact View.read_writes_of_cover _ _ _ _ _ (coverR_s0 c t _ _ _ _ _)
          isplitl [HS1]
          · unfold owns; iexists _; isplitr
            swap; · iexact HS1
            ipureintro; exact View.read_writes_of_cover _ _ _ _ _ (coverR_s1 c t _ _ _ _ _)
          isplitl [HS2]
          · unfold owns; iexists _; isplitr
            swap; · iexact HS2
            ipureintro; exact View.read_writes_of_cover _ _ _ _ _ (coverR_s2 c t _ _ _ _ _)
          iexact HR8
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HS1, HS2, HR8⟩, Hg⟩, Ho, ⟨%d0, H0⟩, ⟨%d1, H1⟩, ⟨%d2, H2⟩, ⟨%d3, H3⟩⟩
      iapply ((resetAt (F := F) c t (reset_pf t h).1 (reset_pf t h).2 (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HS0 HS1 HS2 HR8 Hg]
      · isplitr [Hg]
        · isplitl [HS0]
          · unfold owns; iexists _; isplitr
            swap; · iexact HS0
            ipureintro; exact View.read_writes_of_cover _ _ _ _ _ (coverR_s0 c t _ _ _ _ _)
          isplitl [HS1]
          · unfold owns; iexists _; isplitr
            swap; · iexact HS1
            ipureintro; exact View.read_writes_of_cover _ _ _ _ _ (coverR_s1 c t _ _ _ _ _)
          isplitl [HS2]
          · unfold owns; iexists _; isplitr
            swap; · iexact HS2
            ipureintro; exact View.read_writes_of_cover _ _ _ _ _ (coverR_s2 c t _ _ _ _ _)
          iexact HR8
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat V c).leavesExact 3 t = owns (c : Thread nD τ) (msOut t) fullShare ((dat V c).after 3 t) from by
      unfold Dat.leavesExact; rw [live_out t (final_pf t h1).2], after_3]
    rw [outsAt_final V c t h1]
    unfold stFinal; dsimp only
    rw [PhiS_castSucc V c t, PhiS_pos V c _ _ hz]
    iintro ⟨⟨⟨HS0, HS1, HS2, HR8⟩, Hg⟩, Ho, ⟨%d0, H0⟩, ⟨%d1, H1⟩, ⟨%d2, H2⟩, ⟨%d3, H3⟩⟩
    iapply ((finalAt (F := F) c t (final_pf t h1).1 (final_pf t h1).2 (iblk V c 0 t) (iblk V c 1 t) (iblk V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [HS0 HS1 HS2 HR8 Hg]
    · isplitr [Hg]
      · isplitl [HS0]
        · unfold owns; iexists _; isplitr
          swap; · iexact HS0
          ipureintro; exact View.read_writes_of_cover _ _ _ _ _ (coverF_s0 c t _ _ _ _ _ _ _ _)
        isplitl [HS1]
        · unfold owns; iexists _; isplitr
          swap; · iexact HS1
          ipureintro; exact View.read_writes_of_cover _ _ _ _ _ (coverF_s1 c t _ _ _ _ _ _ _ _)
        isplitl [HS2]
        · unfold owns; iexists _; isplitr
          swap; · iexact HS2
          ipureintro; exact View.read_writes_of_cover _ _ _ _ _ (coverF_s2 c t _ _ _ _ _ _ _ _)
        iexact HR8
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverF_out c t _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem phi_in (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the scratch's named contents are forgotten. -/
theorem phi_out (c : Dev nD) : (dat V c).Φ (Fin.last cfg0.N) ⊢ (Pipeline.ΦA spec0 c : sProp 𝕄) := by
  have hN : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl,
    PhiS_pos V c _ _ hN, PhiA_eq]
  iintro ⟨⟨HS0, HS1, HS2, HR8⟩, Hg⟩
  isplitr [Hg]
  · isplitl [HS0]; · iexists _; iexact HS0
    isplitl [HS1]; · iexists _; iexact HS1
    isplitl [HS2]; · iexists _; iexact HS2
    iexact HR8
  iexact Hg

theorem owed_zero (c : Dev nD) (t : Fin (cfg0.N + 1)) : (dat V c).owed t = 0 := rfl
theorem q_full (c : Dev nD) (w : Fin cfg0.W) : (dat V c).q w = fullShare := rfl

end Cert.KernelIdeal.RegionX

end
-- ==== Proof.RegionXBaseBits.lean ====
/-
  The pooling kernel (the first of the program's two kernels) on its grid of 8 batches by 2 tiles of rows, point
  `t = 2·b + j`: tile `j` of batch `b`.

  The body has two conditionals on the tile coordinate. At the first tile of a batch it RESETS its three scratch
  buffers (the running shift to −∞, the running normaliser and the running weighted row sum to 0); at the last tile it
  FINALISES: divides the weighted row sum by the normaliser, projects it and stores the result block. With two tiles a
  point is of exactly one kind: even points reset and do not finalise, odd points finalise and do not reset. The result
  window is idle at the even points (nothing is stored into it and it is not written back) and live at the odd ones.

  Here: the two conditions in closed form, decided over the 16 points; where the result window is idle and where it is
  written back; the staging and scratch memrefs the body is called with, by name; and the region's untouched invariant
  (every scoped buffer that is no staging buffer of this kernel at anything, the generator register at some state) with
  the three scratch buffers split off as owned memrefs.
-/
import proofs.«133993_j20667382628681_2_alg».proof.Proof.Gen.Kernel.Launch
import proofs.«133993_j20667382628681_2_alg».proof.Proof.Gen.Kernel.Skeleton
import proofs.«133993_j20667382628681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RegionX

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first tile of its batch": the body's first conditional, its scalar chain over the tile coordinate. -/
abbrev condReset (i : grid0.Coords) : Prop :=
  (Scalar.cmpi .ne (Scalar.extui (Scalar.cmpi .eq (BitVec.ofNat 32 (i 1).val) 0#32)) 0#32) = 1#1
/-- It holds at the even points. -/
theorem hcondReset : ∀ t : Fin cfg0.N, condReset (grid0.coords t) ↔ t.val % 2 = 0 :=
  (by decide +kernel : ∀ t : Fin grid0.N, condReset (grid0.coords t) ↔ t.val % 2 = 0)

/-- "This is the last tile of its batch": the body's second conditional. -/
abbrev condFinal (i : grid0.Coords) : Prop := k0_cond2 i = 1#1
/-- It holds at the odd points. -/
theorem hcondFinal : ∀ t : Fin cfg0.N, condFinal (grid0.coords t) ↔ t.val % 2 = 1 :=
  (by decide +kernel : ∀ t : Fin grid0.N, condFinal (grid0.coords t) ↔ t.val % 2 = 1)

/-! ## Where the result window is idle -/

/-- The three input windows are never idle. -/
theorem live_in : ∀ t : Fin cfg0.N, cfg0.idle 0 (grid0.coords t) = false ∧ cfg0.idle 1 (grid0.coords t) = false ∧ cfg0.idle 2 (grid0.coords t) = false := by
  decide +kernel
/-- At a point that does not finalise the result window is idle … -/
theorem idle_out : ∀ t : Fin cfg0.N, ¬condFinal (grid0.coords t) → cfg0.idle 3 (grid0.coords t) = true := by decide +kernel
/-- … and is not written back; -/
theorem noFlush_out : ∀ t : Fin cfg0.N, ¬condFinal (grid0.coords t) → (cfg0.win 3).flush t = false := by decide +kernel
/-- at a point that finalises it is live. -/
theorem live_out : ∀ t : Fin cfg0.N, condFinal (grid0.coords t) → cfg0.idle 3 (grid0.coords t) = false := by decide +kernel

/-! ## The memrefs the body is called with -/

abbrev msX (t : Fin cfg0.N) : Memref sig .tc .vmem S1x2048x1024 .f32 := win0_0.stage (cfg0.slots t 0)
abbrev hsX (t : Fin cfg0.N) : (msX t).IsWhole := hstage0_0 ((cfg0.slots t 0).cast nbuf0_0)
abbrev msWi (t : Fin cfg0.N) : Memref sig .tc .vmem S1x1024 .bf16 := win0_1.stage (cfg0.slots t 1)
abbrev hsWi (t : Fin cfg0.N) : (msWi t).IsWhole := hstage0_1 ((cfg0.slots t 1).cast nbuf0_1)
abbrev msWk (t : Fin cfg0.N) : Memref sig .tc .vmem S1024x1024 .bf16 := win0_2.stage (cfg0.slots t 2)
abbrev hsWk (t : Fin cfg0.N) : (msWk t).IsWhole := hstage0_2 ((cfg0.slots t 2).cast nbuf0_2)
abbrev msOut (t : Fin cfg0.N) : Memref sig .tc .vmem S1x1x1024 .f32 := win0_3.stage (cfg0.slots t 3)
abbrev hsOut (t : Fin cfg0.N) : (msOut t).IsWhole := hstage0_3 ((cfg0.slots t 3).cast nbuf0_3)
/-- The running shift, the running normaliser, the running weighted row sum: whole scoped buffers of the kernel's own. -/
abbrev scShift : Memref sig .tc .vmem S1x1 .f32 := Memref.whole cc0_scratch0
abbrev scNorm : Memref sig .tc .vmem S1x1 .f32 := Memref.whole cc0_scratch1
abbrev scAcc : Memref sig .tc .vmem S1x1024 .f32 := Memref.whole cc0_scratch2

/-- The kernel body at point `t` is the kernel function at these memrefs. -/
theorem bodyAt_eq (t : Fin cfg0.N) :
    bodyAt0 (F := F) t = cc0__cv_kernel (grid0.coords t) (msX t) (hsX t) (msWi t) (hsWi t) (msWk t) (hsWk t) (msOut t) (hsOut t)
      scShift (Memref.isWhole_whole _) scNorm (Memref.isWhole_whole _) scAcc (Memref.isWhole_whole _) := rfl

end Cert.Kernel.RegionX

end
-- ==== Proof.RegionXRunsBits.lean ====
/-
  The pooling kernel's body run whole, once per kind of point, on any whole memrefs.

  FINALISING point (not the first tile, the last tile): the three scratch buffers come in holding what the point before
  left; the body streams the tile into them and then stores the result block. RESETTING point (the first tile, not the
  last): the scratch buffers come in holding anything, are reset and then streamed into; the result buffer is not
  touched and goes back as it came. In both the input buffers are only read.

  Each run is stated with the lists of pieces its stores leave in every buffer it writes (last store first) as a
  witness found while the body is executed; what those pieces amount to is read off afterwards.
-/
import proofs.«133993_j20667382628681_2_alg».proof.Proof.RegionXBaseBits

set_option maxRecDepth 16384

noncomputable section

namespace Cert.Kernel.RegionX

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a FINALISING point: the result buffer and the three scratch buffers end with the witness pieces written. -/
noncomputable def runFinal (c : Dev nD) (i : grid0.Coords) (arg2 : Memref sig .tc .vmem S1x2048x1024 .f32) (harg2 : arg2.IsWhole) (arg3 : Memref sig .tc .vmem S1x1024 .bf16) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1024 .f32) (harg8 : arg8.IsWhole) (hcR : ¬condReset i) (hcF : condFinal i)
    (x0 : Vec F S1x2048x1024 .f32) (x1 : Vec F S1x1024 .bf16) (x2 : Vec F S1024x1024 .bf16) (xs0 xs1 : Vec F S1x1 .f32) (xs2 : Vec F S1x1024 .f32) :
    Σ' (L3 : List (View.Piece (Elt F) S1x1x1024 .f32)) (LS0 : List (View.Piece (Elt F) S1x1 .f32)) (LS1 : List (View.Piece (Elt F) S1x1 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__cv_kernel i arg2 harg2 arg3 harg3 arg4 harg4 arg5 harg5 arg6 harg6 arg7 harg7 arg8 harg8) K } := by
  refine ⟨?_, ?_, ?_, ?_, fun E K => ?run⟩
  case run =>
    simp only [cc0__cv_kernel_eq_skeleton]; unfold cc0__cv_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hcR | exact hcF)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

set_option maxHeartbeats 1000000 in
/-- The body at a RESETTING point: the result buffer goes back untouched; the three scratch buffers, which came in at
    anything, end with the witness pieces written. -/
noncomputable def runReset (c : Dev nD) (i : grid0.Coords) (arg2 : Memref sig .tc .vmem S1x2048x1024 .f32) (harg2 : arg2.IsWhole) (arg3 : Memref sig .tc .vmem S1x1024 .bf16) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1024 .f32) (harg8 : arg8.IsWhole) (hcR : condReset i) (hcF : ¬condFinal i)
    (x0 : Vec F S1x2048x1024 .f32) (x1 : Vec F S1x1024 .bf16) (x2 : Vec F S1024x1024 .bf16) :
    Σ' (LS0 : List (View.Piece (Elt F) S1x1 .f32)) (LS1 : List (View.Piece (Elt F) S1x1 .f32)), { LS2 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__cv_kernel i arg2 harg2 arg3 harg3 arg4 harg4 arg5 harg5 arg6 harg6 arg7 harg7 arg8 harg8) K } := by
  refine ⟨?_, ?_, ?_, fun xi3 E K => ?run⟩
  case run =>
    simp only [cc0__cv_kernel_eq_skeleton]; unfold cc0__cv_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hcR | exact hcF)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.RegionX

end
-- ==== Proof.RegionXDataBits.lean ====
/-
  The pooling kernel's proof data: what its result window's staging buffer and its three scratch buffers hold after
  every grid point, and the body obligation over them.

  After an even point (the first tile of a batch) the scratch holds the state of one tile streamed from the reset
  values; the result buffer was not touched. After an odd point (the last tile) the scratch holds that state
  streamed once more over the second tile, and the result buffer holds the pooled, projected row — a function of
  the second tile, the weights and what the point before left in the scratch. So the state is defined by recursion
  on the point, by its parity; the invariant between two points says the scratch buffers hold the earlier point's
  state (before the first point: anything), every other scoped buffer anything, the generator register some state.
-/
import proofs.«133993_j20667382628681_2_alg».proof.Proof.RegionXRunsBits

set_option maxRecDepth 16384

noncomputable section

namespace Cert.Kernel.RegionX

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The views contents are stated through -/

abbrev VOut : View sig .tc .vmem S1x1x1024 .f32 := (Memref.whole cc0_stg3_0 : Memref sig .tc .vmem S1x1x1024 .f32).view
abbrev VShift : View sig .tc .vmem S1x1 .f32 := (scShift).view
abbrev VNorm : View sig .tc .vmem S1x1 .f32 := (scNorm).view
abbrev VAcc : View sig .tc .vmem S1x1024 .f32 := (scAcc).view

/-! ## The two runs at a point's memrefs -/

abbrev finalAt (c : Dev nD) (t : Fin cfg0.N) (hR : ¬condReset (grid0.coords t)) (hF : condFinal (grid0.coords t))
    (x0 : Vec F S1x2048x1024 .f32) (x1 : Vec F S1x1024 .bf16) (x2 : Vec F S1024x1024 .bf16) (xs0 xs1 : Vec F S1x1 .f32) (xs2 : Vec F S1x1024 .f32) :=
  runFinal (F := F) c (grid0.coords t) (msX t) (hsX t) (msWi t) (hsWi t) (msWk t) (hsWk t) (msOut t) (hsOut t) scShift (Memref.isWhole_whole _) scNorm (Memref.isWhole_whole _) scAcc (Memref.isWhole_whole _) hR hF x0 x1 x2 xs0 xs1 xs2
abbrev resetAt (c : Dev nD) (t : Fin cfg0.N) (hR : condReset (grid0.coords t)) (hF : ¬condFinal (grid0.coords t))
    (x0 : Vec F S1x2048x1024 .f32) (x1 : Vec F S1x1024 .bf16) (x2 : Vec F S1024x1024 .bf16) :=
  runReset (F := F) c (grid0.coords t) (msX t) (hsX t) (msWi t) (hsWi t) (msWk t) (hsWk t) (msOut t) (hsOut t) scShift (Memref.isWhole_whole _) scNorm (Memref.isWhole_whole _) scAcc (Memref.isWhole_whole _) hR hF x0 x1 x2

/-! ## The stores cover each buffer they write -/

theorem coverF_out (c : Dev nD) (t : Fin cfg0.N) (hR) (hF) (x0) (x1) (x2) (xs0 xs1) (xs2) (y : S1x1x1024.Idx) :
    ∃ pc ∈ (finalAt (F := F) c t hR hF x0 x1 x2 xs0 xs1 xs2).1, y ∈ pc.1.set :=
  View.cover_of_tiledL _ S1x1x1024.size (by sl_kernel_rfl) y
theorem coverF_s0 (c : Dev nD) (t : Fin cfg0.N) (hR) (hF) (x0) (x1) (x2) (xs0 xs1) (xs2) (y : S1x1.Idx) :
    ∃ pc ∈ (finalAt (F := F) c t hR hF x0 x1 x2 xs0 xs1 xs2).2.1, y ∈ pc.1.set :=
  View.cover_of_tiledL _ S1x1.size (by sl_kernel_rfl) y
theorem coverF_s1 (c : Dev nD) (t : Fin cfg0.N) (hR) (hF) (x0) (x1) (x2) (xs0 xs1) (xs2) (y : S1x1.Idx) :
    ∃ pc ∈ (finalAt (F := F) c t hR hF x0 x1 x2 xs0 xs1 xs2).2.2.1, y ∈ pc.1.set :=
  View.cover_of_tiledL _ S1x1.size (by sl_kernel_rfl) y
theorem coverF_s2 (c : Dev nD) (t : Fin cfg0.N) (hR) (hF) (x0) (x1) (x2) (xs0 xs1) (xs2) (y : S1x1024.Idx) :
    ∃ pc ∈ (finalAt (F := F) c t hR hF x0 x1 x2 xs0 xs1 xs2).2.2.2.1, y ∈ pc.1.set :=
  View.cover_of_tiledL _ S1x1024.size (by sl_kernel_rfl) y
theorem coverR_s0 (c : Dev nD) (t : Fin cfg0.N) (hR) (hF) (x0) (x1) (x2) (y : S1x1.Idx) :
    ∃ pc ∈ (resetAt (F := F) c t hR hF x0 x1 x2).1, y ∈ pc.1.set :=
  View.cover_of_tiledL _ S1x1.size (by sl_kernel_rfl) y
theorem coverR_s1 (c : Dev nD) (t : Fin cfg0.N) (hR) (hF) (x0) (x1) (x2) (y : S1x1.Idx) :
    ∃ pc ∈ (resetAt (F := F) c t hR hF x0 x1 x2).2.1, y ∈ pc.1.set :=
  View.cover_of_tiledL _ S1x1.size (by sl_kernel_rfl) y
theorem coverR_s2 (c : Dev nD) (t : Fin cfg0.N) (hR) (hF) (x0) (x1) (x2) (y : S1x1024.Idx) :
    ∃ pc ∈ (resetAt (F := F) c t hR hF x0 x1 x2).2.2.1, y ∈ pc.1.set :=
  View.cover_of_tiledL _ S1x1024.size (by sl_kernel_rfl) y

/-! ## The state after a point -/

/-- The result buffer's block, the running shift, the running normaliser, the running weighted row sum. -/
abbrev St (F : FTy → Type) [FloatOps F] : Type := Vec F S1x1x1024 .f32 × Vec F S1x1 .f32 × Vec F S1x1 .f32 × Vec F S1x1024 .f32

theorem reset_pf (t : Fin cfg0.N) (h : t.val % 2 = 0) : condReset (grid0.coords t) ∧ ¬condFinal (grid0.coords t) :=
  ⟨(hcondReset t).mpr h, fun hc => by have := (hcondFinal t).mp hc; omega⟩
theorem final_pf (t : Fin cfg0.N) (h : t.val % 2 = 1) : ¬condReset (grid0.coords t) ∧ condFinal (grid0.coords t) :=
  ⟨fun hc => by have := (hcondReset t).mp hc; omega, (hcondFinal t).mpr h⟩

/-- After a resetting point: the result buffer is not described (nothing consults it: the window is idle there and is
    not written back); the scratch holds what the run's stores leave. -/
def stReset (c : Dev nD) (t : Fin cfg0.N) (h : t.val % 2 = 0) : St F :=
  (VOut.read (Elt F) VOut.junk,
   VShift.read (Elt F) (VShift.writes (Elt F) VShift.junk (resetAt (F := F) c t (reset_pf t h).1 (reset_pf t h).2 (iblk V c 0 t) (iblk V c 1 t) (iblk V c 2 t)).1),
   VNorm.read (Elt F) (VNorm.writes (Elt F) VNorm.junk (resetAt (F := F) c t (reset_pf t h).1 (reset_pf t h).2 (iblk V c 0 t) (iblk V c 1 t) (iblk V c 2 t)).2.1),
   VAcc.read (Elt F) (VAcc.writes (Elt F) VAcc.junk (resetAt (F := F) c t (reset_pf t h).1 (reset_pf t h).2 (iblk V c 0 t) (iblk V c 1 t) (iblk V c 2 t)).2.2.1))

/-- After a finalising point, from what the point before left in the scratch. -/
def stFinal (c : Dev nD) (t : Fin cfg0.N) (h : t.val % 2 = 1) (prev : St F) : St F :=
  (VOut.read (Elt F) (VOut.writes (Elt F) VOut.junk (finalAt (F := F) c t (final_pf t h).1 (final_pf t h).2 (iblk V c 0 t) (iblk V c 1 t) (iblk V c 2 t) prev.2.1 prev.2.2.1 prev.2.2.2).1),
   VShift.read (Elt F) (VShift.writes (Elt F) VShift.junk (finalAt (F := F) c t (final_pf t h).1 (final_pf t h).2 (iblk V c 0 t) (iblk V c 1 t) (iblk V c 2 t) prev.2.1 prev.2.2.1 prev.2.2.2).2.1),
   VNorm.read (Elt F) (VNorm.writes (Elt F) VNorm.junk (finalAt (F := F) c t (final_pf t h).1 (final_pf t h).2 (iblk V c 0 t) (iblk V c 1 t) (iblk V c 2 t) prev.2.1 prev.2.2.1 prev.2.2.2).2.2.1),
   VAcc.read (Elt F) (VAcc.writes (Elt F) VAcc.junk (finalAt (F := F) c t (final_pf t h).1 (final_pf t h).2 (iblk V c 0 t) (iblk V c 1 t) (iblk V c 2 t) prev.2.1 prev.2.2.1 prev.2.2.2).2.2.2.1))

/-- THE STATE after the body at position `n`, by the point's parity. -/
def outsAt (c : Dev nD) : (n : ℕ) → n < cfg0.N → St F
  | 0, hn => stReset V c ⟨0, hn⟩ (Nat.zero_mod 2)
  | n + 1, hn =>
    if h : (n + 1) % 2 = 0 then stReset V c ⟨n + 1, hn⟩ h
    else stFinal V c ⟨n + 1, hn⟩ (by show (n + 1) % 2 = 1; omega) (outsAt c n (Nat.lt_of_succ_lt hn))

theorem outsAt_reset (c : Dev nD) (t : Fin cfg0.N) (h : t.val % 2 = 0) : outsAt V c t.val t.isLt = stReset V c t h := by
  obtain ⟨n, hn⟩ := t
  cases n with
  | zero => rfl
  | succ n => exact dif_pos h

theorem outsAt_final (c : Dev nD) (t : Fin cfg0.N) (h : t.val % 2 = 1) :
    outsAt V c t.val t.isLt = stFinal V c t h (outsAt V c (t.val - 1) (Nat.lt_of_le_of_lt (Nat.sub_le _ _) t.isLt)) := by
  obtain ⟨n, hn⟩ := t
  cases n with
  | zero => exact absurd h (by show ¬ ((0 : ℕ) % 2 = 1); decide)
  | succ n => exact dif_neg (by have h' : (n + 1) % 2 = 1 := h; omega)

/-! ## The invariant -/

/-- The scoped buffers that are neither this kernel's staging buffers nor its scratch (the other kernel's staging
    buffers), each whole at some contents. -/
def rest8 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's untouched invariant with the three scratch buffers as owned memrefs. -/
theorem PhiA_eq (c : Dev nD) :
    (Pipeline.ΦA spec0 c : sProp 𝕄)
      = iprop(((∃ d, owns (c : Thread nD τ) scShift fullShare d) ∗ (∃ d, owns (c : Thread nD τ) scNorm fullShare d)
          ∗ (∃ d, owns (c : Thread nD τ) scAcc fullShare d) ∗ rest8 (F := F) c) ∗ (∃ r, prngReg c r)) := by
  unfold Pipeline.ΦA rest8; rw [scopedRest0_eq]; simp only [scShift, scNorm, scAcc, owns_whole]; try rfl

/-- Before position `n`: before the first point the untouched invariant; afterwards the scratch at what the point
    before left. -/
def PhiS (c : Dev nD) : (n : ℕ) → n ≤ cfg0.N → sProp 𝕄
  | 0, _ => Pipeline.ΦA spec0 c
  | n + 1, hn => iprop((owns (c : Thread nD τ) scShift fullShare (outsAt V c n hn).2.1 ∗ owns (c : Thread nD τ) scNorm fullShare (outsAt V c n hn).2.2.1
      ∗ owns (c : Thread nD τ) scAcc fullShare (outsAt V c n hn).2.2.2 ∗ rest8 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scShift fullShare (outsAt V c n hn).2.1 ∗ owns (c : Thread nD τ) scNorm fullShare (outsAt V c n hn).2.2.1
      ∗ owns (c : Thread nD τ) scAcc fullShare (outsAt V c n hn).2.2.2 ∗ rest8 (F := F) c) ∗ (∃ r, prngReg c r)) := rfl
theorem PhiS_pos (c : Dev nD) (n : ℕ) (h : n ≤ cfg0.N) (hz : n ≠ 0) :
    PhiS V c n h = iprop((owns (c : Thread nD τ) scShift fullShare (outsAt V c (n - 1) (by omega)).2.1 ∗ owns (c : Thread nD τ) scNorm fullShare (outsAt V c (n - 1) (by omega)).2.2.1
      ∗ owns (c : Thread nD τ) scAcc fullShare (outsAt V c (n - 1) (by omega)).2.2.2 ∗ rest8 (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem before_0 (c : Dev nD) (t : Fin cfg0.N) (d) : (dat V c).before 0 t d = iblk V c 0 t := before_of_0 V (dat V c) (A_eq V c 0) (after_0 V c) t d
theorem before_1 (c : Dev nD) (t : Fin cfg0.N) (d) : (dat V c).before 1 t d = iblk V c 1 t := before_of_1 V (dat V c) (A_eq V c 1) (after_1 V c) t d
theorem before_2 (c : Dev nD) (t : Fin cfg0.N) (d) : (dat V c).before 2 t d = iblk V c 2 t := before_of_2 V (dat V c) (A_eq V c 2) (after_2 V c) t d

end Cert.Kernel.RegionX

end
-- ==== Proof.RegionXBodyBits.lean ====
/-
  The pooling kernel's body obligation: at every grid point, from the invariant and each window's current staging
  buffer at what it then holds, the body runs to the invariant at the next point and each buffer at what the proof
  data say it leaves.

  The three input windows' buffers hold their blocks and are only read. At an even point the run is the resetting
  one: the scratch may hold anything before it (so whatever the invariant says of it is forgotten), the result window
  is idle and its buffer goes back as it came. At an odd point the run is the finalising one: the invariant supplies
  the scratch at exactly the state the point before left. After either run each buffer that was stored into is read
  back through the fact that its stores cover it.
-/
import proofs.«133993_j20667382628681_2_alg».proof.Proof.RegionXDataBits

set_option maxRecDepth 16384

noncomputable section

namespace Cert.Kernel.RegionX

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost
  rw [bodyAt_eq]
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [(live_in t).1], after_0]
  rw [show (dat V c).leavesExact 1 t = owns (c : Thread nD τ) (msWi t) fullShare ((dat V c).after 1 t) from by
    unfold Dat.leavesExact; rw [(live_in t).2.1], after_1]
  rw [show (dat V c).leavesExact 2 t = owns (c : Thread nD τ) (msWk t) fullShare ((dat V c).after 2 t) from by
    unfold Dat.leavesExact; rw [(live_in t).2.2], after_2]
  by_cases h : t.val % 2 = 0
  · rw [Dat.leavesExact_idle (dat V c) 3 t (idle_out t (reset_pf t h).2) (noFlush_out t (reset_pf t h).2)]
    rw [outsAt_reset V c t h]
    unfold stReset; dsimp only
    by_cases hz : t.val = 0
    · rw [PhiS_castSucc V c t, PhiS_zero V c _ _ hz, PhiA_eq]
      iintro ⟨⟨⟨HS0, HS1, HS2, HR8⟩, Hg⟩, Ho, ⟨%d0, H0⟩, ⟨%d1, H1⟩, ⟨%d2, H2⟩, ⟨%d3, H3⟩⟩
      iapply ((resetAt (F := F) c t (reset_pf t h).1 (reset_pf t h).2 (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 HR8 Hg]
      · isplitr [Hg]
        · isplitl [HS0]
          · unfold owns; iexists _; isplitr
            swap; · iexact HS0
            ipureintro; exact View.read_writes_of_cover _ _ _ _ _ (coverR_s0 c t _ _ _ _ _)
          isplitl [HS1]
          · unfold owns; iexists _; isplitr
            swap; · iexact HS1
            ipureintro; exact View.read_writes_of_cover _ _ _ _ _ (coverR_s1 c t _ _ _ _ _)
          isplitl [HS2]
          · unfold owns; iexists _; isplitr
            swap; · iexact HS2
            ipureintro; exact View.read_writes_of_cover _ _ _ _ _ (coverR_s2 c t _ _ _ _ _)
          iexact HR8
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HS1, HS2, HR8⟩, Hg⟩, Ho, ⟨%d0, H0⟩, ⟨%d1, H1⟩, ⟨%d2, H2⟩, ⟨%d3, H3⟩⟩
      iapply ((resetAt (F := F) c t (reset_pf t h).1 (reset_pf t h).2 (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HS0 HS1 HS2 HR8 Hg]
      · isplitr [Hg]
        · isplitl [HS0]
          · unfold owns; iexists _; isplitr
            swap; · iexact HS0
            ipureintro; exact View.read_writes_of_cover _ _ _ _ _ (coverR_s0 c t _ _ _ _ _)
          isplitl [HS1]
          · unfold owns; iexists _; isplitr
            swap; · iexact HS1
            ipureintro; exact View.read_writes_of_cover _ _ _ _ _ (coverR_s1 c t _ _ _ _ _)
          isplitl [HS2]
          · unfold owns; iexists _; isplitr
            swap; · iexact HS2
            ipureintro; exact View.read_writes_of_cover _ _ _ _ _ (coverR_s2 c t _ _ _ _ _)
          iexact HR8
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat V c).leavesExact 3 t = owns (c : Thread nD τ) (msOut t) fullShare ((dat V c).after 3 t) from by
      unfold Dat.leavesExact; rw [live_out t (final_pf t h1).2], after_3]
    rw [outsAt_final V c t h1]
    unfold stFinal; dsimp only
    rw [PhiS_castSucc V c t, PhiS_pos V c _ _ hz]
    iintro ⟨⟨⟨HS0, HS1, HS2, HR8⟩, Hg⟩, Ho, ⟨%d0, H0⟩, ⟨%d1, H1⟩, ⟨%d2, H2⟩, ⟨%d3, H3⟩⟩
    iapply ((finalAt (F := F) c t (final_pf t h1).1 (final_pf t h1).2 (iblk V c 0 t) (iblk V c 1 t) (iblk V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [HS0 HS1 HS2 HR8 Hg]
    · isplitr [Hg]
      · isplitl [HS0]
        · unfold owns; iexists _; isplitr
          swap; · iexact HS0
          ipureintro; exact View.read_writes_of_cover _ _ _ _ _ (coverF_s0 c t _ _ _ _ _ _ _ _)
        isplitl [HS1]
        · unfold owns; iexists _; isplitr
          swap; · iexact HS1
          ipureintro; exact View.read_writes_of_cover _ _ _ _ _ (coverF_s1 c t _ _ _ _ _ _ _ _)
        isplitl [HS2]
        · unfold owns; iexists _; isplitr
          swap; · iexact HS2
          ipureintro; exact View.read_writes_of_cover _ _ _ _ _ (coverF_s2 c t _ _ _ _ _ _ _ _)
        iexact HR8
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverF_out c t _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem phi_in (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the scratch's named contents are forgotten. -/
theorem phi_out (c : Dev nD) : (dat V c).Φ (Fin.last cfg0.N) ⊢ (Pipeline.ΦA spec0 c : sProp 𝕄) := by
  have hN : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl,
    PhiS_pos V c _ _ hN, PhiA_eq]
  iintro ⟨⟨HS0, HS1, HS2, HR8⟩, Hg⟩
  isplitr [Hg]
  · isplitl [HS0]; · iexists _; iexact HS0
    isplitl [HS1]; · iexists _; iexact HS1
    isplitl [HS2]; · iexists _; iexact HS2
    iexact HR8
  iexact Hg

theorem owed_zero (c : Dev nD) (t : Fin (cfg0.N + 1)) : (dat V c).owed t = 0 := rfl
theorem q_full (c : Dev nD) (w : Fin cfg0.W) : (dat V c).q w = fullShare := rfl

end Cert.Kernel.RegionX

end
-- ==== Proof.Frames.lean ====
/-
  The two kernel programs' frames: every weakly fair execution of the program terminates, nothing faults, and the five
  argument arrays end as launched.

  Each follows from the program's run assembled from per-kernel proof data, once the pooling kernel's data are shown to
  have what the assembly asks of them: their arrays are the entry contents, full shares, nothing owed or recorded, the
  body obligation at every grid point, and an invariant that is the region's untouched one before the first point and
  yields it back after the last. The two programs are one text read at two float instances, and the data are stated
  at any instance, so the two proofs are the same.
-/
import proofs.«133993_j20667382628681_2_alg».proof.Defs
import proofs.«133993_j20667382628681_2_alg».proof.Proof.Assembly
import proofs.«133993_j20667382628681_2_alg».proof.Proof.AssemblyBits
import proofs.«133993_j20667382628681_2_alg».proof.Proof.RegionXBody
import proofs.«133993_j20667382628681_2_alg».proof.Proof.RegionXBodyBits
import proofs.«133993_j20667382628681_2_alg».proof.Proof.Gen.Kernel
import proofs.«133993_j20667382628681_2_alg».proof.Proof.Gen.KernelIdeal
import proofs.«133993_j20667382628681_2_alg».proof.Proof.Gen.Pre_finite_inputs

noncomputable section

open Idealize.ShloMosaic Idealize.SL.Sem

/-- The pooling kernel's proof data have what the idealized program's assembly asks. -/
theorem Cert.KernelIdeal.RegionX.dataX {F : FTy → Type} [FloatOps F] :
    Cert.KernelIdeal.Assembly.DataX (F := F) (fun V c => Cert.KernelIdeal.RegionX.dat V c) where
  A_eq V c w := Cert.KernelIdeal.RegionX.A_eq V c w
  q_full _ _ _ := rfl
  owed0 _ _ _ := rfl
  recorded0 _ _ := rfl
  body V c := Cert.KernelIdeal.RegionX.body_obligation V c
  phi_in V c := Cert.KernelIdeal.RegionX.phi_in V c
  phi_out V c := Cert.KernelIdeal.RegionX.phi_out V c

/-- The same for the word-level program. -/
theorem Cert.Kernel.RegionX.dataX {F : FTy → Type} [FloatOps F] :
    Cert.Kernel.Assembly.DataX (F := F) (fun V c => Cert.Kernel.RegionX.dat V c) where
  A_eq V c w := Cert.Kernel.RegionX.A_eq V c w
  q_full _ _ _ := rfl
  owed0 _ _ _ := rfl
  recorded0 _ _ := rfl
  body V c := Cert.Kernel.RegionX.body_obligation V c
  phi_in V c := Cert.Kernel.RegionX.phi_in V c
  phi_out V c := Cert.Kernel.RegionX.phi_out V c

namespace Cert.Proof.Frames

theorem frame_kernel [Cert.Kernel.Facts] [Cert.Pre_finite_inputs.Facts] : Cert.frame_Kernel :=
  fun m ρ _ => Cert.Kernel.Assembly.frame_of_data m ρ (Cert.Kernel.RegionX.dataX (F := Bits))

theorem frame_kernelIdeal [Cert.KernelIdeal.Facts] [Cert.Pre_finite_inputs.Facts] : Cert.frame_KernelIdeal :=
  fun m ρ _ => Cert.KernelIdeal.Assembly.frame_of_data m ρ (Cert.KernelIdeal.RegionX.dataX (F := Ideal))

end Cert.Proof.Frames

end
-- ==== Proof.RegionXPieces.lean ====
/-
  The pooling kernel's proof data read back: what each buffer holds after a point, as the named arithmetic of the
  point's blocks and of the state before it.
-/
import proofs.«133993_j20667382628681_2_alg».proof.Proof.RegionXData
import Idealize.ShloMosaic.Lib.Pipeline.Value

set_option maxRecDepth 16384

noncomputable section

namespace Cert.KernelIdeal.RegionX

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole rectangle of a rank-2 buffer starts at zero. -/
theorem hz2 : (![0, 0] : Fin 2 → Nat) = fun _ => 0 := funext fun a => by fin_cases a <;> rfl
/-- The whole rectangle of a rank-3 buffer starts at zero. -/
theorem hz3 : (![0, 0, 0] : Fin 3 → Nat) = fun _ => 0 := funext fun a => by fin_cases a <;> rfl

/-! ## A scratch buffer read back whole -/

/-- The shift buffer, filled so as to read `X`, reads `X`. -/
theorem read_unread_shift (h : scShift.IsWhole) (X : Vec F S1x1 .f32) :
    View.read (Elt F) (View.whole cc0_scratch0 : View sig .tc .vmem S1x1 .f32) (h.unread X) = X := h.read_unread X
/-- The normaliser buffer, filled so as to read `X`, reads `X`. -/
theorem read_unread_norm (h : scNorm.IsWhole) (X : Vec F S1x1 .f32) :
    View.read (Elt F) (View.whole cc0_scratch1 : View sig .tc .vmem S1x1 .f32) (h.unread X) = X := h.read_unread X
/-- The weighted-row-sum buffer, filled so as to read `X`, reads `X`. -/
theorem read_unread_acc (h : scAcc.IsWhole) (X : Vec F S1x1024 .f32) :
    View.read (Elt F) (View.whole cc0_scratch2 : View sig .tc .vmem S1x1024 .f32) (h.unread X) = X := h.read_unread X

/-! ## What each buffer holds after a point, over any blocks -/

/-- At a resetting point the shift buffer ends holding the shift after one tile streamed from the reset value. -/
theorem reset_shift (c : Dev nD) (t : Fin cfg0.N) (hR : condReset (grid0.coords t)) (hF : ¬condFinal (grid0.coords t))
    (x0 : Vec F S1x2048x1024 .f32) (x1 : Vec F S1x1024 .bf16) (x2 : Vec F S1024x1024 .bf16) :
    VShift.read (Elt F) (VShift.writes (Elt F) VShift.junk (resetAt (F := F) c t hR hF x0 x1 x2).1)
      = k0_pay1 (k0_pay8 x0 x1 (k0_pay3 (F := F))) := by
  rw [View.read_writes_eq_canon _ _ _ (coverR_s0 c t hR hF x0 x1 x2)]
  unfold resetAt runReset
  dsimp only
  sl_unfold_words
  rw [View.canon_cons_unit_zero (S := S1x1) hz2]
  simp only [View.readCov_unit_zero (S := S1x1) _ hz2, View.readCov_unit_zero (S := S1x1024) _ hz2, View.readAt_eq_ld,
    Memref.IsWhole.read_unread, read_unread_shift, read_unread_norm, read_unread_acc, View.ld_unit_zero (S := S1x2048x1024) hz3, View.ld_unit_zero (S := S1x1024) hz2,
    View.ld_unit_zero (S := S1x1) hz2, View.ld_unit_zero (S := S1024x1024) hz2]

/-- At a resetting point the normaliser buffer ends holding the normaliser after one tile streamed from the reset values. -/
theorem reset_norm (c : Dev nD) (t : Fin cfg0.N) (hR : condReset (grid0.coords t)) (hF : ¬condFinal (grid0.coords t))
    (x0 : Vec F S1x2048x1024 .f32) (x1 : Vec F S1x1024 .bf16) (x2 : Vec F S1024x1024 .bf16) :
    VNorm.read (Elt F) (VNorm.writes (Elt F) VNorm.junk (resetAt (F := F) c t hR hF x0 x1 x2).2.1)
      = k0_pay11 x0 x1 (k0_pay3 (F := F)) (k0_pay4 (F := F)) := by
  rw [View.read_writes_eq_canon _ _ _ (coverR_s1 c t hR hF x0 x1 x2)]
  unfold resetAt runReset
  dsimp only
  sl_unfold_words
  rw [View.canon_cons_unit_zero (S := S1x1) hz2]
  simp only [View.readCov_unit_zero (S := S1x1) _ hz2, View.readCov_unit_zero (S := S1x1024) _ hz2, View.readAt_eq_ld,
    Memref.IsWhole.read_unread, read_unread_shift, read_unread_norm, read_unread_acc, View.ld_unit_zero (S := S1x2048x1024) hz3, View.ld_unit_zero (S := S1x1024) hz2,
    View.ld_unit_zero (S := S1x1) hz2, View.ld_unit_zero (S := S1024x1024) hz2]

/-- At a resetting point the weighted-row-sum buffer ends holding the sum after one tile streamed from the reset values. -/
theorem reset_acc (c : Dev nD) (t : Fin cfg0.N) (hR : condReset (grid0.coords t)) (hF : ¬condFinal (grid0.coords t))
    (x0 : Vec F S1x2048x1024 .f32) (x1 : Vec F S1x1024 .bf16) (x2 : Vec F S1024x1024 .bf16) :
    VAcc.read (Elt F) (VAcc.writes (Elt F) VAcc.junk (resetAt (F := F) c t hR hF x0 x1 x2).2.2.1)
      = k0_pay12 x0 x1 (k0_pay3 (F := F)) (k0_pay5 (F := F)) := by
  rw [View.read_writes_eq_canon _ _ _ (coverR_s2 c t hR hF x0 x1 x2)]
  unfold resetAt runReset
  dsimp only
  sl_unfold_words
  rw [View.canon_cons_unit_zero (S := S1x1024) hz2]
  simp only [View.readCov_unit_zero (S := S1x1) _ hz2, View.readCov_unit_zero (S := S1x1024) _ hz2, View.readAt_eq_ld,
    Memref.IsWhole.read_unread, read_unread_shift, read_unread_norm, read_unread_acc, View.ld_unit_zero (S := S1x2048x1024) hz3, View.ld_unit_zero (S := S1x1024) hz2,
    View.ld_unit_zero (S := S1x1) hz2, View.ld_unit_zero (S := S1024x1024) hz2]

/-- At a finalising point the result buffer ends holding the last step applied to this point's weighted row sum and normaliser (read back after this point's stores) and the weight block. -/
theorem final_out (c : Dev nD) (t : Fin cfg0.N) (hR : ¬condReset (grid0.coords t)) (hF : condFinal (grid0.coords t))
    (x0 : Vec F S1x2048x1024 .f32) (x1 : Vec F S1x1024 .bf16) (x2 : Vec F S1024x1024 .bf16) (xs0 xs1 : Vec F S1x1 .f32) (xs2 : Vec F S1x1024 .f32) :
    VOut.read (Elt F) (VOut.writes (Elt F) VOut.junk (finalAt (F := F) c t hR hF x0 x1 x2 xs0 xs1 xs2).1)
      = k0_pay2 (k0_pay12 x0 x1 xs0 xs2) (k0_pay11 x0 x1 xs0 xs1) x2 := by
  rw [View.read_writes_eq_canon _ _ _ (coverF_out c t hR hF x0 x1 x2 xs0 xs1 xs2)]
  unfold finalAt runFinal
  dsimp only
  sl_unfold_words
  rw [View.canon_cons_unit_zero (S := S1x1x1024) hz3]
  simp only [View.readCov_unit_zero (S := S1x1) _ hz2, View.readCov_unit_zero (S := S1x1024) _ hz2, View.readAt_eq_ld,
    Memref.IsWhole.read_unread, read_unread_shift, read_unread_norm, read_unread_acc, View.ld_unit_zero (S := S1x2048x1024) hz3, View.ld_unit_zero (S := S1x1024) hz2,
    View.ld_unit_zero (S := S1x1) hz2, View.ld_unit_zero (S := S1024x1024) hz2]

/-- At a finalising point the shift buffer ends holding the shift after the tile, from the shift before it. -/
theorem final_shift (c : Dev nD) (t : Fin cfg0.N) (hR : ¬condReset (grid0.coords t)) (hF : condFinal (grid0.coords t))
    (x0 : Vec F S1x2048x1024 .f32) (x1 : Vec F S1x1024 .bf16) (x2 : Vec F S1024x1024 .bf16) (xs0 xs1 : Vec F S1x1 .f32) (xs2 : Vec F S1x1024 .f32) :
    VShift.read (Elt F) (VShift.writes (Elt F) VShift.junk (finalAt (F := F) c t hR hF x0 x1 x2 xs0 xs1 xs2).2.1)
      = k0_pay1 (k0_pay8 x0 x1 xs0) := by
  rw [View.read_writes_eq_canon _ _ _ (coverF_s0 c t hR hF x0 x1 x2 xs0 xs1 xs2)]
  unfold finalAt runFinal
  dsimp only
  sl_unfold_words
  rw [View.canon_cons_unit_zero (S := S1x1) hz2]
  simp only [View.readCov_unit_zero (S := S1x1) _ hz2, View.readCov_unit_zero (S := S1x1024) _ hz2, View.readAt_eq_ld,
    Memref.IsWhole.read_unread, read_unread_shift, read_unread_norm, read_unread_acc, View.ld_unit_zero (S := S1x2048x1024) hz3, View.ld_unit_zero (S := S1x1024) hz2,
    View.ld_unit_zero (S := S1x1) hz2, View.ld_unit_zero (S := S1024x1024) hz2]

/-- At a finalising point the normaliser buffer ends holding the normaliser after the tile, from the state before it. -/
theorem final_norm (c : Dev nD) (t : Fin cfg0.N) (hR : ¬condReset (grid0.coords t)) (hF : condFinal (grid0.coords t))
    (x0 : Vec F S1x2048x1024 .f32) (x1 : Vec F S1x1024 .bf16) (x2 : Vec F S1024x1024 .bf16) (xs0 xs1 : Vec F S1x1 .f32) (xs2 : Vec F S1x1024 .f32) :
    VNorm.read (Elt F) (VNorm.writes (Elt F) VNorm.junk (finalAt (F := F) c t hR hF x0 x1 x2 xs0 xs1 xs2).2.2.1)
      = k0_pay11 x0 x1 xs0 xs1 := by
  rw [View.read_writes_eq_canon _ _ _ (coverF_s1 c t hR hF x0 x1 x2 xs0 xs1 xs2)]
  unfold finalAt runFinal
  dsimp only
  sl_unfold_words
  rw [View.canon_cons_unit_zero (S := S1x1) hz2]
  simp only [View.readCov_unit_zero (S := S1x1) _ hz2, View.readCov_unit_zero (S := S1x1024) _ hz2, View.readAt_eq_ld,
    Memref.IsWhole.read_unread, read_unread_shift, read_unread_norm, read_unread_acc, View.ld_unit_zero (S := S1x2048x1024) hz3, View.ld_unit_zero (S := S1x1024) hz2,
    View.ld_unit_zero (S := S1x1) hz2, View.ld_unit_zero (S := S1024x1024) hz2]

/-- At a finalising point the weighted-row-sum buffer ends holding the sum after the tile, from the state before it. -/
theorem final_acc (c : Dev nD) (t : Fin cfg0.N) (hR : ¬condReset (grid0.coords t)) (hF : condFinal (grid0.coords t))
    (x0 : Vec F S1x2048x1024 .f32) (x1 : Vec F S1x1024 .bf16) (x2 : Vec F S1024x1024 .bf16) (xs0 xs1 : Vec F S1x1 .f32) (xs2 : Vec F S1x1024 .f32) :
    VAcc.read (Elt F) (VAcc.writes (Elt F) VAcc.junk (finalAt (F := F) c t hR hF x0 x1 x2 xs0 xs1 xs2).2.2.2.1)
      = k0_pay12 x0 x1 xs0 xs2 := by
  rw [View.read_writes_eq_canon _ _ _ (coverF_s2 c t hR hF x0 x1 x2 xs0 xs1 xs2)]
  unfold finalAt runFinal
  dsimp only
  sl_unfold_words
  rw [View.canon_cons_unit_zero (S := S1x1024) hz2]
  simp only [View.readCov_unit_zero (S := S1x1) _ hz2, View.readCov_unit_zero (S := S1x1024) _ hz2, View.readAt_eq_ld,
    Memref.IsWhole.read_unread, read_unread_shift, read_unread_norm, read_unread_acc, View.ld_unit_zero (S := S1x2048x1024) hz3, View.ld_unit_zero (S := S1x1024) hz2,
    View.ld_unit_zero (S := S1x1) hz2, View.ld_unit_zero (S := S1024x1024) hz2]

/-! ## The state after a point -/

-- the buffers' contents when the region is entered
variable (V : (c : Dev nD) → (b : Ref sig .tc) → Buf (Elt F) ((c : Thread nD τ).loc b))

/-- Storing the shift goes through a shape cast of a `[1, 1]` array to its own shape: the identity. -/
theorem k0_pay1_self (v : FVec F S1x1 .f32) : k0_pay1 (F := F) v = v := by
  unfold k0_pay1
  exact shapeCast_self v _

/-- After a resetting point the scratch holds one tile streamed from the reset values. -/
theorem stReset_eq (c : Dev nD) (t : Fin cfg0.N) (h : t.val % 2 = 0) :
    (stReset V c t h).2.1 = k0_pay1 (k0_pay8 (iblk V c 0 t) (iblk V c 1 t) (k0_pay3 (F := F)))
      ∧ (stReset V c t h).2.2.1 = k0_pay11 (iblk V c 0 t) (iblk V c 1 t) (k0_pay3 (F := F)) (k0_pay4 (F := F))
      ∧ (stReset V c t h).2.2.2 = k0_pay12 (iblk V c 0 t) (iblk V c 1 t) (k0_pay3 (F := F)) (k0_pay5 (F := F)) := by
  unfold stReset
  dsimp only
  exact ⟨reset_shift c t (reset_pf t h).1 (reset_pf t h).2 (iblk V c 0 t) (iblk V c 1 t) (iblk V c 2 t),
    reset_norm c t (reset_pf t h).1 (reset_pf t h).2 (iblk V c 0 t) (iblk V c 1 t) (iblk V c 2 t),
    reset_acc c t (reset_pf t h).1 (reset_pf t h).2 (iblk V c 0 t) (iblk V c 1 t) (iblk V c 2 t)⟩

/-- After a finalising point the scratch holds the state before it streamed over the tile, and the result buffer the
    last step applied to that new state and the weight block. -/
theorem stFinal_eq (c : Dev nD) (t : Fin cfg0.N) (h : t.val % 2 = 1) (prev : St F) :
    (stFinal V c t h prev).1
        = k0_pay2 (k0_pay12 (iblk V c 0 t) (iblk V c 1 t) prev.2.1 prev.2.2.2)
            (k0_pay11 (iblk V c 0 t) (iblk V c 1 t) prev.2.1 prev.2.2.1) (iblk V c 2 t)
      ∧ (stFinal V c t h prev).2.1 = k0_pay1 (k0_pay8 (iblk V c 0 t) (iblk V c 1 t) prev.2.1)
      ∧ (stFinal V c t h prev).2.2.1 = k0_pay11 (iblk V c 0 t) (iblk V c 1 t) prev.2.1 prev.2.2.1
      ∧ (stFinal V c t h prev).2.2.2 = k0_pay12 (iblk V c 0 t) (iblk V c 1 t) prev.2.1 prev.2.2.2 := by
  unfold stFinal
  dsimp only
  exact ⟨final_out c t (final_pf t h).1 (final_pf t h).2 (iblk V c 0 t) (iblk V c 1 t) (iblk V c 2 t) prev.2.1 prev.2.2.1 prev.2.2.2,
    final_shift c t (final_pf t h).1 (final_pf t h).2 (iblk V c 0 t) (iblk V c 1 t) (iblk V c 2 t) prev.2.1 prev.2.2.1 prev.2.2.2,
    final_norm c t (final_pf t h).1 (final_pf t h).2 (iblk V c 0 t) (iblk V c 1 t) (iblk V c 2 t) prev.2.1 prev.2.2.1 prev.2.2.2,
    final_acc c t (final_pf t h).1 (final_pf t h).2 (iblk V c 0 t) (iblk V c 1 t) (iblk V c 2 t) prev.2.1 prev.2.2.1 prev.2.2.2⟩

end Cert.KernelIdeal.RegionX

end
-- ==== Proof.Spec.lean ====
/-
  Softmax pooling in two arrangements, on the extended reals, over abstract finite index types.

  Rows `n` of a matrix `x` carry a logit `ℓ n = ∑ c, x n c · wi c`. The POOLED key projection is
  `cv d = ∑ n, softmax(ℓ) n · (∑ c, x n c · wk d c)`.

  * `pooledRef` is the direct arrangement: weights `exp (ℓ n − M) / ∑ n', exp (ℓ n' − M)` at a shift `M`, each
    multiplying that row's projection, summed over the rows.
  * `pooledTiled` is the streaming arrangement over two tiles of rows: a running shift `m₁` then `m₂`, a running
    normaliser and a running weighted sum of the ROWS THEMSELVES, the earlier tile's state rescaled by
    `exp (m₁ − m₂)`; only at the end the pooled row is divided by the normaliser and projected through `wk`.

  For real entries and ANY real shifts the two agree (`pooledTiled_eq_pooledRef`): `exp (m₁ − m₂) · exp (ℓ − m₁) =
  exp (ℓ − m₂)`, the ratio does not depend on the shift, the normaliser is a sum of positive reals, and the projection
  is linear so it commutes with the weighted sum over rows. Nothing here mentions a maximum: that the shifts are the
  running maxima only matters for their being real.
-/
import Idealize.ShloMosaic.PureOps.Ideal
import Mathlib.Data.EReal.Basic
import Mathlib.Algebra.BigOperators.Fin

noncomputable section

namespace Attn

open Idealize.ShloMosaic

variable {T N C D : ℕ}

/-- The logit of row `n`: the row against the scoring vector. -/
def logit (x : Fin N → Fin C → EReal) (wi : Fin C → EReal) (n : Fin N) : EReal := ∑ c, x n c * wi c

/-- The same logit with the factors in the other order (the scoring vector on the left). -/
def logitL (x : Fin N → Fin C → EReal) (wi : Fin C → EReal) (n : Fin N) : EReal := ∑ c, wi c * x n c

/-- The direct arrangement at shift `M`: softmax weights times each row's projection, summed over rows. -/
def pooledRef (x : Fin N → Fin C → EReal) (wi : Fin C → EReal) (wk : Fin D → Fin C → EReal) (M : EReal) (d : Fin D) : EReal :=
  ∑ n, Ideal.div (Ideal.exp (logit x wi n - M)) (∑ n', Ideal.exp (logit x wi n' - M)) * (∑ c, x n c * wk d c)

/-- The streaming arrangement over two tiles `x0`, `x1` of `T` rows, with running shifts `m1`, `m2`. -/
def pooledTiled (x0 x1 : Fin T → Fin C → EReal) (wi : Fin C → EReal) (wk : Fin D → Fin C → EReal) (m1 m2 : EReal) (d : Fin D) : EReal :=
  let p0 : Fin T → EReal := fun n => Ideal.exp (logitL x0 wi n - m1)
  let l1 : EReal := ∑ n, p0 n
  let acc1 : Fin C → EReal := fun c => ∑ n, p0 n * x0 n c
  let a : EReal := Ideal.exp (m1 - m2)
  let p1 : Fin T → EReal := fun n => Ideal.exp (logitL x1 wi n - m2)
  let l2 : EReal := a * l1 + ∑ n, p1 n
  let acc2 : Fin C → EReal := fun c => a * acc1 c + ∑ n, p1 n * x1 n c
  ∑ c, Ideal.div (acc2 c) l2 * wk d c

/-- One output row: the pooled vector `cv` gates the positive part of the row's value projection, and the gated row goes
    through the output projection. Both programs end with exactly this, on the same pooled vector. -/
def gatedOut {E : ℕ} (cv : Fin D → EReal) (xrow : Fin C → EReal) (wv : Fin D → Fin C → EReal) (wo : Fin E → Fin D → EReal) (e : Fin E) : EReal :=
  ∑ d, (cv d * max (∑ c, xrow c * wv d c) 0) * wo e d

end Attn

end
-- ==== Proof.LibDotRhsT.lean ====
/-
  A matrix product with the right operand transposed, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals.
-/
import Idealize.ShloMosaic.PureOps.Ideal.Laws
import Idealize.ShloMosaic.Lib.ValueIdx

noncomputable section

namespace Cert.LibDotRhsT

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_rhsT {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_rhsT {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_rhsT M K N l r j)

end Cert.LibDotRhsT

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.PayloadValue.lean ====
/-
  The kernel's arithmetic read at an index, at the ideal values: each stored value of the pooling kernel and of the
  gating kernel as a sum, maximum, exponential or quotient of the entries it was computed from.
-/
import proofs.«133993_j20667382628681_2_alg».proof.Proof.Gen.KernelIdeal.Skeleton
import proofs.«133993_j20667382628681_2_alg».proof.Proof.Spec
import proofs.«133993_j20667382628681_2_alg».proof.Proof.LibDotRhsT
import proofs.«133993_j20667382628681_2_alg».proof.Proof.LibPlainDot
import proofs.«133993_j20667382628681_2_alg».proof.Proof.LibRowReduce
import proofs.«133993_j20667382628681_2_alg».proof.Proof.LibColumn
import Idealize.ShloMosaic.PureOps.Ideal.Laws
import Idealize.ShloMosaic.Lib.ValueIdx
import Idealize.ShloMosaic.Lib.ValueLayout
import Idealize.ShloMosaic.Lib.Pipeline.Value
import Mathlib.Data.EReal.Operations
import Mathlib.Data.Finset.Fold

noncomputable section

namespace Cert.KernelIdeal.PayloadValue

open Cert.KernelIdeal Cert.KernelIdeal.Gen Idealize.ShloMosaic Idealize.ShloMosaic.ValueIdx

/-- The rows of a tile, as a function of the row and the column. -/
abbrev rowsOf {n : ℕ} (x : Vec Ideal ⟨3, ![1, n, 1024]⟩ .f32) : Fin n → Fin 1024 → EReal := fun r c => x (ix3 (0 : Fin 1) r c)

/-- A one-row array, as a function of the column. -/
abbrev vecOf (wi : Vec Ideal S1x1024 .bf16) : Fin 1024 → EReal := fun c => wi (ix2 (0 : Fin 1) c)

/-- A square array, as a function of its two coordinates. -/
abbrev matOf (w : Vec Ideal S1024x1024 .bf16) : Fin 1024 → Fin 1024 → EReal := fun d c => w (ix2 d c)

/-! ### The words of the two constants -/

/-- The word of negative infinity is the bottom of the extended reals. -/
theorem ofBits_neg_inf_f32 : Ideal.ofBits .f32 0xFF800000#32 = ⊥ := by simp [Ideal.ofBits, Ideal.ieee]

/-! ### The gating kernel -/

/-- The gated output at row `n` and column `e`: the rows against `wv`, clipped below at zero, scaled entrywise by the
    pooled vector, then against `wo`. -/
theorem gated_apply (xb : Vec Ideal S1x1024x1024 .f32) (wv wo : Vec Ideal S1024x1024 .bf16) (cvb : Vec Ideal S1x1x1024 .f32)
    (n e : Fin 1024) :
    k1_pay1 xb wv wo cvb (ix3 (0 : Fin 1) n e)
      = Attn.gatedOut (fun d : Fin 1024 => cvb (ix3 (0 : Fin 1) (0 : Fin 1) d)) (fun c : Fin 1024 => xb (ix3 (0 : Fin 1) n c))
          (matOf wv) (matOf wo) e := by
  unfold k1_pay1 Attn.gatedOut
  refine (shapeCast_ab_1ab_apply _ shapeCasts_S1024x1024_S1x1024x1024 (0 : Fin 1) n e).trans ?_
  refine (Cert.LibDotRhsT.matmul_rhsT 1024 1024 1024 none _ _ (ix2 n e)).trans ?_
  refine Finset.sum_congr rfl fun d _ => ?_
  have hwo : shapeCast S1024x1024 wo shapeCasts_S1024x1024_S1024x1024 = wo := shapeCast_self wo _
  have hwv : shapeCast S1024x1024 wv shapeCasts_S1024x1024_S1024x1024 = wv := shapeCast_self wv _
  have hcv : broadcastTo S1024x1024 (shapeCast S1x1024 cvb shapeCasts_S1x1x1024_S1x1024) broadcasts_S1x1024_S1024x1024 (ix2 n d)
      = cvb (ix3 (0 : Fin 1) (0 : Fin 1) d) :=
    (broadcastTo_1b_ab_apply _ broadcasts_S1x1024_S1024x1024 n d).trans
      (shapeCast_1ab_ab_apply cvb shapeCasts_S1x1x1024_S1x1024 (0 : Fin 1) d)
  have hdot : matmul (F := Ideal) (φ₁ := .bf16) (φ₂ := .bf16) dot_S1024x1024_S1024x1024_S1024x1024_1_1_0_0_n_n none
        (truncf .bf16 (shapeCast S1024x1024 xb shapeCasts_S1x1024x1024_S1024x1024) bitsLt_bf16_f32)
        (shapeCast S1024x1024 wv shapeCasts_S1024x1024_S1024x1024) (constant (F := Ideal) S1024x1024 .f32 0x00000000#32) (ix2 n d)
      = ∑ c : Fin 1024, xb (ix3 (0 : Fin 1) n c) * wv (ix2 d c) := by
    refine (Cert.LibDotRhsT.matmul_rhsT 1024 1024 1024 none _ _ (ix2 n d)).trans ?_
    refine Finset.sum_congr rfl fun c _ => ?_
    rw [hwv]
    exact congrArg (· * wv (ix2 d c)) (shapeCast_1ab_ab_apply xb shapeCasts_S1x1024x1024_S1024x1024 n c)
  show (broadcastTo S1024x1024 (shapeCast S1x1024 cvb shapeCasts_S1x1x1024_S1x1024) broadcasts_S1x1024_S1024x1024 (ix2 n d)
        * max (matmul (F := Ideal) (φ₁ := .bf16) (φ₂ := .bf16) dot_S1024x1024_S1024x1024_S1024x1024_1_1_0_0_n_n none
            (truncf .bf16 (shapeCast S1024x1024 xb shapeCasts_S1x1024x1024_S1024x1024) bitsLt_bf16_f32)
            (shapeCast S1024x1024 wv shapeCasts_S1024x1024_S1024x1024) (constant (F := Ideal) S1024x1024 .f32 0x00000000#32) (ix2 n d))
          (Ideal.ofBits .f32 0x00000000#32))
      * shapeCast S1024x1024 wo shapeCasts_S1024x1024_S1024x1024 (ix2 e d) = _
  rw [hcv, hdot, hwo, Ideal.ofBits_zero_f32]

/-! ### The pooling kernel: the last step -/

/-- The pooled projection at column `d`: the weighted row sum divided by the normaliser, against row `d` of `wk`. -/
theorem finalize_apply (acc : Vec Ideal S1x1024 .f32) (l : Vec Ideal S1x1 .f32) (wk : Vec Ideal S1024x1024 .bf16) (d : Fin 1024) :
    k0_pay2 acc l wk (ix3 (0 : Fin 1) (0 : Fin 1) d)
      = ∑ c : Fin 1024, Ideal.div (acc (ix2 (0 : Fin 1) c)) (l (ix2 (0 : Fin 1) (0 : Fin 1))) * wk (ix2 d c) := by
  unfold k0_pay2
  refine (shapeCast_ab_1ab_apply _ shapeCasts_S1x1024_S1x1x1024 (0 : Fin 1) (0 : Fin 1) d).trans ?_
  refine (Cert.LibDotRhsT.matmul_rhsT 1 1024 1024 none _ _ (ix2 (0 : Fin 1) d)).trans ?_
  refine Finset.sum_congr rfl fun c _ => ?_
  have hb : broadcastTo S1x1024 l broadcasts_S1x1_S1x1024 (ix2 (0 : Fin 1) c) = l (ix2 (0 : Fin 1) (0 : Fin 1)) :=
    Cert.LibColumn.broadcastTo_a1_ab_apply l broadcasts_S1x1_S1x1024 (0 : Fin 1) c
  have hw : shapeCast S1024x1024 wk shapeCasts_S1024x1024_S1024x1024 = wk := shapeCast_self wk _
  show Ideal.div (acc (ix2 (0 : Fin 1) c)) (broadcastTo S1x1024 l broadcasts_S1x1_S1x1024 (ix2 (0 : Fin 1) c))
      * shapeCast S1024x1024 wk shapeCasts_S1024x1024_S1024x1024 (ix2 d c) = _
  rw [hb, hw]

/-! ### The pooling kernel: the scratch before the first tile -/

/-- Before the first tile the running shift is the bottom, the normaliser zero and the weighted row sum zero. -/
theorem init_apply :
    k0_pay3 (F := Ideal) (ix2 (0 : Fin 1) (0 : Fin 1)) = ⊥ ∧ k0_pay4 (F := Ideal) (ix2 (0 : Fin 1) (0 : Fin 1)) = 0
      ∧ ∀ c : Fin 1024, k0_pay5 (F := Ideal) (ix2 (0 : Fin 1) c) = 0 := by
  refine ⟨?_, ?_, fun c => ?_⟩
  · unfold k0_pay3
    rw [shapeCast_self]
    exact ofBits_neg_inf_f32
  · unfold k0_pay4
    rw [shapeCast_self]
    exact Ideal.ofBits_zero_f32
  · unfold k0_pay5
    rw [shapeCast_self]
    exact Ideal.ofBits_zero_f32

/-! ### The pooling kernel: one tile -/

/-- The tile as a matrix of rows. -/
theorem tile_apply (x : Vec Ideal S1x2048x1024 .f32) (n : Fin 2048) (c : Fin 1024) :
    k0_pay6 x (ix2 n c) = x (ix3 (0 : Fin 1) n c) := by
  unfold k0_pay6
  exact shapeCast_1ab_ab_apply x shapeCasts_S1x2048x1024_S2048x1024 n c

/-- The logit of row `n`: the scoring vector against the row. -/
theorem logits_apply (x : Vec Ideal S1x2048x1024 .f32) (wi : Vec Ideal S1x1024 .bf16) (n : Fin 2048) :
    k0_pay7 x wi (ix2 (0 : Fin 1) n) = Attn.logitL (rowsOf x) (vecOf wi) n := by
  unfold k0_pay7 Attn.logitL
  refine (Cert.LibDotRhsT.matmul_rhsT 1 1024 2048 none _ _ (ix2 (0 : Fin 1) n)).trans ?_
  refine Finset.sum_congr rfl fun c _ => ?_
  have hw : shapeCast S1x1024 wi shapeCasts_S1x1024_S1x1024 = wi := shapeCast_self wi _
  show shapeCast S1x1024 wi shapeCasts_S1x1024_S1x1024 (ix2 (0 : Fin 1) c) * k0_pay6 x (ix2 n c) = _
  rw [hw, tile_apply]

/-- The running shift after the tile: the larger of the shift before it and the largest logit of the tile. -/
theorem shift_apply (x : Vec Ideal S1x2048x1024 .f32) (wi : Vec Ideal S1x1024 .bf16) (mp : Vec Ideal S1x1 .f32) :
    k0_pay8 x wi mp (ix2 (0 : Fin 1) (0 : Fin 1))
      = max (mp (ix2 (0 : Fin 1) (0 : Fin 1)))
          ((Finset.univ : Finset (Fin 2048)).fold max ⊥ (fun n => Attn.logitL (rowsOf x) (vecOf wi) n)) := by
  unfold k0_pay8
  refine congrArg (max (mp (ix2 (0 : Fin 1) (0 : Fin 1)))) ?_
  refine (shapeCast_a_1a_apply _ shapeCasts_S1_S1x1 (0 : Fin 1) (0 : Fin 1)).trans ?_
  refine (Cert.LibRowReduce.rowMax_apply (k0_pay7 x wi) 0xFF800000#32 reduces_S1x2048_S1 (.inl rfl) rfl (0 : Fin 1)).trans ?_
  have hb : FloatOps.ofBits (F := Ideal) .f32 0xFF800000#32 = ⊥ := ofBits_neg_inf_f32
  rw [hb]
  exact congrArg (Finset.fold max ⊥ · (Finset.univ : Finset (Fin 2048))) (funext fun n => logits_apply x wi n)

/-- The factor that rescales the state kept from the earlier tiles. -/
theorem rescale_apply (x : Vec Ideal S1x2048x1024 .f32) (wi : Vec Ideal S1x1024 .bf16) (mp : Vec Ideal S1x1 .f32) :
    k0_pay9 x wi mp (ix2 (0 : Fin 1) (0 : Fin 1))
      = Ideal.exp (mp (ix2 (0 : Fin 1) (0 : Fin 1)) - k0_pay8 x wi mp (ix2 (0 : Fin 1) (0 : Fin 1))) := rfl

/-- The weight of row `n` at the running shift. -/
theorem weight_apply (x : Vec Ideal S1x2048x1024 .f32) (wi : Vec Ideal S1x1024 .bf16) (mp : Vec Ideal S1x1 .f32) (n : Fin 2048) :
    k0_pay10 x wi mp (ix2 (0 : Fin 1) n)
      = Ideal.exp (Attn.logitL (rowsOf x) (vecOf wi) n - k0_pay8 x wi mp (ix2 (0 : Fin 1) (0 : Fin 1))) := by
  unfold k0_pay10
  have hb : broadcastTo S1x2048 (k0_pay8 x wi mp) broadcasts_S1x1_S1x2048 (ix2 (0 : Fin 1) n)
      = k0_pay8 x wi mp (ix2 (0 : Fin 1) (0 : Fin 1)) :=
    Cert.LibColumn.broadcastTo_a1_ab_apply (k0_pay8 x wi mp) broadcasts_S1x1_S1x2048 (0 : Fin 1) n
  show Ideal.exp (k0_pay7 x wi (ix2 (0 : Fin 1) n)
      - broadcastTo S1x2048 (k0_pay8 x wi mp) broadcasts_S1x1_S1x2048 (ix2 (0 : Fin 1) n)) = _
  rw [hb, logits_apply]

/-- The running normaliser after the tile: the one before it rescaled, plus the tile's weights. -/
theorem norm_apply (x : Vec Ideal S1x2048x1024 .f32) (wi : Vec Ideal S1x1024 .bf16) (mp lp : Vec Ideal S1x1 .f32) :
    k0_pay11 x wi mp lp (ix2 (0 : Fin 1) (0 : Fin 1))
      = Ideal.exp (mp (ix2 (0 : Fin 1) (0 : Fin 1)) - k0_pay8 x wi mp (ix2 (0 : Fin 1) (0 : Fin 1))) * lp (ix2 (0 : Fin 1) (0 : Fin 1))
        + ∑ n : Fin 2048, Ideal.exp (Attn.logitL (rowsOf x) (vecOf wi) n - k0_pay8 x wi mp (ix2 (0 : Fin 1) (0 : Fin 1))) := by
  unfold k0_pay11
  rw [shapeCast_self]
  have hs : shapeCast S1x1 (multiReduction (F := Ideal) .add [1] S1 (k0_pay10 x wi mp) 0x00000000#32 reduces_S1x2048_S1 (.inl rfl) rfl)
        shapeCasts_S1_S1x1 (ix2 (0 : Fin 1) (0 : Fin 1))
      = ∑ n : Fin 2048, Ideal.exp (Attn.logitL (rowsOf x) (vecOf wi) n - k0_pay8 x wi mp (ix2 (0 : Fin 1) (0 : Fin 1))) := by
    refine (shapeCast_a_1a_apply _ shapeCasts_S1_S1x1 (0 : Fin 1) (0 : Fin 1)).trans ?_
    refine (Cert.LibRowReduce.rowSum_apply (k0_pay10 x wi mp) 0x00000000#32 reduces_S1x2048_S1 (.inl rfl) rfl (0 : Fin 1)).trans ?_
    exact Finset.sum_congr rfl fun n _ => weight_apply x wi mp n
  show k0_pay9 x wi mp (ix2 (0 : Fin 1) (0 : Fin 1)) * lp (ix2 (0 : Fin 1) (0 : Fin 1))
      + shapeCast S1x1 (multiReduction (F := Ideal) .add [1] S1 (k0_pay10 x wi mp) 0x00000000#32 reduces_S1x2048_S1 (.inl rfl) rfl)
          shapeCasts_S1_S1x1 (ix2 (0 : Fin 1) (0 : Fin 1)) = _
  rw [hs, rescale_apply]

/-- The running weighted sum of rows after the tile, at column `c`: the one before it rescaled, plus the tile's rows
    weighted. -/
theorem acc_apply (x : Vec Ideal S1x2048x1024 .f32) (wi : Vec Ideal S1x1024 .bf16) (mp : Vec Ideal S1x1 .f32)
    (ap : Vec Ideal S1x1024 .f32) (c : Fin 1024) :
    k0_pay12 x wi mp ap (ix2 (0 : Fin 1) c)
      = Ideal.exp (mp (ix2 (0 : Fin 1) (0 : Fin 1)) - k0_pay8 x wi mp (ix2 (0 : Fin 1) (0 : Fin 1))) * ap (ix2 (0 : Fin 1) c)
        + ∑ n : Fin 2048, Ideal.exp (Attn.logitL (rowsOf x) (vecOf wi) n - k0_pay8 x wi mp (ix2 (0 : Fin 1) (0 : Fin 1)))
            * x (ix3 (0 : Fin 1) n c) := by
  unfold k0_pay12
  rw [shapeCast_self]
  have hb : broadcastTo S1x1024 (k0_pay9 x wi mp) broadcasts_S1x1_S1x1024 (ix2 (0 : Fin 1) c)
      = k0_pay9 x wi mp (ix2 (0 : Fin 1) (0 : Fin 1)) :=
    Cert.LibColumn.broadcastTo_a1_ab_apply (k0_pay9 x wi mp) broadcasts_S1x1_S1x1024 (0 : Fin 1) c
  have hd : matmul (F := Ideal) (φ₁ := .bf16) (φ₂ := .bf16) dot_S1x2048_S2048x1024_S1x1024_1_0_0_1_n_n none
        (truncf .bf16 (k0_pay10 x wi mp) bitsLt_bf16_f32) (k0_pay6 x) (constant (F := Ideal) S1x1024 .f32 0x00000000#32)
        (ix2 (0 : Fin 1) c)
      = ∑ n : Fin 2048, Ideal.exp (Attn.logitL (rowsOf x) (vecOf wi) n - k0_pay8 x wi mp (ix2 (0 : Fin 1) (0 : Fin 1)))
          * x (ix3 (0 : Fin 1) n c) := by
    refine (Cert.LibPlainDot.matmul_plain 1 2048 1024 none _ _ (ix2 (0 : Fin 1) c)).trans ?_
    refine Finset.sum_congr rfl fun n _ => ?_
    show k0_pay10 x wi mp (ix2 (0 : Fin 1) n) * k0_pay6 x (ix2 n c) = _
    rw [weight_apply, tile_apply]
  show broadcastTo S1x1024 (k0_pay9 x wi mp) broadcasts_S1x1_S1x1024 (ix2 (0 : Fin 1) c) * ap (ix2 (0 : Fin 1) c)
      + matmul (F := Ideal) (φ₁ := .bf16) (φ₂ := .bf16) dot_S1x2048_S2048x1024_S1x1024_1_0_0_1_n_n none
          (truncf .bf16 (k0_pay10 x wi mp) bitsLt_bf16_f32) (k0_pay6 x) (constant (F := Ideal) S1x1024 .f32 0x00000000#32)
          (ix2 (0 : Fin 1) c) = _
  rw [hb, hd, rescale_apply]

/-! ### The running shift is a real -/

/-- A finite sum of reals is a real. -/
theorem sum_real {ι : Type} (s : Finset ι) (f : ι → EReal) (hf : ∀ i, ∃ r : ℝ, f i = (r : EReal)) :
    ∃ r : ℝ, ∑ i ∈ s, f i = (r : EReal) := by
  classical
  refine Finset.induction_on s ⟨0, by simp⟩ ?_
  intro a t ha ih
  obtain ⟨r, hr⟩ := ih
  obtain ⟨q, hq⟩ := hf a
  exact ⟨q + r, by rw [Finset.sum_insert ha, hr, hq, EReal.coe_add]⟩

/-- The maximum, started from the bottom, of finitely many reals is the bottom or a real. -/
theorem fold_max_bot_or_real {ι : Type} (s : Finset ι) (f : ι → EReal) (hf : ∀ i, ∃ r : ℝ, f i = (r : EReal)) :
    s.fold max ⊥ f = ⊥ ∨ ∃ r : ℝ, s.fold max ⊥ f = (r : EReal) := by
  classical
  refine Finset.induction_on s (Or.inl Finset.fold_empty) ?_
  intro a t ha ih
  rw [Finset.fold_insert ha]
  rcases max_choice (f a) (t.fold max ⊥ f) with h | h
  · rw [h]; exact Or.inr (hf a)
  · rw [h]; exact ih

/-- An extended real that is the bottom or a real, and lies above a real, is a real. -/
theorem real_of_ge {v : EReal} (hv : v = ⊥ ∨ ∃ r : ℝ, v = (r : EReal)) {s : ℝ} (h : (s : EReal) ≤ v) :
    ∃ r : ℝ, v = (r : EReal) := by
  rcases hv with hb | hr
  · rw [hb] at h
    exact absurd h (not_le.mpr (EReal.bot_lt_coe s))
  · exact hr

/-- With real entries every logit of the tile is a real. -/
theorem logit_real (x : Vec Ideal S1x2048x1024 .f32) (wi : Vec Ideal S1x1024 .bf16)
    (hx : ∀ i, ∃ r : ℝ, x i = (r : EReal)) (hw : ∀ i, ∃ r : ℝ, wi i = (r : EReal)) (n : Fin 2048) :
    ∃ r : ℝ, Attn.logitL (rowsOf x) (vecOf wi) n = (r : EReal) := by
  unfold Attn.logitL
  refine sum_real _ _ fun c => ?_
  obtain ⟨a, ha⟩ := hw (ix2 (0 : Fin 1) c)
  obtain ⟨b, hb⟩ := hx (ix3 (0 : Fin 1) n c)
  refine ⟨a * b, ?_⟩
  show wi (ix2 (0 : Fin 1) c) * x (ix3 (0 : Fin 1) n c) = _
  rw [ha, hb, EReal.coe_mul]

/-- With real entries, and the shift before the tile the bottom or a real, the running shift after the tile is a real:
    the tile has a row, whose logit is a real below the maximum. -/
theorem shift_real (x : Vec Ideal S1x2048x1024 .f32) (wi : Vec Ideal S1x1024 .bf16) (mp : Vec Ideal S1x1 .f32)
    (hx : ∀ i, ∃ r : ℝ, x i = (r : EReal)) (hw : ∀ i, ∃ r : ℝ, wi i = (r : EReal))
    (hm : mp (ix2 (0 : Fin 1) (0 : Fin 1)) = ⊥ ∨ ∃ r : ℝ, mp (ix2 (0 : Fin 1) (0 : Fin 1)) = (r : EReal)) :
    ∃ r : ℝ, k0_pay8 x wi mp (ix2 (0 : Fin 1) (0 : Fin 1)) = (r : EReal) := by
  rw [shift_apply]
  have hlog := logit_real x wi hx hw
  have hF := fold_max_bot_or_real (Finset.univ : Finset (Fin 2048)) (fun n => Attn.logitL (rowsOf x) (vecOf wi) n) hlog
  obtain ⟨r0, hr0⟩ := hlog (0 : Fin 2048)
  have hle : ((r0 : ℝ) : EReal)
      ≤ (Finset.univ : Finset (Fin 2048)).fold max ⊥ (fun n => Attn.logitL (rowsOf x) (vecOf wi) n) := by
    rw [← hr0]
    exact (Finset.le_fold_max _).mpr (Or.inr ⟨(0 : Fin 2048), Finset.mem_univ _, le_rfl⟩)
  refine real_of_ge ?_ (hle.trans (le_max_right _ _))
  rcases max_choice (mp (ix2 (0 : Fin 1) (0 : Fin 1)))
      ((Finset.univ : Finset (Fin 2048)).fold max ⊥ (fun n => Attn.logitL (rowsOf x) (vecOf wi) n)) with h | h
  · rw [h]; exact hm
  · rw [h]; exact hF

/-! ### Two tiles, then the last step -/

/-- From the scratch as it is before the first tile, two tiles and the last step compute the streaming arrangement of
    softmax pooling, the running shifts being the kernel's own. At the first tile the shift before it is the bottom, so
    the rescaling factor is `exp ⊥ = 0` and the state carried in (itself zero) drops out. -/
theorem pooled_two_tiles (x0 x1 : Vec Ideal S1x2048x1024 .f32) (wi : Vec Ideal S1x1024 .bf16)
    (wk : Vec Ideal S1024x1024 .bf16) (d : Fin 1024) :
    k0_pay2 (k0_pay12 x1 wi (k0_pay8 x0 wi (k0_pay3 (F := Ideal))) (k0_pay12 x0 wi (k0_pay3 (F := Ideal)) (k0_pay5 (F := Ideal))))
        (k0_pay11 x1 wi (k0_pay8 x0 wi (k0_pay3 (F := Ideal))) (k0_pay11 x0 wi (k0_pay3 (F := Ideal)) (k0_pay4 (F := Ideal)))) wk (ix3 (0 : Fin 1) (0 : Fin 1) d)
      = Attn.pooledTiled (rowsOf x0) (rowsOf x1) (vecOf wi) (matOf wk)
          (k0_pay8 x0 wi (k0_pay3 (F := Ideal)) (ix2 (0 : Fin 1) (0 : Fin 1)))
          (k0_pay8 x1 wi (k0_pay8 x0 wi (k0_pay3 (F := Ideal))) (ix2 (0 : Fin 1) (0 : Fin 1))) d := by
  obtain ⟨h3, _, _⟩ := init_apply
  have hz : Ideal.exp (k0_pay3 (F := Ideal) (ix2 (0 : Fin 1) (0 : Fin 1))
      - k0_pay8 x0 wi (k0_pay3 (F := Ideal)) (ix2 (0 : Fin 1) (0 : Fin 1))) = 0 := by
    rw [h3, EReal.bot_sub, Ideal.exp_bot]
  have hl1 : k0_pay11 x0 wi (k0_pay3 (F := Ideal)) (k0_pay4 (F := Ideal)) (ix2 (0 : Fin 1) (0 : Fin 1))
      = ∑ n : Fin 2048, Ideal.exp (Attn.logitL (rowsOf x0) (vecOf wi) n - k0_pay8 x0 wi (k0_pay3 (F := Ideal)) (ix2 (0 : Fin 1) (0 : Fin 1))) := by
    rw [norm_apply, hz, zero_mul, zero_add]
  have ha1 : ∀ c : Fin 1024, k0_pay12 x0 wi (k0_pay3 (F := Ideal)) (k0_pay5 (F := Ideal)) (ix2 (0 : Fin 1) c)
      = ∑ n : Fin 2048, Ideal.exp (Attn.logitL (rowsOf x0) (vecOf wi) n - k0_pay8 x0 wi (k0_pay3 (F := Ideal)) (ix2 (0 : Fin 1) (0 : Fin 1)))
          * x0 (ix3 (0 : Fin 1) n c) := by
    intro c
    rw [acc_apply, hz, zero_mul, zero_add]
  rw [finalize_apply]
  simp only [Attn.pooledTiled]
  refine Finset.sum_congr rfl fun c _ => ?_
  rw [acc_apply, norm_apply, hl1, ha1]

end Cert.KernelIdeal.PayloadValue

end
-- ==== Proof.RegionXValue.lean ====
/-
  The pooling kernel's result block at the ideal values: after a batch's last grid point the result buffer holds the
  streaming arrangement of softmax pooling over the batch's two tiles of rows.
-/
import proofs.«133993_j20667382628681_2_alg».proof.Proof.RegionXPieces
import proofs.«133993_j20667382628681_2_alg».proof.Proof.PayloadValue

set_option maxRecDepth 16384

noncomputable section

namespace Cert.KernelIdeal.RegionX

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when the region is entered
variable (V : (c : Dev nD) → (b : Ref sig .tc) → Buf (Elt F) ((c : Thread nD τ).loc b))

/-! ## The scoring vector's block is the same at every point -/

/-- The scoring vector's window reads its whole array at every point: its block does not depend on the point. -/
theorem iblk1_const (c : Dev nD) (t t' : Fin cfg0.N) :
    (iblk V c 1 t : Vec F S1x1024 .bf16) = (iblk V c 1 t' : Vec F S1x1024 .bf16) := rfl

/-! ## The result block of a batch, at the ideal values -/

open Cert.KernelIdeal.PayloadValue Idealize.ShloMosaic.ValueIdx

-- the buffers' contents when the region is entered, at the ideal values
variable (W : (c : Dev nD) → (b : Ref sig .tc) → Buf (Elt Ideal) ((c : Thread nD τ).loc b))

/-- The first point of batch `b`: its first tile. -/
abbrev ptFirst (b : Fin 8) : Fin cfg0.N := ⟨2 * b.val, by show 2 * b.val < grid0.N; rw [N_0]; omega⟩
/-- The last point of batch `b`: its second tile. -/
abbrev ptLast (b : Fin 8) : Fin cfg0.N := ⟨2 * b.val + 1, by show 2 * b.val + 1 < grid0.N; rw [N_0]; omega⟩

/-- The tile of rows, the scoring vector and the weight matrix the body finds at point `t`. -/
abbrev tileAt (c : Dev nD) (t : Fin cfg0.N) : Vec Ideal S1x2048x1024 .f32 := iblk W c 0 t
abbrev scoreAt (c : Dev nD) (t : Fin cfg0.N) : Vec Ideal S1x1024 .bf16 := iblk W c 1 t
abbrev weightAt (c : Dev nD) (t : Fin cfg0.N) : Vec Ideal S1024x1024 .bf16 := iblk W c 2 t

/-- The state before a batch's last point is the state after its first. -/
theorem outsAt_before_last (c : Dev nD) (b : Fin 8) (h0 : (ptFirst b).val % 2 = 0) :
    outsAt W c ((ptLast b).val - 1) (Nat.lt_of_le_of_lt (Nat.sub_le _ _) (ptLast b).isLt) = stReset W c (ptFirst b) h0 :=
  outsAt_reset W c (ptFirst b) h0

/-- After a batch's last point the result buffer holds, at column `d`, the streaming arrangement of softmax pooling over
    the batch's two tiles, with the kernel's own running shifts. -/
theorem result_block_apply (c : Dev nD) (b : Fin 8) (d : Fin 1024) :
    (outsAt W c (ptLast b).val (ptLast b).isLt).1 (ix3 (0 : Fin 1) (0 : Fin 1) d)
      = Attn.pooledTiled (rowsOf (tileAt W c (ptFirst b))) (rowsOf (tileAt W c (ptLast b))) (vecOf (scoreAt W c (ptLast b)))
          (matOf (weightAt W c (ptLast b)))
          (k0_pay8 (tileAt W c (ptFirst b)) (scoreAt W c (ptLast b)) (k0_pay3 (F := Ideal)) (ix2 (0 : Fin 1) (0 : Fin 1)))
          (k0_pay8 (tileAt W c (ptLast b)) (scoreAt W c (ptLast b))
            (k0_pay8 (tileAt W c (ptFirst b)) (scoreAt W c (ptLast b)) (k0_pay3 (F := Ideal))) (ix2 (0 : Fin 1) (0 : Fin 1))) d := by
  have h0 : (ptFirst b).val % 2 = 0 := by show (2 * b.val) % 2 = 0; omega
  have h1 : (ptLast b).val % 2 = 1 := by show (2 * b.val + 1) % 2 = 1; omega
  obtain ⟨e1, -, -, -⟩ := stFinal_eq W c (ptLast b) h1 (stReset W c (ptFirst b) h0)
  obtain ⟨r1, r2, r3⟩ := stReset_eq W c (ptFirst b) h0
  rw [outsAt_final W c (ptLast b) h1, outsAt_before_last W c b h0, e1, r1, r2, r3, k0_pay1_self]
  exact pooled_two_tiles (tileAt W c (ptFirst b)) (tileAt W c (ptLast b)) (scoreAt W c (ptLast b)) (weightAt W c (ptLast b)) d

end Cert.KernelIdeal.RegionX

end
-- ==== Proof.ValueX.lean ====
/-
  The first kernel's input blocks at coordinates, and its result array after its region, index by index.

  The grid has 8 · 2 points; point t is (batch t / 2, tile t % 2). At point t the kernel reads the x block of batch t / 2
  and rows (t % 2) · 2048 … (t % 2) · 2048 + 2047, and the scoring row and the key matrix whole; the result window's
  block is row (t / 2, 0, ·) of the [8, 1, 1024] result, written back only at the odd points (the last tile of a batch).
  A block's coordinate on an axis is its block index times the block's size plus the coordinate inside the block. So
  entry (b, 0, d) of the result is entry (0, 0, d) of what the kernel's state holds for the result block after point
  2 · b + 1; the eight written-back rows tile the array, and each is a restriction of this one whole-array function.
-/
import proofs.«133993_j20667382628681_2_alg».proof.Proof.RegionXData
import Idealize.ShloMosaic.Lib.Pipeline.Value
import Idealize.ShloMosaic.Lib.ValueIdx

set_option maxRecDepth 16384

noncomputable section

namespace Cert.KernelIdeal.ValueX

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegionX

variable {F : FTy → Type} [FloatOps F]
variable (V : (c : Dev nD) → (b : Ref sig .tc) → Buf (Elt F) ((c : Thread nD τ).loc b))

/-! ## The grid's points and the windows' block indices -/

/-- The printed index maps, decided once over the 16 points: point t is (batch t / 2, tile t % 2); the x window sits at
    block (t / 2, t % 2, 0), the result window at (t / 2, 0, 0), the scoring row and the key matrix at (0, 0). -/
theorem index_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0 :=
  (by decide +kernel : ∀ t : Fin grid0.N, _)

/-- The point of batch b and tile j. -/
def pt0 (b : Fin 8) (j : Fin 2) : Fin cfg0.N := ⟨2 * b.val + j.val, lt_of_lt_of_eq (by omega) N_0.symm⟩

theorem pt0_val (b : Fin 8) (j : Fin 2) : (pt0 b j).val = 2 * b.val + j.val := rfl

/-- A point is the point of its batch and tile. -/
theorem pt0_eq (t : Fin cfg0.N) (b : Fin 8) (j : Fin 2) (hb : b.val = t.val / 2) (hj : j.val = t.val % 2) : pt0 b j = t :=
  Fin.ext (by show 2 * b.val + j.val = t.val; omega)

/-- Row j · 2048 + r of the 4096 rows. -/
def rowX (j : Fin 2) (r : Fin 2048) : Fin 4096 := ⟨j.val * 2048 + r.val, by omega⟩

/-! ## The input blocks, read at coordinates -/

/-- The x block at point t: batch t / 2, rows (t % 2) · 2048 + r. -/
theorem blk0_at (c : Dev nD) (t : Fin cfg0.N) (y : S1x2048x1024.Idx) (i : S8x4096x1024.Idx)
    (h0 : (i 0).val = t.val / 2) (h1 : (i 1).val = (t.val % 2) * 2048 + (y 1).val) (h2 : (i 2).val = (y 2).val) :
    (iblk V c 0 t : Vec F S1x2048x1024 .f32) y = (V c main_arg0 : S8x4096x1024.Idx → Elt F .f32) i := by
  obtain ⟨e0, e1, e2, -⟩ := index_facts t
  have hy : (y 0).val < 1 := (y 0).isLt
  unfold iblk
  rw [View.read_apply]
  show V c main_arg0 _ = V c main_arg0 _
  congr 1
  funext a
  apply Fin.ext
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 1024 + 1 * (y 2).val = (i 2).val; omega

/-- The scoring row's block is the row, at every point. -/
theorem blk1_at (c : Dev nD) (t : Fin cfg0.N) (y : S1x1024.Idx) :
    (iblk V c 1 t : Vec F S1x1024 .bf16) y = (V c main_v0 : S1x1024.Idx → Elt F .bf16) y := by
  obtain ⟨-, -, -, e0, e1, -⟩ := index_facts t
  unfold iblk
  rw [View.read_apply]
  show V c main_v0 _ = V c main_v0 _
  congr 1
  funext a
  apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega

/-- The key matrix's block is the matrix, at every point. -/
theorem blk2_at (c : Dev nD) (t : Fin cfg0.N) (y : S1024x1024.Idx) :
    (iblk V c 2 t : Vec F S1024x1024 .bf16) y = (V c main_v1 : S1024x1024.Idx → Elt F .bf16) y := by
  obtain ⟨-, -, -, -, -, e0, e1, -⟩ := index_facts t
  unfold iblk
  rw [View.read_apply]
  show V c main_v1 _ = V c main_v1 _
  congr 1
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- The three input blocks at the point of (b, j), at literal coordinates. -/
theorem xblk_apply (c : Dev nD) (b : Fin 8) (j : Fin 2) (r : Fin 2048) (k : Fin 1024) :
    (iblk V c 0 (pt0 b j) : Vec F S1x2048x1024 .f32) (ix3 (0 : Fin 1) r k)
      = (V c main_arg0 : S8x4096x1024.Idx → Elt F .f32) (ix3 b (rowX j r) k) :=
  blk0_at V c (pt0 b j) (ix3 (0 : Fin 1) r k) (ix3 b (rowX j r) k)
    (by show b.val = (2 * b.val + j.val) / 2; omega)
    (by show j.val * 2048 + r.val = (2 * b.val + j.val) % 2 * 2048 + r.val; omega) rfl

theorem wiblk_apply (c : Dev nD) (b : Fin 8) (j : Fin 2) (k : Fin 1024) :
    (iblk V c 1 (pt0 b j) : Vec F S1x1024 .bf16) (ix2 (0 : Fin 1) k) = (V c main_v0 : S1x1024.Idx → Elt F .bf16) (ix2 (0 : Fin 1) k) :=
  blk1_at V c (pt0 b j) (ix2 (0 : Fin 1) k)

theorem wkblk_apply (c : Dev nD) (b : Fin 8) (j : Fin 2) (d k : Fin 1024) :
    (iblk V c 2 (pt0 b j) : Vec F S1024x1024 .bf16) (ix2 d k) = (V c main_v1 : S1024x1024.Idx → Elt F .bf16) (ix2 d k) :=
  blk2_at V c (pt0 b j) (ix2 d k)

/-- The scoring row's block is the same at any two points, -/
theorem wiblk_const (c : Dev nD) (t t' : Fin cfg0.N) :
    (iblk V c 1 t : Vec F S1x1024 .bf16) = (iblk V c 1 t' : Vec F S1x1024 .bf16) :=
  funext fun y => (blk1_at V c t y).trans (blk1_at V c t' y).symm

/-- and so is the key matrix's; -/
theorem wkblk_const (c : Dev nD) (t t' : Fin cfg0.N) :
    (iblk V c 2 t : Vec F S1024x1024 .bf16) = (iblk V c 2 t' : Vec F S1024x1024 .bf16) :=
  funext fun y => (blk2_at V c t y).trans (blk2_at V c t' y).symm

/-- in particular at the two tiles of a batch. -/
theorem wiblk_tiles (c : Dev nD) (b : Fin 8) :
    (iblk V c 1 (pt0 b 0) : Vec F S1x1024 .bf16) = (iblk V c 1 (pt0 b 1) : Vec F S1x1024 .bf16) := wiblk_const V c _ _
theorem wkblk_tiles (c : Dev nD) (b : Fin 8) :
    (iblk V c 2 (pt0 b 0) : Vec F S1024x1024 .bf16) = (iblk V c 2 (pt0 b 1) : Vec F S1024x1024 .bf16) := wkblk_const V c _ _

/-! ## The result array as one function of the state after the odd points -/

/-- The whole result array: entry (b, 0, d) is entry (0, 0, d) of the result block the state holds after the last tile
    of batch b. -/
def wholeOutX (c : Dev nD) : S8x1x1024.Idx → Elt F .f32 := fun i =>
  (outsAt V c (pt0 ⟨(i 0).val, (i 0).isLt⟩ 1).val (pt0 ⟨(i 0).val, (i 0).isLt⟩ 1).isLt).1
    (ix3 (0 : Fin 1) (0 : Fin 1) ⟨(i 2).val, (i 2).isLt⟩)

/-- The state after a point depends on the point only. -/
theorem outs_congr (c : Dev nD) (t t' : Fin cfg0.N) (e : t = t') :
    outsAt V c t.val t.isLt = outsAt V c t'.val t'.isLt := by subst e; rfl

/-- At an odd point t, the state's result block at a block index y is the whole-array function at the coordinates of
    t and y. -/
theorem wholeOutX_at (c : Dev nD) (t : Fin cfg0.N) (i : S8x1x1024.Idx) (y : S1x1x1024.Idx) (ht : t.val % 2 = 1)
    (h0 : (i 0).val = t.val / 2) (h2 : (i 2).val = (y 2).val) :
    wholeOutX V c i = (outsAt V c t.val t.isLt).1 y := by
  have hp : pt0 ⟨(i 0).val, (i 0).isLt⟩ 1 = t := pt0_eq t _ _ h0 (by show 1 = t.val % 2; omega)
  have hy0 : (y 0).val < 1 := (y 0).isLt
  have hy1 : (y 1).val < 1 := (y 1).isLt
  have hy : ix3 (0 : Fin 1) (0 : Fin 1) (⟨(i 2).val, (i 2).isLt⟩ : Fin 1024) = y := funext fun a => Fin.ext (by
    match a with
    | ⟨0, _⟩ => show 0 = (y 0).val; omega
    | ⟨1, _⟩ => show 0 = (y 1).val; omega
    | ⟨2, _⟩ => exact h2)
  unfold wholeOutX
  rw [hy]
  exact congrArg (fun s : St F => s.1 y) (outs_congr V c _ t hp)

/-- What a point that writes back (an odd point) writes is its block of the whole-array function. -/
theorem flushed_eq (c : Dev nD) (t : Fin cfg0.N) (hf : (cfg0.win 3).flush t = true) :
    (dat V c).flushed 3 t = ((cfg0.win 3).blk t).view.read (Elt F) (wholeOutX V c) := by
  have ht : t.val % 2 = 1 := (flush0_3 t).mp hf
  show (cfg0.win 3).cut (grid0.coords t) ((dat V c).after 3 t) = _
  rw [after_3]
  obtain ⟨-, -, -, -, -, -, -, e0, e1, e2⟩ := index_facts t
  funext j
  have hj0 : (j 0).val < 1 := (j 0).isLt
  refine (wholeOutX_at V c t _ _ ht ?_ ?_).symm
  · show win0_3.index t (0 : Fin 3) * 1 + 1 * (j 0).val = t.val / 2; omega
  · show win0_3.index t (2 : Fin 3) * 1024 + 1 * (j 2).val = (j 2).val; omega

/-- An index of the array is in point t's block iff each coordinate is in the block's range on its axis. -/
theorem mem_blk (t : Fin cfg0.N) (i : S8x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v4).slice (win0_3.rect t)).set ↔ _
  rw [View.set_slice_whole, Rect.mem_set_unit]
  exact Iff.rfl

/-- The result window's block index at the point of (b, j) is (b, 0, 0). -/
theorem index_pt0 (b : Fin 8) (j : Fin 2) :
    win0_3.index (pt0 b j) (0 : Fin 3) = b.val ∧ win0_3.index (pt0 b j) (1 : Fin 3) = 0
      ∧ win0_3.index (pt0 b j) (2 : Fin 3) = 0 := by
  obtain ⟨-, -, -, -, -, -, -, e0, e1, e2⟩ := index_facts (pt0 b j)
  have hv : (pt0 b j).val = 2 * b.val + j.val := rfl
  refine ⟨?_, e1, e2⟩; omega

/-- Every index is covered: row (b, 0, ·) is the block of the last tile's point of batch b, which writes back. -/
theorem covered (i : S8x1x1024.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 1024 := (i 2).isLt
  refine ⟨pt0 ⟨(i 0).val, h0⟩ 1, (flush0_3 _).mpr (by show (2 * (i 0).val + 1) % 2 = 1; omega), ?_⟩
  obtain ⟨e0, e1, e2⟩ := index_pt0 ⟨(i 0).val, h0⟩ 1
  have e0' : win0_3.index (pt0 ⟨(i 0).val, h0⟩ 1) (0 : Fin 3) = (i 0).val := e0
  rw [mem_blk]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 1024 ≤ (i 2).val ∧ (i 2).val < win0_3.index _ (2 : Fin 3) * 1024 + 1024; omega

/-- The result array after the region is the whole-array function. -/
theorem final (c : Dev nD) : (dat V c).arrAt 3 cfg0.N = wholeOutX V c :=
  (dat V c).arrAt_eq_of_cover 3 (wholeOutX V c) (fun t hf => flushed_eq V c t hf) covered

/-- The result array after the region at (b, 0, d): entry (0, 0, d) of the result block the state holds after the last
    tile of batch b, the point 2 · b + 1. -/
theorem resultX_apply (c : Dev nD) (b : Fin 8) (d : Fin 1024) :
    ((dat V c).arrAt 3 cfg0.N : S8x1x1024.Idx → Elt F .f32) (ix3 b (0 : Fin 1) d)
      = (outsAt V c (pt0 b 1).val (pt0 b 1).isLt).1 (ix3 (0 : Fin 1) (0 : Fin 1) d) := by
  rw [final]
  rfl

end Cert.KernelIdeal.ValueX

end
-- ==== Proof.ValueY.lean ====
/-
  The second kernel's result array after its region, as one function of the arrays the region finds, index by index.

  The grid has 8 · 4 points; point t is (batch t / 4, row block t % 4). At point t the kernel reads the x block of batch
  t / 4 and rows (t % 4) · 1024 … (t % 4) · 1024 + 1023, the scale row of batch t / 4 and the two weight matrices whole,
  and writes back the payload of these four blocks as rows (t % 4) · 1024 … of batch t / 4 of the result. A block's
  coordinate on an axis is its block index times the block's size plus the coordinate inside the block. So entry
  (b, n, e) of the result is the payload of the blocks of the point (b, n / 1024), at row n % 1024 and column e of the
  block; the 32 blocks tile the array, and each is a restriction of this one whole-array function.
-/
import proofs.«133993_j20667382628681_2_alg».proof.Proof.RegionY
import proofs.«133993_j20667382628681_2_alg».proof.Proof.PayloadValue
import Idealize.ShloMosaic.Lib.Pipeline.Value
import Idealize.ShloMosaic.Lib.ValueIdx

set_option maxRecDepth 16384

noncomputable section

namespace Cert.KernelIdeal.ValueY

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegionY

variable {F : FTy → Type} [FloatOps F]
variable (V : (c : Dev nD) → (b : Ref sig .tc) → Buf (Elt F) ((c : Thread nD τ).loc b))

/-! ## The grid's points and the windows' block indices -/

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided once over the 32 points: point t is (batch t / 4, row block t % 4); the x window
    and the result window sit at block (t / 4, t % 4, 0), the scale row at (t / 4, 0, 0), the weight matrices at (0, 0). -/
theorem index_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 4 ∧ win1_4.index t (1 : Fin 3) = t.val % 4 ∧ win1_4.index t (2 : Fin 3) = 0 :=
  (by decide +kernel : ∀ t : Fin grid1.N, _)

/-- The point of batch b and row block q. -/
def pt (b : Fin 8) (q : Fin 4) : Fin cfg1.N := ⟨4 * b.val + q.val, lt_of_lt_of_eq (by omega) N_1.symm⟩

theorem pt_val (b : Fin 8) (q : Fin 4) : (pt b q).val = 4 * b.val + q.val := rfl

/-- A point is the point of its batch and row block. -/
theorem pt_eq (t : Fin cfg1.N) (b : Fin 8) (q : Fin 4) (hb : b.val = t.val / 4) (hq : q.val = t.val % 4) : pt b q = t :=
  Fin.ext (by show 4 * b.val + q.val = t.val; omega)

/-! ## The input blocks, read at coordinates -/

/-- The x block at point t: batch t / 4, rows (t % 4) · 1024 + r. -/
theorem blk0_at (c : Dev nD) (t : Fin cfg1.N) (y : S1x1024x1024.Idx) (i : S8x4096x1024.Idx)
    (h0 : (i 0).val = t.val / 4) (h1 : (i 1).val = (t.val % 4) * 1024 + (y 1).val) (h2 : (i 2).val = (y 2).val) :
    (iblk V c 0 t : Vec F S1x1024x1024 .f32) y = (V c main_arg0 : S8x4096x1024.Idx → Elt F .f32) i := by
  obtain ⟨e0, e1, e2, -⟩ := index_facts t
  have hy : (y 0).val < 1 := (y 0).isLt
  unfold iblk
  rw [View.read_apply]
  show V c main_arg0 _ = V c main_arg0 _
  congr 1
  funext a
  apply Fin.ext
  match a with
  | ⟨0, _⟩ => show win1_0.index t (0 : Fin 3) * 1 + 1 * (y 0).val = (i 0).val; omega
  | ⟨1, _⟩ => show win1_0.index t (1 : Fin 3) * 1024 + 1 * (y 1).val = (i 1).val; omega
  | ⟨2, _⟩ => show win1_0.index t (2 : Fin 3) * 1024 + 1 * (y 2).val = (i 2).val; omega

/-- The scale row at point t: batch t / 4. -/
theorem blk1_at (c : Dev nD) (t : Fin cfg1.N) (y : S1x1x1024.Idx) (i : S8x1x1024.Idx)
    (h0 : (i 0).val = t.val / 4) (h2 : (i 2).val = (y 2).val) :
    (iblk V c 1 t : Vec F S1x1x1024 .f32) y = (V c main_v4 : S8x1x1024.Idx → Elt F .f32) i := by
  obtain ⟨-, -, -, e0, e1, e2, -⟩ := index_facts t
  have hy0 : (y 0).val < 1 := (y 0).isLt
  have hy1 : (y 1).val < 1 := (y 1).isLt
  have hi1 : (i 1).val < 1 := (i 1).isLt
  unfold iblk
  rw [View.read_apply]
  show V c main_v4 _ = V c main_v4 _
  congr 1
  funext a
  apply Fin.ext
  match a with
  | ⟨0, _⟩ => show win1_1.index t (0 : Fin 3) * 1 + 1 * (y 0).val = (i 0).val; omega
  | ⟨1, _⟩ => show win1_1.index t (1 : Fin 3) * 1 + 1 * (y 1).val = (i 1).val; omega
  | ⟨2, _⟩ => show win1_1.index t (2 : Fin 3) * 1024 + 1 * (y 2).val = (i 2).val; omega

/-- The first weight matrix's block is the matrix, at every point. -/
theorem blk2_at (c : Dev nD) (t : Fin cfg1.N) (y : S1024x1024.Idx) :
    (iblk V c 2 t : Vec F S1024x1024 .bf16) y = (V c main_v2 : S1024x1024.Idx → Elt F .bf16) y := by
  obtain ⟨-, -, -, -, -, -, e0, e1, -⟩ := index_facts t
  unfold iblk
  rw [View.read_apply]
  show V c main_v2 _ = V c main_v2 _
  congr 1
  funext a
  apply Fin.ext
  match a with
  | ⟨0, _⟩ => show win1_2.index t (0 : Fin 2) * 1024 + 1 * (y 0).val = (y 0).val; omega
  | ⟨1, _⟩ => show win1_2.index t (1 : Fin 2) * 1024 + 1 * (y 1).val = (y 1).val; omega

/-- The second weight matrix's likewise. -/
theorem blk3_at (c : Dev nD) (t : Fin cfg1.N) (y : S1024x1024.Idx) :
    (iblk V c 3 t : Vec F S1024x1024 .bf16) y = (V c main_v3 : S1024x1024.Idx → Elt F .bf16) y := by
  obtain ⟨-, -, -, -, -, -, -, -, e0, e1, -⟩ := index_facts t
  unfold iblk
  rw [View.read_apply]
  show V c main_v3 _ = V c main_v3 _
  congr 1
  funext a
  apply Fin.ext
  match a with
  | ⟨0, _⟩ => show win1_3.index t (0 : Fin 2) * 1024 + 1 * (y 0).val = (y 0).val; omega
  | ⟨1, _⟩ => show win1_3.index t (1 : Fin 2) * 1024 + 1 * (y 1).val = (y 1).val; omega

/-- Row q · 1024 + r of the 4096 rows. -/
def row (q : Fin 4) (r : Fin 1024) : Fin 4096 := ⟨q.val * 1024 + r.val, by omega⟩

/-- The four input blocks at the point of (b, q), at literal coordinates. -/
theorem xblk_apply (c : Dev nD) (b : Fin 8) (q : Fin 4) (r k : Fin 1024) :
    (iblk V c 0 (pt b q) : Vec F S1x1024x1024 .f32) (ix3 (0 : Fin 1) r k)
      = (V c main_arg0 : S8x4096x1024.Idx → Elt F .f32) (ix3 b (row q r) k) :=
  blk0_at V c (pt b q) (ix3 (0 : Fin 1) r k) (ix3 b (row q r) k)
    (by show b.val = (4 * b.val + q.val) / 4; omega)
    (by show q.val * 1024 + r.val = (4 * b.val + q.val) % 4 * 1024 + r.val; omega) rfl

theorem sblk_apply (c : Dev nD) (b : Fin 8) (q : Fin 4) (d : Fin 1024) :
    (iblk V c 1 (pt b q) : Vec F S1x1x1024 .f32) (ix3 (0 : Fin 1) (0 : Fin 1) d)
      = (V c main_v4 : S8x1x1024.Idx → Elt F .f32) (ix3 b (0 : Fin 1) d) :=
  blk1_at V c (pt b q) (ix3 (0 : Fin 1) (0 : Fin 1) d) (ix3 b (0 : Fin 1) d)
    (by show b.val = (4 * b.val + q.val) / 4; omega) rfl

theorem w1blk_apply (c : Dev nD) (b : Fin 8) (q : Fin 4) (d k : Fin 1024) :
    (iblk V c 2 (pt b q) : Vec F S1024x1024 .bf16) (ix2 d k) = (V c main_v2 : S1024x1024.Idx → Elt F .bf16) (ix2 d k) :=
  blk2_at V c (pt b q) (ix2 d k)

theorem w2blk_apply (c : Dev nD) (b : Fin 8) (q : Fin 4) (e d : Fin 1024) :
    (iblk V c 3 (pt b q) : Vec F S1024x1024 .bf16) (ix2 e d) = (V c main_v3 : S1024x1024.Idx → Elt F .bf16) (ix2 e d) :=
  blk3_at V c (pt b q) (ix2 e d)

/-! ## The result array as one function of the region-entry arrays -/

/-- The payload of the four blocks at the point of (b, q), at row r and column e of the block. -/
def rowOut (c : Dev nD) (b : Fin 8) (q : Fin 4) (r e : Fin 1024) : Elt F .f32 :=
  k1_pay1 (iblk V c 0 (pt b q)) (iblk V c 2 (pt b q)) (iblk V c 3 (pt b q)) (iblk V c 1 (pt b q)) (ix3 (0 : Fin 1) r e)

/-- The whole result array: entry (b, n, e) is the payload at the point of (b, n / 1024), at row n % 1024. -/
def wholeOut (c : Dev nD) : S8x4096x1024.Idx → Elt F .f32 := fun i =>
  rowOut V c ⟨(i 0).val, (i 0).isLt⟩ ⟨(i 1).val / 1024, by have h : (i 1).val < 4096 := (i 1).isLt; omega⟩
    ⟨(i 1).val % 1024, Nat.mod_lt _ (by decide)⟩ ⟨(i 2).val, (i 2).isLt⟩

/-- At any point t, the payload of t's blocks at a block index j is rowOut at the coordinates of t and j. -/
theorem rowOut_at (c : Dev nD) (t : Fin cfg1.N) (j : S1x1024x1024.Idx) (b : Fin 8) (q : Fin 4) (r e : Fin 1024)
    (hb : b.val = t.val / 4) (hq : q.val = t.val % 4) (hr : r.val = (j 1).val) (he : e.val = (j 2).val) :
    rowOut V c b q r e = k1_pay1 (iblk V c 0 t) (iblk V c 2 t) (iblk V c 3 t) (iblk V c 1 t) j := by
  have hp : pt b q = t := pt_eq t b q hb hq
  have hj0 : (j 0).val < 1 := (j 0).isLt
  have hj : ix3 (0 : Fin 1) r e = j := funext fun a => Fin.ext (by
    match a with
    | ⟨0, _⟩ => show 0 = (j 0).val; omega
    | ⟨1, _⟩ => exact hr
    | ⟨2, _⟩ => exact he)
  unfold rowOut
  rw [hp, hj]

/-- What point t writes back is block t of the whole-array function. -/
theorem flushed_eq (c : Dev nD) (t : Fin cfg1.N) :
    (dat V c).flushed 4 t = ((cfg1.win 4).blk t).view.read (Elt F) (wholeOut V c) := by
  show (cfg1.win 4).cut (grid1.coords t) ((dat V c).after 4 t) = _
  rw [after_out]
  unfold outY
  rw [View.canon_unit_zero zero3]
  simp only [View.ld_unit_zero (S := S1x1024x1024) zero3, View.ld_unit_zero (S := S1024x1024) zero2,
    View.ld_unit_zero (S := S1x1x1024) zero3]
  obtain ⟨-, -, -, -, -, -, -, -, -, -, e0, e1, e2⟩ := index_facts t
  funext j
  have hj0 : (j 0).val < 1 := (j 0).isLt
  have hj1 : (j 1).val < 1024 := (j 1).isLt
  have ht : t.val < 32 := lt_of_lt_of_eq t.isLt N_1
  refine (rowOut_at V c t j _ _ _ _ ?_ ?_ ?_ ?_).symm
  · show win1_4.index t (0 : Fin 3) * 1 + 1 * (j 0).val = t.val / 4; omega
  · show (win1_4.index t (1 : Fin 3) * 1024 + 1 * (j 1).val) / 1024 = t.val % 4; omega
  · show (win1_4.index t (1 : Fin 3) * 1024 + 1 * (j 1).val) % 1024 = (j 1).val; omega
  · show win1_4.index t (2 : Fin 3) * 1024 + 1 * (j 2).val = (j 2).val; omega

/-- An index of the array is in point t's block iff each coordinate is in the block's range on its axis. -/
theorem mem_blk (t : Fin cfg1.N) (i : S8x4096x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v5).slice (win1_4.rect t)).set ↔ _
  rw [View.set_slice_whole, Rect.mem_set_unit]
  exact Iff.rfl

/-- The result window's block index at the point of (b, q) is (b, q, 0). -/
theorem index_pt (b : Fin 8) (q : Fin 4) :
    win1_4.index (pt b q) (0 : Fin 3) = b.val ∧ win1_4.index (pt b q) (1 : Fin 3) = q.val
      ∧ win1_4.index (pt b q) (2 : Fin 3) = 0 := by
  obtain ⟨-, -, -, -, -, -, -, -, -, -, e0, e1, e2⟩ := index_facts (pt b q)
  have hv : (pt b q).val = 4 * b.val + q.val := rfl
  refine ⟨?_, ?_, e2⟩ <;> omega

/-- Every index is covered: row n of batch b lies in the block of the point of (b, n / 1024), which writes back. -/
theorem covered (i : S8x4096x1024.Idx) :
    ∃ t : Fin cfg1.N, (cfg1.win 4).flush t = true ∧ i ∈ ((cfg1.win 4).blk t).view.set := by
  have h0 : (i 0).val < 8 := (i 0).isLt
  have h1 : (i 1).val < 4096 := (i 1).isLt
  have h2 : (i 2).val < 1024 := (i 2).isLt
  refine ⟨pt ⟨(i 0).val, h0⟩ ⟨(i 1).val / 1024, by omega⟩, flush1_4 _, ?_⟩
  obtain ⟨e0, e1, e2⟩ := index_pt ⟨(i 0).val, h0⟩ ⟨(i 1).val / 1024, by omega⟩
  have e0' : win1_4.index (pt ⟨(i 0).val, h0⟩ ⟨(i 1).val / 1024, by omega⟩) (0 : Fin 3) = (i 0).val := e0
  have e1' : win1_4.index (pt ⟨(i 0).val, h0⟩ ⟨(i 1).val / 1024, by omega⟩) (1 : Fin 3) = (i 1).val / 1024 := e1
  rw [mem_blk]
  intro a
  match a with
  | ⟨0, _⟩ => show win1_4.index _ (0 : Fin 3) * 1 ≤ (i 0).val ∧ (i 0).val < win1_4.index _ (0 : Fin 3) * 1 + 1; omega
  | ⟨1, _⟩ => show win1_4.index _ (1 : Fin 3) * 1024 ≤ (i 1).val ∧ (i 1).val < win1_4.index _ (1 : Fin 3) * 1024 + 1024; omega
  | ⟨2, _⟩ => show win1_4.index _ (2 : Fin 3) * 1024 ≤ (i 2).val ∧ (i 2).val < win1_4.index _ (2 : Fin 3) * 1024 + 1024; omega

/-- The result array after the region is the whole-array function. -/
theorem final (c : Dev nD) : (dat V c).arrAt 4 cfg1.N = wholeOut V c :=
  (dat V c).arrAt_eq_of_cover 4 (wholeOut V c) (fun t _ => flushed_eq V c t) covered

/-- The result array after the region, at batch b, row q · 1024 + r, column e: the payload of the four blocks at the
    point of (b, q), at row r and column e of the block. -/
theorem resultY_apply (c : Dev nD) (b : Fin 8) (q : Fin 4) (r e : Fin 1024) :
    ((dat V c).arrAt 4 cfg1.N : S8x4096x1024.Idx → Elt F .f32) (ix3 b (row q r) e)
      = k1_pay1 (iblk V c 0 (pt b q)) (iblk V c 2 (pt b q)) (iblk V c 3 (pt b q)) (iblk V c 1 (pt b q)) (ix3 (0 : Fin 1) r e) := by
  rw [final]
  show rowOut V c _ _ _ _ = rowOut V c b q r e
  congr 1
  · exact Fin.ext (by show (q.val * 1024 + r.val) / 1024 = q.val; omega)
  · exact Fin.ext (by show (q.val * 1024 + r.val) % 1024 = r.val; omega)

/-! ## At the ideal values: the result at an index is the gated output row -/

section Gated

variable (W : (c : Dev nD) → (b : Ref sig .tc) → Buf (Elt Ideal) ((c : Thread nD τ).loc b))

/-- At batch b, row q · 1024 + r and column e: the scale row of batch b gates the positive part of the row's value
    projection, and the gated row goes through the output projection. -/
theorem resultY_gated_block (c : Dev nD) (b : Fin 8) (q : Fin 4) (r e : Fin 1024) :
    ((dat (F := Ideal) W c).arrAt 4 cfg1.N : S8x4096x1024.Idx → EReal) (ix3 b (row q r) e)
      = Attn.gatedOut (fun d : Fin 1024 => (W c main_v4 : S8x1x1024.Idx → EReal) (ix3 b (0 : Fin 1) d))
          (fun k : Fin 1024 => (W c main_arg0 : S8x4096x1024.Idx → EReal) (ix3 b (row q r) k))
          (fun d k : Fin 1024 => (W c main_v2 : S1024x1024.Idx → EReal) (ix2 d k))
          (fun e d : Fin 1024 => (W c main_v3 : S1024x1024.Idx → EReal) (ix2 e d)) e := by
  refine (resultY_apply W c b q r e).trans ((Cert.KernelIdeal.PayloadValue.gated_apply _ _ _ _ r e).trans ?_)
  have h1 : (fun d : Fin 1024 => (iblk W c 1 (pt b q) : Vec Ideal S1x1x1024 .f32) (ix3 (0 : Fin 1) (0 : Fin 1) d))
      = fun d : Fin 1024 => (W c main_v4 : S8x1x1024.Idx → EReal) (ix3 b (0 : Fin 1) d) :=
    funext fun d => sblk_apply W c b q d
  have h0 : (fun k : Fin 1024 => (iblk W c 0 (pt b q) : Vec Ideal S1x1024x1024 .f32) (ix3 (0 : Fin 1) r k))
      = fun k : Fin 1024 => (W c main_arg0 : S8x4096x1024.Idx → EReal) (ix3 b (row q r) k) :=
    funext fun k => xblk_apply W c b q r k
  have h2 : Cert.KernelIdeal.PayloadValue.matOf (iblk W c 2 (pt b q))
      = fun d k : Fin 1024 => (W c main_v2 : S1024x1024.Idx → EReal) (ix2 d k) :=
    funext fun d => funext fun k => w1blk_apply W c b q d k
  have h3 : Cert.KernelIdeal.PayloadValue.matOf (iblk W c 3 (pt b q))
      = fun e d : Fin 1024 => (W c main_v3 : S1024x1024.Idx → EReal) (ix2 e d) :=
    funext fun e => funext fun d => w2blk_apply W c b q e d
  exact congrFun (congr (congr (congr (congrArg (Attn.gatedOut (C := 1024) (D := 1024) (E := 1024)) h1) h0) h2) h3) e

/-- The same at any row n of the 4096. -/
theorem resultY_gated (c : Dev nD) (b : Fin 8) (n : Fin 4096) (e : Fin 1024) :
    ((dat (F := Ideal) W c).arrAt 4 cfg1.N : S8x4096x1024.Idx → EReal) (ix3 b n e)
      = Attn.gatedOut (fun d : Fin 1024 => (W c main_v4 : S8x1x1024.Idx → EReal) (ix3 b (0 : Fin 1) d))
          (fun k : Fin 1024 => (W c main_arg0 : S8x4096x1024.Idx → EReal) (ix3 b n k))
          (fun d k : Fin 1024 => (W c main_v2 : S1024x1024.Idx → EReal) (ix2 d k))
          (fun e d : Fin 1024 => (W c main_v3 : S1024x1024.Idx → EReal) (ix2 e d)) e := by
  have hn : row ⟨n.val / 1024, by omega⟩ ⟨n.val % 1024, Nat.mod_lt _ (by decide)⟩ = n :=
    Fin.ext (by show n.val / 1024 * 1024 + n.val % 1024 = n.val; omega)
  have h := resultY_gated_block W c b ⟨n.val / 1024, by omega⟩ ⟨n.val % 1024, Nat.mod_lt _ (by decide)⟩ e
  rw [hn] at h
  exact h

end Gated

end Cert.KernelIdeal.ValueY

end
-- ==== Proof.LibBatchMax.lean ====
/-
  Maximum reductions of a stack of matrices on the host, at the ideal values.
  For an [n0, n1, n2] array:
    * reduced along its last axis into [n0, n1], the host's maximum reduction reads, at (b, c), the fold of max over r < n2 of
      the entries (b, c, r), started from the initial value;
    * reduced along its middle axis into [n0, n2], it reads, at (b, r), the fold of max over c < n1 of the entries (b, c, r),
      started from the initial value.
  The extents are variables, so nothing here is computed on a literal shape.
-/
import Idealize.ShloMosaic.PureOps.Ideal.Laws
import Idealize.ShloMosaic.PureOps.Reduce
import Idealize.ShloMosaic.Lib.ValueIdx

noncomputable section

namespace Cert.LibBatchMax

open Idealize.ShloMosaic Idealize.ShloMosaic.ValueIdx

variable {n0 n1 n2 : ℕ}

/-- Over position (b, c) of the reduced array, with r inserted on the last axis, lies the index (b, c, r). -/
theorem lift_last (h : (⟨3, ![n0, n1, n2]⟩ : Shape).Reduces [2] ⟨2, ![n0, n1]⟩) (b : Fin n0) (c : Fin n1) (r : Fin n2) :
    h.lift (ix2 b c) r = ix3 b c r :=
  funext fun d => Fin.ext (by match d with | ⟨0, _⟩ => rfl | ⟨1, _⟩ => rfl | ⟨2, _⟩ => rfl)

/-- Over position (b, r) of the reduced array, with c inserted on the middle axis, lies the index (b, c, r). -/
theorem lift_mid (h : (⟨3, ![n0, n1, n2]⟩ : Shape).Reduces [1] ⟨2, ![n0, n2]⟩) (b : Fin n0) (r : Fin n2) (c : Fin n1) :
    h.lift (ix2 b r) c = ix3 b c r :=
  funext fun d => Fin.ext (by match d with | ⟨0, _⟩ => rfl | ⟨1, _⟩ => rfl | ⟨2, _⟩ => rfl)

/-- The host's maximum along the last axis. -/
theorem hostMax_last {φ : FTy} {u : Shape} (x : FVec Ideal ⟨3, ![n0, n1, n2]⟩ φ) (init : u.Idx → Ideal φ)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (b : Fin n0) (c : Fin n1) :
    Host.reduce FloatOps.maximumf x init h' hu (ix2 b c)
      = (Finset.univ : Finset (Fin n2)).fold max (init (Shape.Idx.first hu)) (fun r => x (ix3 b c r)) := by
  refine (Host.reduce_eq_fold_single FloatOps.maximumf x init h' h hu (ix2 b c)).trans ?_
  exact congrArg (Finset.fold max (init (Shape.Idx.first hu)) · (Finset.univ : Finset (Fin n2)))
    (funext fun r => congrArg x (lift_last h b c r))

/-- The host's maximum along the middle axis. -/
theorem hostMax_mid {φ : FTy} {u : Shape} (x : FVec Ideal ⟨3, ![n0, n1, n2]⟩ φ) (init : u.Idx → Ideal φ)
    (h' : (⟨3, ![n0, n1, n2]⟩ : Shape).ReducesTo [1] ⟨2, ![n0, n2]⟩) (h : (⟨3, ![n0, n1, n2]⟩ : Shape).Reduces [1] ⟨2, ![n0, n2]⟩)
    (hu : 0 < u.numel) (b : Fin n0) (r : Fin n2) :
    Host.reduce FloatOps.maximumf x init h' hu (ix2 b r)
      = (Finset.univ : Finset (Fin n1)).fold max (init (Shape.Idx.first hu)) (fun c => x (ix3 b c r)) := by
  refine (Host.reduce_eq_fold_single FloatOps.maximumf x init h' h hu (ix2 b r)).trans ?_
  exact congrArg (Finset.fold max (init (Shape.Idx.first hu)) · (Finset.univ : Finset (Fin n1)))
    (funext fun c => congrArg x (lift_mid h b r c))

end Cert.LibBatchMax

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.RefSide.lean ====
/-
  The reference program's result, read at one index (b, n, e), at the ideal values.

  With x : [8, 4096, 1024], wi : [1, 1024], wk, wv, wo : [1024, 1024], the program computes for each batch b
    logit n      = ∑ c, x[b,n,c] · wi[0,c]
    shift        = max (-∞) (running maximum over n of logit n, from -∞)
    weight n     = exp (logit n − shift) / ∑ n', exp (logit n' − shift)
    pooled d     = ∑ n, weight n · ∑ c, x[b,n,c] · wk[d,c]
    result n e   = ∑ d, (pooled d · max (∑ c, x[b,n,c] · wv[d,c]) 0) · wo[e,d].
  Each stage is read at explicit coordinates from the stage before it: a broadcast reads its operand at the coordinates
  it keeps, an elementwise operation reads its operands at the same index, a contraction is the sum over the contracted
  coordinate, and a sum reduction is its initial value, the zero word, plus the sum over the reduced coordinate (the zero
  in front disappears). The maximum reduction is the running maximum along the middle axis. The chain ends in the
  direct softmax-pooling arrangement at the shift and the gated output row, both defined over plain finite index types.
  Last: when all entries are reals the shift is a real.
-/
import proofs.«133993_j20667382628681_2_alg».proof.Proof.Gen.ReferenceIdeal.Read
import proofs.«133993_j20667382628681_2_alg».proof.Proof.Spec
import proofs.«133993_j20667382628681_2_alg».proof.Proof.LibBatchMax
import proofs.«133993_j20667382628681_2_alg».proof.Proof.LibRealEntries
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.ValueIdx

variable (x : (⟨S8x4096x1024, .f32⟩ : BufTy).Contents (Elt Ideal)) (wi : (⟨S1x1024, .f32⟩ : BufTy).Contents (Elt Ideal))
  (wk wv wo : (⟨S1024x1024, .f32⟩ : BufTy).Contents (Elt Ideal))

/-! ## Coordinates: where each stage reads its operands -/

theorem lidx0 (b : Fin 8) (n : Fin 4096) (k : Fin 1024) : lidx_main_v0 (ix3 b n (0 : Fin 1)) k = ix3 b n k :=
  funext fun a => by match a with | ⟨0, _⟩ => rfl | ⟨1, _⟩ => rfl | ⟨2, _⟩ => rfl
theorem ridx0 (b : Fin 8) (n : Fin 4096) (k : Fin 1024) : ridx_main_v0 (ix3 b n (0 : Fin 1)) k = ix2 (0 : Fin 1) k :=
  funext fun a => by match a with | ⟨0, _⟩ => rfl | ⟨1, _⟩ => rfl

/-- The word 0xFF800000 is -∞. -/
theorem ofBits_neg_inf : Ideal.ofBits .f32 0xFF800000#32 = ⊥ := by simp [Ideal.ofBits, Ideal.ieee]

/-! ## The logits and their shift -/

/-- The first product reads, at (b, n, 0), the logit of row n of batch b. -/
theorem v0_at (b : Fin 8) (n : Fin 4096) :
    val_main_v0 (F := Ideal) x wi (ix3 b n (0 : Fin 1))
      = Attn.logit (fun n c => x (ix3 b n c)) (fun c => wi (ix2 (0 : Fin 1) c)) n := by
  refine (val_main_v0_apply x wi _).trans ?_
  exact Finset.sum_congr rfl fun k _ => congrArg₂ (· * ·) (congrArg x (lidx0 b n k)) (congrArg wi (ridx0 b n k))

/-- The shift of batch b: the maximum of -∞ and the running maximum, from -∞, of the batch's logits. -/
def refShift (b : Fin 8) : EReal :=
  max ⊥ ((Finset.univ : Finset (Fin 4096)).fold max ⊥
    (fun n => Attn.logit (fun n c => x (ix3 b n c)) (fun c => wi (ix2 (0 : Fin 1) c)) n))

/-- The maximum reduction reads, at (b, 0), the running maximum of the batch's logits from -∞. -/
theorem v1_at (b : Fin 8) :
    val_main_v1 (F := Ideal) x wi (ix2 b (0 : Fin 1))
      = (Finset.univ : Finset (Fin 4096)).fold max ⊥
          (fun n => Attn.logit (fun n c => x (ix3 b n c)) (fun c => wi (ix2 (0 : Fin 1) c)) n) := by
  refine (Cert.LibBatchMax.hostMax_mid (n0 := 8) (n1 := 4096) (n2 := 1) (val_main_v0 (F := Ideal) x wi)
    (val_main_cst (F := Ideal)) reducesTo_S8x4096x1_S8x1_d1 (by decide) h_S_ b (0 : Fin 1)).trans ?_
  rw [val_main_cst_apply, Ideal.ofBits_def, ofBits_neg_inf]
  exact congrArg (Finset.fold max ⊥ · (Finset.univ : Finset (Fin 4096))) (funext fun n => v0_at x wi b n)

/-- The shift as the program computes it, at (b, 0). -/
theorem v3_at (b : Fin 8) : val_main_v3 (F := Ideal) x wi (ix2 b (0 : Fin 1)) = refShift x wi b := by
  rw [val_main_v3_apply, val_main_v2_apply, val_main_cst_0_apply, v1_at, Ideal.ofBits_def, ofBits_neg_inf,
    Ideal.maximumf_def]
  rfl

/-! ## The shift is a real when the entries are -/

/-- A logit of real entries is a real: a finite sum of products of reals. -/
theorem logit_real (hx : ∀ i, ∃ r : ℝ, x i = (r : EReal)) (hwi : ∀ i, ∃ r : ℝ, wi i = (r : EReal)) (b : Fin 8) (n : Fin 4096) :
    ∃ r : ℝ, Attn.logit (fun n c => x (ix3 b n c)) (fun c => wi (ix2 (0 : Fin 1) c)) n = (r : EReal) := by
  unfold Attn.logit
  refine Cert.LibRealEntries.sum_real _ _ fun c => ?_
  obtain ⟨p, hp⟩ := hx (ix3 b n c)
  obtain ⟨q, hq⟩ := hwi (ix2 (0 : Fin 1) c)
  refine ⟨p * q, ?_⟩
  show x (ix3 b n c) * wi (ix2 (0 : Fin 1) c) = _
  rw [hp, hq, EReal.coe_mul]

/-- The shift of a batch of real entries is a real: the running maximum of 4096 reals from -∞ is below +∞ because every
    term is, and above -∞ because it is at least the first logit. -/
theorem refShift_real (hx : ∀ i, ∃ r : ℝ, x i = (r : EReal)) (hwi : ∀ i, ∃ r : ℝ, wi i = (r : EReal)) (b : Fin 8) :
    ∃ r : ℝ, refShift x wi b = (r : EReal) := by
  unfold refShift
  rw [max_bot_left]
  have hlt : (Finset.univ : Finset (Fin 4096)).fold max ⊥
      (fun n => Attn.logit (fun n c => x (ix3 b n c)) (fun c => wi (ix2 (0 : Fin 1) c)) n) < ⊤ :=
    (Finset.fold_max_lt ⊤).2 ⟨bot_lt_top, fun n _ => by
      obtain ⟨r, hr⟩ := logit_real x wi hx hwi b n
      rw [hr]; exact EReal.coe_lt_top r⟩
  have hgt : ⊥ < (Finset.univ : Finset (Fin 4096)).fold max ⊥
      (fun n => Attn.logit (fun n c => x (ix3 b n c)) (fun c => wi (ix2 (0 : Fin 1) c)) n) := by
    obtain ⟨r, hr⟩ := logit_real x wi hx hwi b (0 : Fin 4096)
    refine (Finset.lt_fold_max ⊥).2 (Or.inr ⟨(0 : Fin 4096), Finset.mem_univ _, ?_⟩)
    rw [hr]; exact EReal.bot_lt_coe r
  exact ⟨_, (EReal.coe_toReal hlt.ne hgt.ne').symm⟩

/-! ## The softmax weights -/

theorem idx5 (b : Fin 8) (n : Fin 4096) : idx_main_v5 (ix3 b n (0 : Fin 1)) = ix3 b (0 : Fin 1) (0 : Fin 1) :=
  funext fun a => by match a with | ⟨0, _⟩ => rfl | ⟨1, _⟩ => rfl | ⟨2, _⟩ => rfl
theorem idx4 (b : Fin 8) : idx_main_v4 (ix3 b (0 : Fin 1) (0 : Fin 1)) = ix2 b (0 : Fin 1) :=
  funext fun a => by match a with | ⟨0, _⟩ => rfl | ⟨1, _⟩ => rfl

/-- The numerators: exp (logit - shift), at (b, n, 0). -/
theorem v7_at (b : Fin 8) (n : Fin 4096) :
    val_main_v7 (F := Ideal) x wi (ix3 b n (0 : Fin 1))
      = Ideal.exp (Attn.logit (fun n c => x (ix3 b n c)) (fun c => wi (ix2 (0 : Fin 1) c)) n - refShift x wi b) := by
  rw [val_main_v7_apply, val_main_v6_apply, val_main_v5_apply, idx5, val_main_v4_apply, idx4, v3_at, v0_at,
    Ideal.hostUnary_exp_def, Ideal.subf_def]

theorem idx8 (b : Fin 8) (k : Fin 4096) : idx_main_v8 (ix2 b (0 : Fin 1)) k = ix3 b k (0 : Fin 1) :=
  funext fun a => by match a with | ⟨0, _⟩ => rfl | ⟨1, _⟩ => rfl | ⟨2, _⟩ => rfl

/-- The normaliser of batch b: the sum of the numerators (the initial zero added in front disappears). -/
theorem v8_at (b : Fin 8) :
    val_main_v8 (F := Ideal) x wi (ix2 b (0 : Fin 1))
      = ∑ n' : Fin 4096, Ideal.exp (Attn.logit (fun n c => x (ix3 b n c)) (fun c => wi (ix2 (0 : Fin 1) c)) n' - refShift x wi b) := by
  rw [val_main_v8_apply, val_main_cst_1_apply, Ideal.ofBits_def, Ideal.ofBits_zero_f32, zero_add]
  exact Finset.sum_congr rfl fun k _ => (congrArg (val_main_v7 (F := Ideal) x wi) (idx8 b k)).trans (v7_at x wi b k)

theorem idx10 (b : Fin 8) (n : Fin 4096) : idx_main_v10 (ix3 b n (0 : Fin 1)) = ix3 b (0 : Fin 1) (0 : Fin 1) :=
  funext fun a => by match a with | ⟨0, _⟩ => rfl | ⟨1, _⟩ => rfl | ⟨2, _⟩ => rfl
theorem idx9 (b : Fin 8) : idx_main_v9 (ix3 b (0 : Fin 1) (0 : Fin 1)) = ix2 b (0 : Fin 1) :=
  funext fun a => by match a with | ⟨0, _⟩ => rfl | ⟨1, _⟩ => rfl

/-- The softmax weight of row n of batch b, at (b, n, 0). -/
theorem v11_at (b : Fin 8) (n : Fin 4096) :
    val_main_v11 (F := Ideal) x wi (ix3 b n (0 : Fin 1))
      = Ideal.div (Ideal.exp (Attn.logit (fun n c => x (ix3 b n c)) (fun c => wi (ix2 (0 : Fin 1) c)) n - refShift x wi b))
          (∑ n' : Fin 4096, Ideal.exp (Attn.logit (fun n c => x (ix3 b n c)) (fun c => wi (ix2 (0 : Fin 1) c)) n' - refShift x wi b)) := by
  rw [val_main_v11_apply, val_main_v10_apply, idx10, val_main_v9_apply, idx9, v8_at, v7_at, Ideal.hostDivf_def]

/-! ## The three projections of a row -/

theorem lidx12 (b : Fin 8) (n : Fin 4096) (d k : Fin 1024) : lidx_main_v12 (ix3 b n d) k = ix3 b n k :=
  funext fun a => by match a with | ⟨0, _⟩ => rfl | ⟨1, _⟩ => rfl | ⟨2, _⟩ => rfl
theorem ridx12 (b : Fin 8) (n : Fin 4096) (d k : Fin 1024) : ridx_main_v12 (ix3 b n d) k = ix2 d k :=
  funext fun a => by match a with | ⟨0, _⟩ => rfl | ⟨1, _⟩ => rfl

/-- The key projection of row n, at (b, n, d). -/
theorem v12_at (b : Fin 8) (n : Fin 4096) (d : Fin 1024) :
    val_main_v12 (F := Ideal) x wk (ix3 b n d) = ∑ c : Fin 1024, x (ix3 b n c) * wk (ix2 d c) := by
  refine (val_main_v12_apply x wk _).trans ?_
  exact Finset.sum_congr rfl fun k _ => congrArg₂ (· * ·) (congrArg x (lidx12 b n d k)) (congrArg wk (ridx12 b n d k))

theorem lidx16 (b : Fin 8) (n : Fin 4096) (d k : Fin 1024) : lidx_main_v16 (ix3 b n d) k = ix3 b n k :=
  funext fun a => by match a with | ⟨0, _⟩ => rfl | ⟨1, _⟩ => rfl | ⟨2, _⟩ => rfl
theorem ridx16 (b : Fin 8) (n : Fin 4096) (d k : Fin 1024) : ridx_main_v16 (ix3 b n d) k = ix2 d k :=
  funext fun a => by match a with | ⟨0, _⟩ => rfl | ⟨1, _⟩ => rfl

/-- The value projection of row n, at (b, n, d). -/
theorem v16_at (b : Fin 8) (n : Fin 4096) (d : Fin 1024) :
    val_main_v16 (F := Ideal) x wv (ix3 b n d) = ∑ c : Fin 1024, x (ix3 b n c) * wv (ix2 d c) := by
  refine (val_main_v16_apply x wv _).trans ?_
  exact Finset.sum_congr rfl fun k _ => congrArg₂ (· * ·) (congrArg x (lidx16 b n d k)) (congrArg wv (ridx16 b n d k))

/-- Its positive part. -/
theorem v17_at (b : Fin 8) (n : Fin 4096) (d : Fin 1024) :
    val_main_v17 (F := Ideal) x wv (ix3 b n d) = max (∑ c : Fin 1024, x (ix3 b n c) * wv (ix2 d c)) 0 := by
  rw [val_main_v17_apply, val_main_call0_v0_apply, val_main_call0_cst_apply, v16_at, Ideal.ofBits_def,
    Ideal.ofBits_zero_f32, Ideal.maximumf_def]

/-! ## The pooled vector -/

theorem idx13 (b : Fin 8) (n : Fin 4096) (d : Fin 1024) : idx_main_v13 (ix3 b n d) = ix3 b n (0 : Fin 1) :=
  funext fun a => by match a with | ⟨0, _⟩ => rfl | ⟨1, _⟩ => rfl | ⟨2, _⟩ => rfl
theorem idx15 (b : Fin 8) (d : Fin 1024) (k : Fin 4096) : idx_main_v15 (ix2 b d) k = ix3 b k d :=
  funext fun a => by match a with | ⟨0, _⟩ => rfl | ⟨1, _⟩ => rfl | ⟨2, _⟩ => rfl

/-- Row n's weighted key projection, at (b, n, d). -/
theorem v14_at (b : Fin 8) (n : Fin 4096) (d : Fin 1024) :
    val_main_v14 (F := Ideal) x wi wk (ix3 b n d)
      = Ideal.div (Ideal.exp (Attn.logit (fun n c => x (ix3 b n c)) (fun c => wi (ix2 (0 : Fin 1) c)) n - refShift x wi b))
          (∑ n' : Fin 4096, Ideal.exp (Attn.logit (fun n c => x (ix3 b n c)) (fun c => wi (ix2 (0 : Fin 1) c)) n' - refShift x wi b))
        * ∑ c : Fin 1024, x (ix3 b n c) * wk (ix2 d c) := by
  rw [val_main_v14_apply, val_main_v13_apply, idx13, v11_at, v12_at, Ideal.mulf_def]

/-- The pooled vector of batch b, at (b, d): the direct arrangement at the shift. -/
theorem v15_at (b : Fin 8) (d : Fin 1024) :
    val_main_v15 (F := Ideal) x wi wk (ix2 b d)
      = Attn.pooledRef (fun n c => x (ix3 b n c)) (fun c => wi (ix2 (0 : Fin 1) c)) (fun d c => wk (ix2 d c))
          (refShift x wi b) d := by
  rw [val_main_v15_apply, val_main_cst_2_apply, Ideal.ofBits_def, Ideal.ofBits_zero_f32, zero_add]
  exact Finset.sum_congr rfl fun k _ =>
    (congrArg (val_main_v14 (F := Ideal) x wi wk) (idx15 b d k)).trans (v14_at x wi wk b k d)

/-! ## The gated row through the output projection -/

theorem idx19 (b : Fin 8) (n : Fin 4096) (d : Fin 1024) : idx_main_v19 (ix3 b n d) = ix3 b (0 : Fin 1) d :=
  funext fun a => by match a with | ⟨0, _⟩ => rfl | ⟨1, _⟩ => rfl | ⟨2, _⟩ => rfl
theorem idx18 (b : Fin 8) (d : Fin 1024) : idx_main_v18 (ix3 b (0 : Fin 1) d) = ix2 b d :=
  funext fun a => by match a with | ⟨0, _⟩ => rfl | ⟨1, _⟩ => rfl

/-- The gated entry, at (b, n, d). -/
theorem v20_at (b : Fin 8) (n : Fin 4096) (d : Fin 1024) :
    val_main_v20 (F := Ideal) x wi wk wv (ix3 b n d)
      = Attn.pooledRef (fun n c => x (ix3 b n c)) (fun c => wi (ix2 (0 : Fin 1) c)) (fun d c => wk (ix2 d c))
          (refShift x wi b) d * max (∑ c : Fin 1024, x (ix3 b n c) * wv (ix2 d c)) 0 := by
  rw [val_main_v20_apply, val_main_v19_apply, idx19, val_main_v18_apply, idx18, v15_at, v17_at, Ideal.mulf_def]

theorem lidx21 (b : Fin 8) (n : Fin 4096) (e k : Fin 1024) : lidx_main_v21 (ix3 b n e) k = ix3 b n k :=
  funext fun a => by match a with | ⟨0, _⟩ => rfl | ⟨1, _⟩ => rfl | ⟨2, _⟩ => rfl
theorem ridx21 (b : Fin 8) (n : Fin 4096) (e k : Fin 1024) : ridx_main_v21 (ix3 b n e) k = ix2 e k :=
  funext fun a => by match a with | ⟨0, _⟩ => rfl | ⟨1, _⟩ => rfl

/-- The reference's result at (b, n, e): the pooled vector of batch b gates the positive part of row n's value
    projection, and the gated row goes through the output projection. -/
theorem result_apply (b : Fin 8) (n : Fin 4096) (e : Fin 1024) :
    val_main_v21 (F := Ideal) x wi wk wv wo (ix3 b n e)
      = Attn.gatedOut
          (fun d => Attn.pooledRef (fun n c => x (ix3 b n c)) (fun c => wi (ix2 (0 : Fin 1) c)) (fun d c => wk (ix2 d c))
            (refShift x wi b) d)
          (fun c => x (ix3 b n c)) (fun d c => wv (ix2 d c)) (fun e d => wo (ix2 e d)) e := by
  refine (val_main_v21_apply x wi wk wv wo _).trans ?_
  exact Finset.sum_congr rfl fun k _ => congrArg₂ (· * ·)
    ((congrArg (val_main_v20 (F := Ideal) x wi wk wv) (lidx21 b n e k)).trans (v20_at x wi wk wv b n k))
    (congrArg wo (ridx21 b n e k))

end Cert.ReferenceIdeal.RefSide

end
-- ==== Proof.FiniteIn.lean ====
/-
  Every entry of the five input arrays is a real number, out of the precondition "all inputs are finite".

  The precondition is the conjunction, over the five arrays, of "every entry e has |e| < +∞", where |e| is max e (-e),
  +∞ is the word 0x7F800000, each "every entry" is a conjunction-reduction of comparison bits over all axes, and the
  five results are joined by "and". A conjunction that is 1 has both conjuncts 1; a conjunction-reduction over all
  axes that is 1 has the bit 1 at every index; and an extended real whose absolute value is below +∞ is a real.
-/
import proofs.«133993_j20667382628681_2_alg».proof.Pre_finite_inputs
import proofs.«133993_j20667382628681_2_alg».proof.Proof.LibRealEntries
import Idealize.ShloMosaic.Lib.ReduceAll

noncomputable section

namespace Cert.FiniteIn

open Idealize.ShloMosaic Cert.Pre_finite_inputs

/-- The rank-0 shape has exactly one index. -/
instance scalarIdx_subsingleton : Subsingleton S_.Idx := ⟨fun a b => funext fun d => d.elim0⟩

/-- One array: if the conjunction over all entries of the bit "|entry| < +∞" is 1, every entry is a real. -/
theorem real_of_all {s : Shape} {axes : List (Fin s.rank)} (v : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf v) (broadcastInDim s ![] hb (constant S_ .f32 0x7F800000#32)))
      (constantI S_ 1 1#1) hr hu j = 1#1) (i : s.Idx) : ∃ r : ℝ, v i = (r : EReal) :=
  Cert.LibRealEntries.real_of_cmp (v i) (Host.reduce_andi_all _ _ hr hu j e i)

/-- The precondition gives: every entry of x, wi, wk, wv and wo is a real. The five-fold conjunction is split from the
    outside in (the last array's test is the outermost conjunct). -/
theorem real_entries [Cert.Pre_finite_inputs.Facts]
    (x : FVec Ideal S8x4096x1024 .f32) (wi : FVec Ideal S1x1024 .f32) (wk wv wo : FVec Ideal S1024x1024 .f32)
    (h : Cert.Pre_finite_inputs.fn (F := Ideal) x wi wk wv wo = (fun _ => 1#1)) :
    (∀ i, ∃ r : ℝ, x i = (r : EReal)) ∧ (∀ i, ∃ r : ℝ, wi i = (r : EReal)) ∧ (∀ i, ∃ r : ℝ, wk i = (r : EReal))
      ∧ (∀ i, ∃ r : ℝ, wv i = (r : EReal)) ∧ (∀ i, ∃ r : ℝ, wo i = (r : EReal)) := by
  have h0 := congrFun h (fun a => a.elim0)
  dsimp only [Cert.Pre_finite_inputs.fn, Cert.Pre_finite_inputs.fn_part1] at h0
  obtain ⟨h1, ho⟩ := IntOp.andi_eq_one.1 h0
  obtain ⟨h2, hv⟩ := IntOp.andi_eq_one.1 h1
  obtain ⟨h3, hk⟩ := IntOp.andi_eq_one.1 h2
  obtain ⟨hx, hi⟩ := IntOp.andi_eq_one.1 h3
  exact ⟨real_of_all x _ _ _ _ hx, real_of_all wi _ _ _ _ hi, real_of_all wk _ _ _ _ hk,
    real_of_all wv _ _ _ _ hv, real_of_all wo _ _ _ _ ho⟩

end Cert.FiniteIn

end
-- ==== Proof.PoolLaw.lean ====
/-
  The streaming (two-tile) arrangement of softmax pooling equals the direct one, for real entries and any real shifts.
  First the identity over the reals by finite-sum algebra, then the coercion into the extended reals pushed out of
  each operation.
-/
import Idealize.ShloMosaic.PureOps.Ideal
import Mathlib.Data.EReal.Basic
import Mathlib.Algebra.BigOperators.Fin
import proofs.«133993_j20667382628681_2_alg».proof.Proof.Spec

noncomputable section

namespace Attn

open Idealize.ShloMosaic

/-! ### The identity over the reals -/

/-- The streaming arrangement and the direct one agree over the reals, for any shifts. The logits enter only
    through `ℓ` (all rows) and its restrictions `ℓ0`, `ℓ1` to the two tiles. With `w n = exp (ℓ n − m2)`:
    `exp (m1 − m2) · exp (ℓ0 n − m1) = w (e (inl n))`, so the running normaliser is `∑ n, w n` and the running weighted
    sum of rows is `∑ n, w n · x n c`; `exp (ℓ n − M) = w n · exp (m2 − M)`, so the common factor `exp (m2 − M) ≠ 0`
    cancels in the ratio; and the projection through `v` commutes with the sum over rows. -/
theorem pool_real {T N C : ℕ} (x : Fin N → Fin C → ℝ) (x0 x1 : Fin T → Fin C → ℝ) (v : Fin C → ℝ)
    (ℓ : Fin N → ℝ) (ℓ0 ℓ1 : Fin T → ℝ) (e : Fin T ⊕ Fin T ≃ Fin N)
    (h0 : ∀ n c, x (e (Sum.inl n)) c = x0 n c) (h1 : ∀ n c, x (e (Sum.inr n)) c = x1 n c)
    (hl0 : ∀ n, ℓ0 n = ℓ (e (Sum.inl n))) (hl1 : ∀ n, ℓ1 n = ℓ (e (Sum.inr n)))
    (m1 m2 M : ℝ) :
    ∑ c, ((Real.exp (m1 - m2) * ∑ n, Real.exp (ℓ0 n - m1) * x0 n c + ∑ n, Real.exp (ℓ1 n - m2) * x1 n c)
          * (1 / (Real.exp (m1 - m2) * ∑ n, Real.exp (ℓ0 n - m1) + ∑ n, Real.exp (ℓ1 n - m2)))) * v c
      = ∑ n, (Real.exp (ℓ n - M) * (1 / ∑ n', Real.exp (ℓ n' - M))) * (∑ c, x n c * v c) := by
  -- the rescaled first-tile weight is the weight at the second shift
  have ha0 : ∀ n, Real.exp (m1 - m2) * Real.exp (ℓ0 n - m1) = Real.exp (ℓ (e (Sum.inl n)) - m2) := by
    intro n
    rw [← Real.exp_add, hl0]
    congr 1
    ring
  -- the running normaliser is the full normaliser at the second shift
  have hS : Real.exp (m1 - m2) * ∑ n, Real.exp (ℓ0 n - m1) + ∑ n, Real.exp (ℓ1 n - m2)
      = ∑ n, Real.exp (ℓ n - m2) := by
    rw [Finset.mul_sum, ← Equiv.sum_comp e (fun n => Real.exp (ℓ n - m2)), Fintype.sum_sum_type]
    congr 1
    · exact Finset.sum_congr rfl (fun n _ => ha0 n)
    · exact Finset.sum_congr rfl (fun n _ => by rw [hl1])
  -- the running weighted sum of rows is the full weighted sum at the second shift
  have hA : ∀ c, Real.exp (m1 - m2) * ∑ n, Real.exp (ℓ0 n - m1) * x0 n c + ∑ n, Real.exp (ℓ1 n - m2) * x1 n c
      = ∑ n, Real.exp (ℓ n - m2) * x n c := by
    intro c
    rw [Finset.mul_sum, ← Equiv.sum_comp e (fun n => Real.exp (ℓ n - m2) * x n c), Fintype.sum_sum_type]
    congr 1
    · exact Finset.sum_congr rfl (fun n _ => by rw [← mul_assoc, ha0, h0])
    · exact Finset.sum_congr rfl (fun n _ => by rw [hl1, h1])
  -- the ratio does not depend on the shift
  have hk : Real.exp (m2 - M) ≠ 0 := (Real.exp_pos _).ne'
  have hM : ∀ n, Real.exp (ℓ n - M) = Real.exp (ℓ n - m2) * Real.exp (m2 - M) := by
    intro n
    rw [← Real.exp_add]
    congr 1
    ring
  have hR : ∀ n, Real.exp (ℓ n - M) * (1 / ∑ n', Real.exp (ℓ n' - M))
      = Real.exp (ℓ n - m2) * (1 / ∑ n', Real.exp (ℓ n' - m2)) := by
    intro n
    have hSM : ∑ n', Real.exp (ℓ n' - M) = (∑ n', Real.exp (ℓ n' - m2)) * Real.exp (m2 - M) := by
      rw [Finset.sum_mul]
      exact Finset.sum_congr rfl (fun n' _ => hM n')
    rw [hSM, hM n, mul_one_div, mul_one_div, mul_div_mul_right _ _ hk]
  simp only [hS, hA, hR]
  -- the projection commutes with the weighted sum over rows
  simp only [Finset.sum_mul, Finset.mul_sum]
  rw [Finset.sum_comm]
  refine Finset.sum_congr rfl (fun n _ => Finset.sum_congr rfl (fun c _ => ?_))
  ring

/-! ### The coercion `ℝ → EReal` through each operation -/

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N C : ℕ}

theorem logit_coe (x : Fin N → Fin C → ℝ) (wi : Fin C → ℝ) (n : Fin N) :
    logit (fun n c => ((x n c : ℝ) : EReal)) (fun c => ((wi c : ℝ) : EReal)) n
      = ((∑ c, x n c * wi c : ℝ) : EReal) := by
  simp only [logit, coe_sum, EReal.coe_mul]

theorem logitL_coe (x : Fin N → Fin C → ℝ) (wi : Fin C → ℝ) (n : Fin N) :
    logitL (fun n c => ((x n c : ℝ) : EReal)) (fun c => ((wi c : ℝ) : EReal)) n
      = ((∑ c, wi c * x n c : ℝ) : EReal) := by
  simp only [logitL, coe_sum, EReal.coe_mul]

theorem exp_logit_coe (x : Fin N → Fin C → ℝ) (wi : Fin C → ℝ) (m : ℝ) (n : Fin N) :
    Ideal.exp (logit (fun n c => ((x n c : ℝ) : EReal)) (fun c => ((wi c : ℝ) : EReal)) n - (m : EReal))
      = ((Real.exp ((∑ c, x n c * wi c) - m) : ℝ) : EReal) := by
  rw [logit_coe, ← EReal.coe_sub, Ideal.exp_coe]

theorem exp_logitL_coe (x : Fin N → Fin C → ℝ) (wi : Fin C → ℝ) (m : ℝ) (n : Fin N) :
    Ideal.exp (logitL (fun n c => ((x n c : ℝ) : EReal)) (fun c => ((wi c : ℝ) : EReal)) n - (m : EReal))
      = ((Real.exp ((∑ c, wi c * x n c) - m) : ℝ) : EReal) := by
  rw [logitL_coe, ← EReal.coe_sub, Ideal.exp_coe]

end Attn

namespace Attn

open Idealize.ShloMosaic

variable {T N C D : ℕ}

/-- The direct arrangement on real data is the coercion of its real counterpart: inside the sum over rows there is a
    row, so the normaliser is a nonempty sum of positive reals, hence nonzero, and `Ideal.div` is the real quotient. -/
theorem pooledRef_coe (x : Fin N → Fin C → ℝ) (wi : Fin C → ℝ) (wk : Fin D → Fin C → ℝ) (M : ℝ) (d : Fin D) :
    pooledRef (fun n c => ((x n c : ℝ) : EReal)) (fun c => ((wi c : ℝ) : EReal)) (fun d c => ((wk d c : ℝ) : EReal))
        (M : EReal) d
      = ((∑ n, (Real.exp ((∑ c, x n c * wi c) - M) * (1 / ∑ n', Real.exp ((∑ c, x n' c * wi c) - M)))
            * (∑ c, x n c * wk d c) : ℝ) : EReal) := by
  rw [coe_sum]
  unfold pooledRef
  refine Finset.sum_congr rfl (fun n _ => ?_)
  have hS : (∑ n', Real.exp ((∑ c, x n' c * wi c) - M)) ≠ 0 :=
    (Finset.sum_pos (fun n' _ => Real.exp_pos _) ⟨n, Finset.mem_univ n⟩).ne'
  simp only [exp_logit_coe, ← coe_sum, ← EReal.coe_mul]
  rw [Ideal.div_coe hS, ← EReal.coe_mul, ← EReal.coe_mul]

/-- The streaming arrangement on real data is the coercion of its real counterpart, the running normaliser being
    nonzero. -/
theorem pooledTiled_coe (x0 x1 : Fin T → Fin C → ℝ) (wi : Fin C → ℝ) (wk : Fin D → Fin C → ℝ) (m1 m2 : ℝ)
    (d : Fin D)
    (hL : Real.exp (m1 - m2) * ∑ n, Real.exp ((∑ c', wi c' * x0 n c') - m1)
            + ∑ n, Real.exp ((∑ c', wi c' * x1 n c') - m2) ≠ 0) :
    pooledTiled (fun n c => ((x0 n c : ℝ) : EReal)) (fun n c => ((x1 n c : ℝ) : EReal))
        (fun c => ((wi c : ℝ) : EReal)) (fun d c => ((wk d c : ℝ) : EReal)) (m1 : EReal) (m2 : EReal) d
      = ((∑ c, ((Real.exp (m1 - m2) * ∑ n, Real.exp ((∑ c', wi c' * x0 n c') - m1) * x0 n c
                  + ∑ n, Real.exp ((∑ c', wi c' * x1 n c') - m2) * x1 n c)
                * (1 / (Real.exp (m1 - m2) * ∑ n, Real.exp ((∑ c', wi c' * x0 n c') - m1)
                        + ∑ n, Real.exp ((∑ c', wi c' * x1 n c') - m2)))) * wk d c : ℝ) : EReal) := by
  have ha : Ideal.exp ((m1 : EReal) - (m2 : EReal)) = ((Real.exp (m1 - m2) : ℝ) : EReal) := by
    rw [← EReal.coe_sub, Ideal.exp_coe]
  simp only [pooledTiled, exp_logitL_coe, ha]
  simp only [← EReal.coe_mul, ← coe_sum, ← EReal.coe_add]
  simp only [Ideal.div_coe hL, ← EReal.coe_mul, ← coe_sum]

/-- The streaming arrangement over two tiles equals the direct arrangement over all rows, for real entries and any
    real shifts. -/
theorem pooledTiled_eq_pooledRef (hT : 0 < T)
    (x : Fin N → Fin C → ℝ) (x0 x1 : Fin T → Fin C → ℝ) (wi : Fin C → ℝ) (wk : Fin D → Fin C → ℝ)
    (e : Fin T ⊕ Fin T ≃ Fin N)
    (h0 : ∀ n c, x (e (Sum.inl n)) c = x0 n c) (h1 : ∀ n c, x (e (Sum.inr n)) c = x1 n c)
    (m1 m2 M : ℝ) (d : Fin D) :
    pooledTiled (fun n c => ((x0 n c : ℝ) : EReal)) (fun n c => ((x1 n c : ℝ) : EReal)) (fun c => ((wi c : ℝ) : EReal))
        (fun d c => ((wk d c : ℝ) : EReal)) (m1 : EReal) (m2 : EReal) d
      = pooledRef (fun n c => ((x n c : ℝ) : EReal)) (fun c => ((wi c : ℝ) : EReal)) (fun d c => ((wk d c : ℝ) : EReal)) (M : EReal) d := by
  -- the running normaliser is positive: its second-tile part is a nonempty sum of positive reals
  have hL : Real.exp (m1 - m2) * ∑ n, Real.exp ((∑ c', wi c' * x0 n c') - m1)
      + ∑ n, Real.exp ((∑ c', wi c' * x1 n c') - m2) ≠ 0 := by
    have h1pos : 0 < ∑ n : Fin T, Real.exp ((∑ c', wi c' * x1 n c') - m2) :=
      Finset.sum_pos (fun n _ => Real.exp_pos _) ⟨⟨0, hT⟩, Finset.mem_univ _⟩
    have h0nn : 0 ≤ Real.exp (m1 - m2) * ∑ n : Fin T, Real.exp ((∑ c', wi c' * x0 n c') - m1) :=
      mul_nonneg (Real.exp_pos _).le (Finset.sum_nonneg (fun n _ => (Real.exp_pos _).le))
    exact (add_pos_of_nonneg_of_pos h0nn h1pos).ne'
  rw [pooledTiled_coe x0 x1 wi wk m1 m2 d hL, pooledRef_coe x wi wk M d]
  congr 1
  -- the logits of the tiles are those of the corresponding rows, the factors commuted
  refine pool_real x x0 x1 (wk d) (fun n => ∑ c, x n c * wi c) (fun n => ∑ c', wi c' * x0 n c')
    (fun n => ∑ c', wi c' * x1 n c') e h0 h1 ?_ ?_ m1 m2 M
  · intro n
    exact Finset.sum_congr rfl (fun c _ => by rw [h0, mul_comm])
  · intro n
    exact Finset.sum_congr rfl (fun c _ => by rw [h1, mul_comm])

end Attn

end
-- ==== Proof.PoolJoin.lean ====
/-
  The pooling law at this kernel's tiling: 4096 rows streamed as two tiles of 2048, rows 0..2047 and 2048..4095.

  The law itself is over real entries and real shifts; here the entries and shifts are extended reals KNOWN to be reals
  (every entry of a finite input is, and so is every running shift), which is the form those facts arrive in.
-/
import proofs.«133993_j20667382628681_2_alg».proof.Proof.Spec
import proofs.«133993_j20667382628681_2_alg».proof.Proof.PoolLaw
import Mathlib.Logic.Equiv.Fin.Basic

noncomputable section

namespace Attn

/-- Row `n` of the first tile, and of the second, as rows of the whole matrix. -/
def loRow (n : Fin 2048) : Fin 4096 := ⟨n.val, by omega⟩
def hiRow (n : Fin 2048) : Fin 4096 := ⟨2048 + n.val, by omega⟩

/-- The two tiles side by side are all the rows. -/
def twoTiles : Fin 2048 ⊕ Fin 2048 ≃ Fin 4096 := (finSumFinEquiv (m := 2048) (n := 2048))

theorem twoTiles_inl (n : Fin 2048) : twoTiles (Sum.inl n) = loRow n :=
  Fin.ext (by
    show ((finSumFinEquiv (m := 2048) (n := 2048) (Sum.inl n) : Fin (2048 + 2048)) : ℕ) = n.val
    rw [finSumFinEquiv_apply_left]; rfl)
theorem twoTiles_inr (n : Fin 2048) : twoTiles (Sum.inr n) = hiRow n :=
  Fin.ext (by
    show ((finSumFinEquiv (m := 2048) (n := 2048) (Sum.inr n) : Fin (2048 + 2048)) : ℕ) = 2048 + n.val
    rw [finSumFinEquiv_apply_right]; rfl)

/-- Streaming the softmax pooling over the two tiles, at any real running shifts, is the direct pooling over all rows at
    any real shift — for a matrix, a scoring vector and a projection of real entries. -/
theorem pooled_join (x : Fin 4096 → Fin 1024 → EReal) (wi : Fin 1024 → EReal) (wk : Fin 1024 → Fin 1024 → EReal)
    (hx : ∀ n c, ∃ r : ℝ, x n c = (r : EReal)) (hwi : ∀ c, ∃ r : ℝ, wi c = (r : EReal)) (hwk : ∀ d c, ∃ r : ℝ, wk d c = (r : EReal))
    (m1 m2 M : EReal) (hm1 : ∃ r : ℝ, m1 = (r : EReal)) (hm2 : ∃ r : ℝ, m2 = (r : EReal)) (hM : ∃ r : ℝ, M = (r : EReal))
    (d : Fin 1024) :
    pooledTiled (fun n c => x (loRow n) c) (fun n c => x (hiRow n) c) wi wk m1 m2 d = pooledRef x wi wk M d := by
  choose xr hxr using hx
  choose wir hwir using hwi
  choose wkr hwkr using hwk
  obtain ⟨r1, rfl⟩ := hm1
  obtain ⟨r2, rfl⟩ := hm2
  obtain ⟨rM, rfl⟩ := hM
  obtain rfl : x = fun n c => ((xr n c : ℝ) : EReal) := funext fun n => funext fun c => hxr n c
  obtain rfl : wi = fun c => ((wir c : ℝ) : EReal) := funext fun c => hwir c
  obtain rfl : wk = fun d c => ((wkr d c : ℝ) : EReal) := funext fun d => funext fun c => hwkr d c
  exact pooledTiled_eq_pooledRef (by norm_num) xr (fun n c => xr (loRow n) c) (fun n c => xr (hiRow n) c) wir wkr twoTiles
    (fun n c => by rw [twoTiles_inl]) (fun n c => by rw [twoTiles_inr]) r1 r2 rM d

end Attn

end
-- ==== Proof.Bridge.lean ====
/-
  The value claim: run from memories agreeing on the five arguments, the idealized kernel program and the idealized
  reference end with the same result array, entry by entry, as extended reals.

  Entry (b, n, e) of either result is one function of a POOLED vector cv(b, ·) and of row n of batch b: the pooled
  vector gates the positive part of the row's value projection, and the gated row goes through the output projection.
  The two programs differ only in how they pool. The reference weighs every row's key projection by the softmax of the
  rows' logits and sums over the 4096 rows. The kernel streams the rows in two tiles of 2048, keeping a running shift, a
  running normaliser and a running weighted sum of the rows themselves in scratch, rescaling the first tile's state when
  the second arrives, and divides and projects once at the end. For finite inputs every entry, every logit and every
  shift is a real number, and then the two poolings agree: exp (m₁ − m₂) · exp (ℓ − m₁) = exp (ℓ − m₂), the softmax ratio
  does not depend on the shift, the normaliser is a sum of positive reals, and the key projection is linear so it may be
  applied after the weighted sum of rows instead of before.

  Here the pieces are put together: what the second kernel leaves in the result array, read at an entry; the pooled
  vector it reads, which is what the first kernel left; that vector as the streamed pooling of the argument arrays; the
  reference's result at an entry; and the pooling law between them.
-/
import proofs.«133993_j20667382628681_2_alg».proof.Defs
import proofs.«133993_j20667382628681_2_alg».proof.Proof.Frames
import proofs.«133993_j20667382628681_2_alg».proof.Proof.RegionXValue
import proofs.«133993_j20667382628681_2_alg».proof.Proof.ValueX
import proofs.«133993_j20667382628681_2_alg».proof.Proof.ValueY
import proofs.«133993_j20667382628681_2_alg».proof.Proof.RefSide
import proofs.«133993_j20667382628681_2_alg».proof.Proof.FiniteIn
import proofs.«133993_j20667382628681_2_alg».proof.Proof.PoolJoin
import proofs.«133993_j20667382628681_2_alg».proof.Proof.PayloadValue
import proofs.«133993_j20667382628681_2_alg».proof.Proof.Gen.KernelIdeal
import proofs.«133993_j20667382628681_2_alg».proof.Proof.Gen.ReferenceIdeal
import proofs.«133993_j20667382628681_2_alg».proof.Proof.Gen.ReferenceIdeal.Run
import proofs.«133993_j20667382628681_2_alg».proof.Proof.Gen.ReferenceIdeal.Read
import proofs.«133993_j20667382628681_2_alg».proof.Proof.Gen.Pre_finite_inputs

noncomputable section

namespace Cert.Proof.Bridge

open Idealize.ShloMosaic Idealize.ShloMosaic.TcCoe Idealize.SL.Sem Idealize.ShloMosaic.ValueIdx
open Cert.KernelIdeal Cert.KernelIdeal.Gen
open Cert.KernelIdeal.PayloadValue (rowsOf vecOf matOf)

variable (m : (ℓ : Loc nD τ sig) → Buf (Elt Ideal) ℓ) (c : Dev nD)

/-- The pooling kernel's proof data, and that they have what the program's assembly asks. -/
abbrev DX : Assembly.DatX Ideal := fun V c => RegionX.dat V c
theorem hDX : Assembly.DataX (F := Ideal) DX := RegionX.dataX

/-- The five argument arrays on core `c`. -/
abbrev X : S8x4096x1024.Idx → EReal := m ((c : Thread nD τ).loc main_arg0)
abbrev WI : S1x1024.Idx → EReal := m ((c : Thread nD τ).loc main_arg1)
abbrev WK : S1024x1024.Idx → EReal := m ((c : Thread nD τ).loc main_arg2)
abbrev WV : S1024x1024.Idx → EReal := m ((c : Thread nD τ).loc main_arg3)
abbrev WO : S1024x1024.Idx → EReal := m ((c : Thread nD τ).loc main_arg4)
/-- The buffers' contents when the first and when the second kernel is entered. -/
abbrev VX : Assembly.TcVal Ideal := Assembly.VinX m
abbrev VY : Assembly.TcVal Ideal := Assembly.VinY m DX

/-! ## Small facts -/

/-- A change of float format is the identity on extended reals, entry by entry. -/
theorem trunc_apply {S : Shape} (v : FVec Ideal S .f32) (i : S.Idx) :
    (truncf .bf16 v bitsLt_bf16_f32 : FVec Ideal S .bf16) i = v i := rfl

/-- Row `r` of the first tile is row `r`, of the second row `2048 + r`. -/
theorem row_lo (r : Fin 2048) : ValueX.rowX 0 r = Attn.loRow r :=
  Fin.ext (by show (0 : Fin 2).val * 2048 + r.val = r.val; simp)
theorem row_hi (r : Fin 2048) : ValueX.rowX 1 r = Attn.hiRow r :=
  Fin.ext (by show (1 : Fin 2).val * 2048 + r.val = 2048 + r.val; simp)

/-! ## The first kernel's blocks are the argument arrays -/

theorem tile_lo (b : Fin 8) (r : Fin 2048) (k : Fin 1024) :
    rowsOf (RegionX.tileAt (VX m) c (RegionX.ptFirst b)) r k = X m c (ix3 b (Attn.loRow r) k) := by
  refine (ValueX.xblk_apply (VX m) c b 0 r k).trans ?_
  rw [row_lo]
  exact congrFun (Assembly.VinX_main_arg0 m c) _

theorem tile_hi (b : Fin 8) (r : Fin 2048) (k : Fin 1024) :
    rowsOf (RegionX.tileAt (VX m) c (RegionX.ptLast b)) r k = X m c (ix3 b (Attn.hiRow r) k) := by
  refine (ValueX.xblk_apply (VX m) c b 1 r k).trans ?_
  rw [row_hi]
  exact congrFun (Assembly.VinX_main_arg0 m c) _

theorem score_apply (t : Fin cfg0.N) (k : Fin 1024) :
    vecOf (RegionX.scoreAt (VX m) c t) k = WI m c (ix2 (0 : Fin 1) k) := by
  refine (ValueX.blk1_at (VX m) c t (ix2 (0 : Fin 1) k)).trans ?_
  exact (congrFun (Assembly.VinX_main_v0 m c) _).trans (trunc_apply _ _)

theorem weight_apply (t : Fin cfg0.N) (d k : Fin 1024) :
    matOf (RegionX.weightAt (VX m) c t) d k = WK m c (ix2 d k) := by
  refine (ValueX.blk2_at (VX m) c t (ix2 d k)).trans ?_
  exact (congrFun (Assembly.VinX_main_v1 m c) _).trans (trunc_apply _ _)

/-! ## The running shifts -/

/-- The running shift after the first tile of batch `b`, and after the second. -/
abbrev shift1 (b : Fin 8) : EReal :=
  k0_pay8 (RegionX.tileAt (VX m) c (RegionX.ptFirst b)) (RegionX.scoreAt (VX m) c (RegionX.ptLast b)) (k0_pay3 (F := Ideal)) (ix2 (0 : Fin 1) (0 : Fin 1))
abbrev shift2 (b : Fin 8) : EReal :=
  k0_pay8 (RegionX.tileAt (VX m) c (RegionX.ptLast b)) (RegionX.scoreAt (VX m) c (RegionX.ptLast b))
    (k0_pay8 (RegionX.tileAt (VX m) c (RegionX.ptFirst b)) (RegionX.scoreAt (VX m) c (RegionX.ptLast b)) (k0_pay3 (F := Ideal))) (ix2 (0 : Fin 1) (0 : Fin 1))

/-! ## The pooled vector the second kernel reads -/

theorem cv_apply (b : Fin 8) (d : Fin 1024) :
    (VY m c main_v4 : S8x1x1024.Idx → EReal) (ix3 b (0 : Fin 1) d)
      = Attn.pooledTiled (fun r k => X m c (ix3 b (Attn.loRow r) k)) (fun r k => X m c (ix3 b (Attn.hiRow r) k))
          (fun k => WI m c (ix2 (0 : Fin 1) k)) (fun d k => WK m c (ix2 d k)) (shift1 m c b) (shift2 m c b) d := by
  refine (congrFun (Assembly.VinY_main_v4 m hDX c) _).trans ?_
  refine (ValueX.resultX_apply (VX m) c b d).trans ?_
  refine (RegionX.result_block_apply (VX m) c b d).trans ?_
  have e0 : rowsOf (RegionX.tileAt (VX m) c (RegionX.ptFirst b)) = fun r k => X m c (ix3 b (Attn.loRow r) k) :=
    funext fun r => funext fun k => tile_lo m c b r k
  have e1 : rowsOf (RegionX.tileAt (VX m) c (RegionX.ptLast b)) = fun r k => X m c (ix3 b (Attn.hiRow r) k) :=
    funext fun r => funext fun k => tile_hi m c b r k
  have e2 : vecOf (RegionX.scoreAt (VX m) c (RegionX.ptLast b)) = fun k => WI m c (ix2 (0 : Fin 1) k) :=
    funext fun k => score_apply m c _ k
  have e3 : matOf (RegionX.weightAt (VX m) c (RegionX.ptLast b)) = fun d k => WK m c (ix2 d k) :=
    funext fun d => funext fun k => weight_apply m c _ d k
  rw [e0, e1, e2, e3]

/-! ## Both results at an entry -/

theorem ker_apply (b : Fin 8) (n : Fin 4096) (e : Fin 1024) :
    ((RegionY.dat (VY m) c).arrAt 4 cfg1.N : S8x4096x1024.Idx → EReal) (ix3 b n e)
      = Attn.gatedOut
          (fun d => Attn.pooledTiled (fun r k => X m c (ix3 b (Attn.loRow r) k)) (fun r k => X m c (ix3 b (Attn.hiRow r) k))
            (fun k => WI m c (ix2 (0 : Fin 1) k)) (fun d k => WK m c (ix2 d k)) (shift1 m c b) (shift2 m c b) d)
          (fun k => X m c (ix3 b n k)) (fun d k => WV m c (ix2 d k)) (fun e d => WO m c (ix2 e d)) e := by
  rw [ValueY.resultY_gated (VY m) c b n e]
  have h4 : (fun d : Fin 1024 => (VY m c main_v4 : S8x1x1024.Idx → EReal) (ix3 b (0 : Fin 1) d))
      = fun d => Attn.pooledTiled (fun r k => X m c (ix3 b (Attn.loRow r) k)) (fun r k => X m c (ix3 b (Attn.hiRow r) k))
            (fun k => WI m c (ix2 (0 : Fin 1) k)) (fun d k => WK m c (ix2 d k)) (shift1 m c b) (shift2 m c b) d :=
    funext fun d => cv_apply m c b d
  have h0 : (fun k : Fin 1024 => (VY m c main_arg0 : S8x4096x1024.Idx → EReal) (ix3 b n k)) = fun k => X m c (ix3 b n k) :=
    funext fun k => congrFun (Assembly.VinY_main_arg0 (datX := DX) m c) _
  have h2 : (fun d k : Fin 1024 => (VY m c main_v2 : S1024x1024.Idx → EReal) (ix2 d k)) = fun d k => WV m c (ix2 d k) :=
    funext fun d => funext fun k => (congrFun (Assembly.VinY_main_v2 (datX := DX) m c) _).trans (trunc_apply _ _)
  have h3 : (fun e d : Fin 1024 => (VY m c main_v3 : S1024x1024.Idx → EReal) (ix2 e d)) = fun e d => WO m c (ix2 e d) :=
    funext fun e => funext fun d => (congrFun (Assembly.VinY_main_v3 (datX := DX) m c) _).trans (trunc_apply _ _)
  rw [h4, h0, h2, h3]

/-! ## The two results are one array -/

theorem value_eq (hpre : Cert.Pre_finite_inputs.fn (F := Ideal) (X m c) (WI m c) (WK m c) (WV m c) (WO m c) = (fun _ => 1#1)) :
    ((RegionY.dat (VY m) c).arrAt 4 cfg1.N : S8x4096x1024.Idx → EReal)
      = Cert.ReferenceIdeal.Read.val_main_v21 (F := Ideal) (X m c) (WI m c) (WK m c) (WV m c) (WO m c) := by
  obtain ⟨hx, hwi, hwk, hwv, hwo⟩ := Cert.FiniteIn.real_entries (X m c) (WI m c) (WK m c) (WV m c) (WO m c) hpre
  funext i
  obtain ⟨b, n, e, rfl⟩ : ∃ (b : Fin 8) (n : Fin 4096) (e : Fin 1024), i = ix3 b n e := ⟨i 0, i 1, i 2, eq_ix3 i⟩
  have hsc : ∀ j, ∃ r : ℝ, RegionX.scoreAt (VX m) c (RegionX.ptLast b) j = (r : EReal) := fun j => by
    obtain ⟨a, k, rfl⟩ : ∃ (a : Fin 1) (k : Fin 1024), j = ix2 a k := ⟨j 0, j 1, eq_ix2 j⟩
    obtain rfl : a = 0 := Subsingleton.elim _ _
    obtain ⟨r, hr⟩ := hwi (ix2 (0 : Fin 1) k)
    exact ⟨r, (score_apply m c (RegionX.ptLast b) k).trans hr⟩
  have ht0 : ∀ j, ∃ r : ℝ, RegionX.tileAt (VX m) c (RegionX.ptFirst b) j = (r : EReal) := fun j => by
    obtain ⟨a, r, k, rfl⟩ : ∃ (a : Fin 1) (r : Fin 2048) (k : Fin 1024), j = ix3 a r k := ⟨j 0, j 1, j 2, eq_ix3 j⟩
    obtain rfl : a = 0 := Subsingleton.elim _ _
    obtain ⟨q, hq⟩ := hx (ix3 b (Attn.loRow r) k)
    exact ⟨q, (tile_lo m c b r k).trans hq⟩
  have ht1 : ∀ j, ∃ r : ℝ, RegionX.tileAt (VX m) c (RegionX.ptLast b) j = (r : EReal) := fun j => by
    obtain ⟨a, r, k, rfl⟩ : ∃ (a : Fin 1) (r : Fin 2048) (k : Fin 1024), j = ix3 a r k := ⟨j 0, j 1, j 2, eq_ix3 j⟩
    obtain rfl : a = 0 := Subsingleton.elim _ _
    obtain ⟨q, hq⟩ := hx (ix3 b (Attn.hiRow r) k)
    exact ⟨q, (tile_hi m c b r k).trans hq⟩
  have hs1 : ∃ r : ℝ, shift1 m c b = (r : EReal) :=
    Cert.KernelIdeal.PayloadValue.shift_real _ _ _ ht0 hsc (Or.inl Cert.KernelIdeal.PayloadValue.init_apply.1)
  have hs2 : ∃ r : ℝ, shift2 m c b = (r : EReal) :=
    Cert.KernelIdeal.PayloadValue.shift_real _ _ _ ht1 hsc (Or.inr hs1)
  refine (ker_apply m c b n e).trans (Eq.trans ?_
    (Cert.ReferenceIdeal.RefSide.result_apply (X m c) (WI m c) (WK m c) (WV m c) (WO m c) b n e).symm)
  refine congrArg (fun cv : Fin 1024 → EReal => Attn.gatedOut cv (fun k => X m c (ix3 b n k)) (fun d k => WV m c (ix2 d k))
    (fun e d => WO m c (ix2 e d)) e) (funext fun d => ?_)
  exact Attn.pooled_join (fun n k => X m c (ix3 b n k)) (fun k => WI m c (ix2 (0 : Fin 1) k)) (fun d k => WK m c (ix2 d k))
    (fun _ _ => hx _) (fun _ => hwi _) (fun _ _ => hwk _) (shift1 m c b) (shift2 m c b)
    (Cert.ReferenceIdeal.RefSide.refShift (X m c) (WI m c) b) hs1 hs2
    (Cert.ReferenceIdeal.RefSide.refShift_real (X m c) (WI m c) hx hwi b) d

end Cert.Proof.Bridge

/-! ## The claims -/

namespace Cert.Proof.Claims

open Idealize.ShloMosaic Idealize.SL.Sem

/-- The reference runs and leaves its arguments unchanged: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both programs run; the kernel program's result array is what its second kernel leaves, the reference's is its
    operations' composed term; from memories agreeing on the arguments the two are one array. -/
theorem algebraic : Cert.algebraic_KernelIdeal_ReferenceIdeal := by
  intro m ρ m' ρ' hpre hagree
  refine ⟨fun c => (Cert.KernelIdeal.RegionY.dat (Cert.Proof.Bridge.VY m) c).arrAt 4 Cert.KernelIdeal.cfg1.N,
    Cert.KernelIdeal.Assembly.run_of_data m ρ Cert.Proof.Bridge.hDX, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v21_eq]
  exact (Cert.Proof.Bridge.value_eq m c (hpre c)).symm

end Cert.Proof.Claims

end
-- ==== Proof.lean ====
/-
  The proof of `Cert.Claim`: a Pallas kernel program — linear self-attention with a softmax pooling over the 4096
  rows of each batch and a gated value projection — against its plain reference, both read over the extended reals.

  The program has two kernels. The first pools: it streams each batch's rows in two tiles of 2048, keeping a running
  shift, a running normaliser and a running weighted sum of the rows in scratch between the two grid points of the batch
  (flash-attention style), and at the second tile divides, applies the key projection once and stores the pooled vector.
  The second, tile by tile, gates the positive part of the rows' value projection by the pooled vector and applies the
  output projection. The reference computes the softmax of the logits over all rows at once and applies the key
  projection to every row before weighing and summing.

  * The two kernel programs' frames (each terminates, faults nowhere, leaves its arguments as launched) are assembled
    from one record per kernel: the second kernel's body only reads its inputs and stores its result block; the first
    kernel's body is run once for a batch's first tile (resetting the scratch) and once for its last (finalising), under
    an invariant that tracks what the scratch holds between the two. Both are stated at any float instance and used at
    the word-level and at the ideal one (Proof/Frames.lean, over Proof/RegionX*.lean, Proof/RegionY.lean, Proof/Assembly.lean).
  * The reference's frame is its run with the result dropped.
  * The idealization rewrote nothing, so there is nothing to preserve.
  * The value claim: entry by entry both results are one function of a pooled vector and of the entry's row; the two
    poolings agree on finite inputs because exp (m₁ − m₂) · exp (ℓ − m₁) = exp (ℓ − m₂), the softmax ratio does not depend
    on the shift, the normaliser is a positive real, and the key projection commutes with the weighted sum of rows
    (Proof/Bridge.lean, over Proof/Spec.lean, Proof/PoolLaw.lean, Proof/PoolJoin.lean, Proof/PayloadValue.lean,
    Proof/ValueX.lean, Proof/ValueY.lean, Proof/RefSide.lean, Proof/FiniteIn.lean).
-/
import proofs.«133993_j20667382628681_2_alg».proof.Defs
import proofs.«133993_j20667382628681_2_alg».proof.Proof.Frames
import proofs.«133993_j20667382628681_2_alg».proof.Proof.Bridge
import proofs.«133993_j20667382628681_2_alg».proof.Proof.Gen.Kernel
import proofs.«133993_j20667382628681_2_alg».proof.Proof.Gen.KernelIdeal
import proofs.«133993_j20667382628681_2_alg».proof.Proof.Gen.ReferenceIdeal
import proofs.«133993_j20667382628681_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Claims.frame_ref, trivial, Claims.algebraic⟩

end Cert.Proof

end
